-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel

variable [Facts]

def fn {F : FTy → Type} [FloatOps F] (main_arg0 : FVec F S4096x256 .f32) (main_arg1 : FVec F S4096x256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  main_v8
-- ==== Kernel.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S8192x1 : Shape := ⟨2, ![8192, 1]⟩
abbrev S1024x256 : Shape := ⟨2, ![1024, 256]⟩
abbrev S1024x1 : Shape := ⟨2, ![1024, 1]⟩
abbrev S256x1024 : Shape := ⟨2, ![256, 1024]⟩
abbrev S1024x1024 : Shape := ⟨2, ![1024, 1024]⟩
abbrev S1024 : Shape := ⟨1, ![1024]⟩
abbrev S8192 : Shape := ⟨1, ![8192]⟩

abbrev nBuf : Space → Nat
  | .hbm => 41
  | .vmem => 7
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S8192x256, .bf16⟩
  | .hbm, ⟨24, _⟩ => ⟨S8192x1, .f32⟩
  | .hbm, ⟨25, _⟩ => ⟨S8192, .f32⟩
  | .hbm, ⟨26, _⟩ => ⟨S4096x256, .f32⟩
  | .hbm, ⟨27, _⟩ => ⟨S_, .f32⟩
  | .hbm, ⟨28, _⟩ => ⟨S4096, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1, .f32⟩
  | .local _ .vmem, ⟨5, _⟩ => ⟨S1024x1, .f32⟩
  | .local _ .vmem, ⟨6, _⟩ => ⟨S1024x1, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v30 : BitVec 1 := Scalar.cmpi .eq arg1 c7_i32
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  shapeCasts_S8192x1_S8192 : S8192x1.ShapeCasts S8192
  concatenates_S4096_S4096_S8192_d0 : Shape.Concatenates [S4096, S4096] S8192 0
  bcast_S_S8192 : S_.BroadcastsInDim S8192 (![] : Fin 0 → Fin S8192.rank)
  reducesTo_S8192_S_d0 : S8192.ReducesTo [0] S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v11) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x256 : Shape := ⟨2, ![4096, 256]⟩
abbrev S_ : Shape := ⟨0, ![]⟩
abbrev S4096 : Shape := ⟨1, ![4096]⟩
abbrev S4096x1 : Shape := ⟨2, ![4096, 1]⟩
abbrev S8192x256 : Shape := ⟨2, ![8192, 256]⟩
abbrev S256x8192 : Shape := ⟨2, ![256, 8192]⟩
abbrev S8192x8192 : Shape := ⟨2, ![8192, 8192]⟩
abbrev S4096x2 : Shape := ⟨2, ![4096, 2]⟩
abbrev S8192 : Shape := ⟨1, ![8192]⟩

abbrev nBuf : Space → Nat
  | .hbm => 97
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x256, .f32⟩
  | .hbm, ⟨21, _⟩ => ⟨S4096x256, .f32⟩
  | .hbm, ⟨22, _⟩ => ⟨S8192x256, .f32⟩
  | .hbm, ⟨23, _⟩ => ⟨S256x8192, .f32⟩
  | .hbm, ⟨24, _⟩ => ⟨S8192x8192, .f32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S4096, .i32⟩
  | .hbm, ⟨31, _⟩ => ⟨S4096, .i1⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i1⟩
  | .hbm, ⟨39, _⟩ => ⟨S_, .i32⟩
  | .hbm, ⟨40, _⟩ => ⟨S4096, .i32⟩
  | .hbm, ⟨41, _⟩ => ⟨S4096, .i32⟩
  | .hbm, ⟨42, _⟩ => ⟨S4096, .i32⟩
  | .hbm, ⟨43, _⟩ => ⟨S4096x1, .i32⟩
  | .hbm, ⟨44, _⟩ => ⟨S4096x1, .i32⟩
  | .hbm, ⟨45, _⟩ => ⟨S4096x2, .i32⟩
  | .hbm, ⟨46, _⟩ => ⟨S4096, .f32⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S_, .i32⟩
  | .hbm, ⟨51, _⟩ => ⟨S4096, .i32⟩
  | .hbm, ⟨52, _⟩ => ⟨S4096, .i1⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .i32⟩
  | .hbm, ⟨57, _⟩ => ⟨S_, .i32⟩
  | .hbm, ⟨58, _⟩ => ⟨S4096, .i32⟩
  | .hbm, ⟨59, _⟩ => ⟨S4096, .i1⟩
  | .hbm, ⟨60, _⟩ => ⟨S_, .i32⟩
  | .hbm, ⟨61, _⟩ => ⟨S4096, .i32⟩
  | .hbm, ⟨62, _⟩ => ⟨S4096, .i32⟩
  | .hbm, ⟨63, _⟩ => ⟨S4096, .i32⟩
  | .hbm, ⟨64, _⟩ => ⟨S4096x1, .i32⟩
  | .hbm, ⟨65, _⟩ => ⟨S4096x1, .i32⟩
  | .hbm, ⟨66, _⟩ => ⟨S4096x2, .i32⟩
  | .hbm, ⟨67, _⟩ => ⟨S4096, .f32⟩
  | .hbm, ⟨68, _⟩ => ⟨S8192, .f32⟩
  | .hbm, ⟨69, _⟩ => ⟨S_, .f32⟩
  | .hbm, ⟨70, _⟩ => ⟨S8192, .f32⟩
  | .hbm, ⟨71, _⟩ => ⟨S8192, .f32⟩
  | .hbm, ⟨72, _⟩ => ⟨S8192, .f32⟩
  | .hbm, ⟨73, _⟩ => ⟨S8192x8192, .i32⟩
  | .hbm, ⟨74, _⟩ => ⟨S8192x8192, .i32⟩
  | .hbm, ⟨75, _⟩ => ⟨S_, .i32⟩
  | .hbm, ⟨76, _⟩ => ⟨S8192x8192, .i32⟩
  | .hbm, ⟨77, _⟩ => ⟨S8192x8192, .i32⟩
  | .hbm, ⟨78, _⟩ => ⟨S8192x8192, .i1⟩
  | .hbm, ⟨79, _⟩ => ⟨S8192x8192, .f32⟩
  | .hbm, ⟨80, _⟩ => ⟨S_, .f32⟩
  | .hbm, ⟨81, _⟩ => ⟨S8192x8192, .f32⟩
  | .hbm, ⟨82, _⟩ => ⟨S8192x8192, .f32⟩
  | .hbm, ⟨83, _⟩ => ⟨S_, .f32⟩
  | .hbm, ⟨84, _⟩ => ⟨S8192x8192, .f32⟩
  | .hbm, ⟨85, _⟩ => ⟨S8192x8192, .f32⟩
  | .hbm, ⟨86, _⟩ => ⟨S8192x8192, .f32⟩
  | .hbm, ⟨87, _⟩ => ⟨S8192x8192, .f32⟩
  | .hbm, ⟨88, _⟩ => ⟨S_, .f32⟩
  | .hbm, ⟨89, _⟩ => ⟨S8192, .f32⟩
  | .hbm, ⟨90, _⟩ => ⟨S8192, .f32⟩
  | .hbm, ⟨91, _⟩ => ⟨S8192, .f32⟩
  | .hbm, ⟨92, _⟩ => ⟨S8192, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_1 : Ref sig .tc := ⟨.hbm, 29, rfl⟩
abbrev main_v16 : Ref sig .tc := ⟨.hbm, 30, rfl⟩
abbrev main_v17 : Ref sig .tc := ⟨.hbm, 31, rfl⟩
abbrev main_c_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_5 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_v56 : Ref sig .tc := ⟨.hbm, 81, rfl⟩
abbrev main_v57 : Ref sig .tc := ⟨.hbm, 82, rfl⟩
abbrev main_cst_13 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_15 : Ref sig .tc := ⟨.hbm, 93, rfl⟩
abbrev main_v66 : Ref sig .tc := ⟨.hbm, 94, rfl⟩
abbrev main_cst_16 : Ref sig .tc := ⟨.hbm, 95, rfl⟩
abbrev main_v67 : Ref sig .tc := ⟨.hbm, 96, rfl⟩

abbrev nD : Nat := 1
abbrev τ : Topo := Topo.v7x

variable {F : FTy → Type} [FloatOps F]

class Facts₀ : Prop where
  reducesTo_S4096x256_S4096_d1 : S4096x256.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x256_0_1 : S4096x1.BroadcastsInDim S4096x256 (![0, 1] : Fin 2 → Fin S4096x256.rank)
  concatenates_S4096x256_S4096x256_S8192x256_d0 : Shape.Concatenates [S4096x256, S4096x256] S8192x256 0
  transposes_S8192x256_S256x8192_1_0 : S8192x256.Transposes [1, 0] S256x8192
  bcast_S_S4096 : S_.BroadcastsInDim S4096 (![] : Fin 0 → Fin S4096.rank)
  concatenates_S4096x1_S4096x1_S4096x2_d1 : Shape.Concatenates [S4096x1, S4096x1] S4096x2 1
  concatenates_S4096_S4096_S8192_d0 : Shape.Concatenates [S4096, S4096] S8192 0
  bcast_S_S8192 : S_.BroadcastsInDim S8192 (![] : Fin 0 → Fin S8192.rank)
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_
  dot_S8192x256_S256x8192_S8192x8192_1_0_0_1_n_n_wf : DotDims.WF S8192x256 S256x8192 S8192x8192 [1] [0] [0] [1] [] []
  gather_S8192x8192_S4096x2_S4096_n_01_n_n_01_1_11_wf : GatherDims.WF S8192x8192 S4096x2 S4096 [] [0, 1] [] [0, 1] [] 1 ![1, 1]

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf
def gather_S8192x8192_S4096x2_S4096_n_01_n_n_01_1_11 : GatherDims S8192x8192 S4096x2 S4096 where
  offsetDims := []
  collapsedSliceDims := [0, 1]
  operandBatchingDims := []
  startIndicesBatchingDims := []
  startIndexMap := [0, 1]
  indexVectorDim := 1
  sliceSizes := ![1, 1]
  wf := gather_S8192x8192_S4096x2_S4096_n_01_n_n_01_1_11_wf

class Facts : Prop extends Facts₀ where

variable [Facts]
-- ==== Proof.Kernel.Runs.lean ====
/-
  The denominator kernel runs on an 8 x 8 grid: point t is row block t / 8 against column block t % 8. Its body branches
  twice on the column block alone: at the first column block it zeroes the running row sums held in its scratch column,
  and at the last one it copies them into the output block. This module states the two conditions in closed form over
  the 64 points, says where the output window is idle and where it is written back, names the buffers the body is
  called with, and opens the region's standing invariant into the scratch column and the generator register.
-/
import proofs.«173961_j1236950581990_1_alg».proof.Proof.Gen.Kernel.Launch
import proofs.«173961_j1236950581990_1_alg».proof.Proof.Gen.Kernel.Skeleton
import proofs.«173961_j1236950581990_1_alg».proof.Proof.Gen.Kernel.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditions -/

/-- "This is the first column block", as the body computes it from the grid coordinates. -/
abbrev condFirst (i : grid0.Coords) : Prop := (Scalar.cmpi .ne (Scalar.extui (Scalar.cmpi .eq (BitVec.ofNat 32 (i 1).val) 0#32)) 0#32) = 1#1
/-- It holds exactly at the points whose column block is 0. -/
theorem hcondFirst : ∀ t : Fin cfg0.N, condFirst (grid0.coords t) ↔ t.val % 8 = 0 :=
  (by decide +kernel : ∀ t : Fin grid0.N, condFirst (grid0.coords t) ↔ t.val % 8 = 0)

/-- "This is the last column block". -/
abbrev condLast (i : grid0.Coords) : Prop := k0_cond2 i = 1#1
/-- It holds exactly at the points whose column block is 7. -/
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

/-- The two input windows are never idle. -/
theorem live_in0 : ∀ t : Fin cfg0.N, cfg0.idle 0 (grid0.coords t) = false := by decide +kernel
theorem live_in1 : ∀ t : Fin cfg0.N, cfg0.idle 1 (grid0.coords t) = false := by decide +kernel
/-- Away from the last column block the output window is idle (the body stores nothing into it) … -/
theorem idle_out : ∀ t : Fin cfg0.N, ¬condLast (grid0.coords t) → cfg0.idle 2 (grid0.coords t) = true := by decide +kernel
/-- … and is not written back; -/
theorem noFlush_out : ∀ t : Fin cfg0.N, ¬condLast (grid0.coords t) → (cfg0.win 2).flush t = false := by decide +kernel
/-- at the last column block it is live. -/
theorem live_out : ∀ t : Fin cfg0.N, condLast (grid0.coords t) → cfg0.idle 2 (grid0.coords t) = false := by decide +kernel

/-! ## The buffers the body is called with -/

/-- Each window's current staging buffer at point t, and that it is a whole buffer. -/
abbrev msRow (t : Fin cfg0.N) : Memref sig .tc .vmem S1024x256 .bf16 := win0_0.stage (cfg0.slots t 0)
abbrev hsRow (t : Fin cfg0.N) : (msRow t).IsWhole := hstage0_0 ((cfg0.slots t 0).cast nbuf0_0)
abbrev msCol (t : Fin cfg0.N) : Memref sig .tc .vmem S1024x256 .bf16 := win0_1.stage (cfg0.slots t 1)
abbrev hsCol (t : Fin cfg0.N) : (msCol t).IsWhole := hstage0_1 ((cfg0.slots t 1).cast nbuf0_1)
abbrev msOut (t : Fin cfg0.N) : Memref sig .tc .vmem S1024x1 .f32 := win0_2.stage (cfg0.slots t 2)
abbrev hsOut (t : Fin cfg0.N) : (msOut t).IsWhole := hstage0_2 ((cfg0.slots t 2).cast nbuf0_2)
/-- The scratch column of running row sums. -/
abbrev scAcc : Memref sig .tc .vmem S1024x1 .f32 := Memref.whole cc0_scratch0
/-- The views through which the scratch column's and the output block's contents are stated. -/
abbrev VAcc : View sig .tc .vmem S1024x1 .f32 := scAcc.view
abbrev VOut : View sig .tc .vmem S1024x1 .f32 := (Memref.whole cc0_stg2_0 : Memref sig .tc .vmem S1024x1 .f32).view

/-- The region's standing invariant is the scratch column at some contents beside the generator register at some state. -/
theorem PhiA_eq (c : Dev nD) :
    (Pipeline.ΦA spec0 c : sProp 𝕄)
      = iprop(iprop((∃ d, owns (c : Thread nD τ) scAcc fullShare d)) ∗ (∃ r, prngReg c r)) := by
  unfold Pipeline.ΦA; rw [scopedRest0_eq]; simp only [scAcc, owns_whole]; try rfl

end Cert.Kernel.Hand

end
-- ==== Proof.Kernel.RunA.lean ====
/-
  The body at a point of the first column block: the scratch column, whatever it held, is zeroed, then the block's
  masked row sums are added; the output block is not touched.
-/
import proofs.«173961_j1236950581990_1_alg».proof.Proof.Kernel.Runs

-- membership in a rectangle of full extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At the first column block: on whole buffers — the two input blocks at x0 and x1, the output block at xi2 (handed back
    untouched), the scratch column at anything — the body runs to the continuation holding the inputs and the output as
    they were and the scratch column with the pieces LS written; the pieces are what the run finds. -/
noncomputable def runFirst (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : condFirst i) (hc1 : ¬condLast i)
    (x0 x1 : Vec F S1024x256 .bf16) :
    { LS : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.Kernel.RunB.lean ====
/-
  The body at a point of a middle column block: the block's masked row sums are added to what the scratch column held;
  the output block is not touched.
-/
import proofs.«173961_j1236950581990_1_alg».proof.Proof.Kernel.RunA

-- membership in a rectangle of full extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At a middle column block: the scratch column at xs (what the point before left). -/
noncomputable def runMiddle (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : ¬condLast i)
    (x0 x1 : Vec F S1024x256 .bf16) (xs : Vec F S1024x1 .f32) :
    { LS : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Hand

end
-- ==== Proof.Kernel.RunC.lean ====
/-
  The body at a point of the last column block: the block's masked row sums are added to what the scratch column held,
  and the finished sums are copied into the output block.
-/
import proofs.«173961_j1236950581990_1_alg».proof.Proof.Kernel.RunB

-- membership in a rectangle of full extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- At the last column block: the scratch column at xs, the output block at anything; the output block ends with the
    pieces LO written, the scratch column with LS. -/
noncomputable def runLast (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : condLast i)
    (x0 x1 : Vec F S1024x256 .bf16) (xs : Vec F S1024x1 .f32) :
    Σ' (LO : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Hand

end
-- ==== Proof.Kernel.Body.lean ====
/-
  What the denominator kernel's buffers hold point by point, for any contents V of the core's buffers when the region is
  entered. The two input windows read ONE array (the stacked unit rows): the row-block window at block t / 8 and the
  column-block window at block t % 8. At every point the scratch column ends with the running row sums: zero plus the
  first block's masked sums at the first column block, the previous contents plus this block's sums afterwards; at the
  last column block the output block receives them. The proof data name these contents; each input is held at one half
  of the shared array's share; the body obligation is a case split on the column block.
-/
import proofs.«173961_j1236950581990_1_alg».proof.Proof.Kernel.RunC

-- membership in a rectangle of full extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The column block decides the case -/

theorem notLast_of_first (t : Fin cfg0.N) (h0 : t.val % 8 = 0) : ¬condLast (grid0.coords t) :=
  fun h => by have := (hcondLast t).mp h; omega
theorem notFirst_of_last (t : Fin cfg0.N) (h1 : t.val % 8 = 7) : ¬condFirst (grid0.coords t) :=
  fun h => by have := (hcondFirst t).mp h; omega

/-! ## What each case leaves -/

/-- The output block where the body leaves it alone: a placeholder nothing consults (the window is idle there and is
    not written back). -/
def idleOut : Vec F S1024x1 .f32 := VOut.read (Elt F) (VOut.writes (Elt F) VOut.junk [])

/-- The scratch column after a point of the first column block. -/
def accFirst (c : Dev nD) (t : Fin cfg0.N) (h0 : t.val % 8 = 0) : Vec F S1024x1 .f32 :=
  VAcc.read (Elt F) (VAcc.writes (Elt F) VAcc.junk
    (runFirst c (grid0.coords t) (msRow t) (hsRow t) (msCol t) (hsCol t) (msOut t) (hsOut t) scAcc (Memref.isWhole_whole _) ((hcondFirst t).mpr h0) (notLast_of_first t h0) (iblk V c 0 t) (iblk V c 1 t)).1)

/-- Its pieces cover the column. -/
theorem coverFirst (c : Dev nD) (t : Fin cfg0.N) (h0 : t.val % 8 = 0) (y : S1024x1.Idx) :
    ∃ pc ∈ (runFirst c (grid0.coords t) (msRow t) (hsRow t) (msCol t) (hsCol t) (msOut t) (hsOut t) scAcc (Memref.isWhole_whole _) ((hcondFirst t).mpr h0) (notLast_of_first t h0) (iblk V c 0 t) (iblk V c 1 t)).1, y ∈ pc.1.set :=
  View.cover_of_tiledL _ S1024x1.size (by sl_kernel_rfl) y

/-- The scratch column after a point of a middle column block, from what it held (xs). -/
def accMiddle (c : Dev nD) (t : Fin cfg0.N) (h0 : ¬t.val % 8 = 0) (h1 : ¬t.val % 8 = 7) (xs : Vec F S1024x1 .f32) : Vec F S1024x1 .f32 :=
  VAcc.read (Elt F) (VAcc.writes (Elt F) VAcc.junk
    (runMiddle c (grid0.coords t) (msRow t) (hsRow t) (msCol t) (hsCol t) (msOut t) (hsOut t) scAcc (Memref.isWhole_whole _) (fun h => h0 ((hcondFirst t).mp h)) (fun h => h1 ((hcondLast t).mp h)) (iblk V c 0 t) (iblk V c 1 t) xs).1)

theorem coverMiddle (c : Dev nD) (t : Fin cfg0.N) (h0 : ¬t.val % 8 = 0) (h1 : ¬t.val % 8 = 7) (xs : Vec F S1024x1 .f32) (y : S1024x1.Idx) :
    ∃ pc ∈ (runMiddle c (grid0.coords t) (msRow t) (hsRow t) (msCol t) (hsCol t) (msOut t) (hsOut t) scAcc (Memref.isWhole_whole _) (fun h => h0 ((hcondFirst t).mp h)) (fun h => h1 ((hcondLast t).mp h)) (iblk V c 0 t) (iblk V c 1 t) xs).1, y ∈ pc.1.set :=
  View.cover_of_tiledL _ S1024x1.size (by sl_kernel_rfl) y

/-- The scratch column and the output block after a point of the last column block. -/
def accLast (c : Dev nD) (t : Fin cfg0.N) (h1 : t.val % 8 = 7) (xs : Vec F S1024x1 .f32) : Vec F S1024x1 .f32 :=
  VAcc.read (Elt F) (VAcc.writes (Elt F) VAcc.junk
    (runLast c (grid0.coords t) (msRow t) (hsRow t) (msCol t) (hsCol t) (msOut t) (hsOut t) scAcc (Memref.isWhole_whole _) (notFirst_of_last t h1) ((hcondLast t).mpr h1) (iblk V c 0 t) (iblk V c 1 t) xs).2.1)

theorem coverLastAcc (c : Dev nD) (t : Fin cfg0.N) (h1 : t.val % 8 = 7) (xs : Vec F S1024x1 .f32) (y : S1024x1.Idx) :
    ∃ pc ∈ (runLast c (grid0.coords t) (msRow t) (hsRow t) (msCol t) (hsCol t) (msOut t) (hsOut t) scAcc (Memref.isWhole_whole _) (notFirst_of_last t h1) ((hcondLast t).mpr h1) (iblk V c 0 t) (iblk V c 1 t) xs).2.1, y ∈ pc.1.set :=
  View.cover_of_tiledL _ S1024x1.size (by sl_kernel_rfl) y

def outLast (c : Dev nD) (t : Fin cfg0.N) (h1 : t.val % 8 = 7) (xs : Vec F S1024x1 .f32) : Vec F S1024x1 .f32 :=
  VOut.read (Elt F) (VOut.writes (Elt F) VOut.junk
    (runLast c (grid0.coords t) (msRow t) (hsRow t) (msCol t) (hsCol t) (msOut t) (hsOut t) scAcc (Memref.isWhole_whole _) (notFirst_of_last t h1) ((hcondLast t).mpr h1) (iblk V c 0 t) (iblk V c 1 t) xs).1)

theorem coverLastOut (c : Dev nD) (t : Fin cfg0.N) (h1 : t.val % 8 = 7) (xs : Vec F S1024x1 .f32) (y : S1024x1.Idx) :
    ∃ pc ∈ (runLast c (grid0.coords t) (msRow t) (hsRow t) (msCol t) (hsCol t) (msOut t) (hsOut t) scAcc (Memref.isWhole_whole _) (notFirst_of_last t h1) ((hcondLast t).mpr h1) (iblk V c 0 t) (iblk V c 1 t) xs).1, y ∈ pc.1.set :=
  View.cover_of_tiledL _ S1024x1.size (by sl_kernel_rfl) y

/-! ## The accumulation, point by point -/

/-- What the output block and the scratch column hold after the body at position n (a pair: output, scratch). -/
def outsAt (c : Dev nD) : (n : ℕ) → n < cfg0.N → Vec F S1024x1 .f32 × Vec F S1024x1 .f32
  | 0, hn => (idleOut, accFirst V c ⟨0, hn⟩ (Nat.zero_mod _))
  | n + 1, hn =>
    if h0 : (n + 1) % 8 = 0 then (idleOut, accFirst V c ⟨n + 1, hn⟩ h0)
    else if h1 : (n + 1) % 8 = 7 then
      (outLast V c ⟨n + 1, hn⟩ h1 (outsAt c n (Nat.lt_of_succ_lt hn)).2, accLast V c ⟨n + 1, hn⟩ h1 (outsAt c n (Nat.lt_of_succ_lt hn)).2)
    else (idleOut, accMiddle V c ⟨n + 1, hn⟩ h0 h1 (outsAt c n (Nat.lt_of_succ_lt hn)).2)

theorem outsAt_first (c : Dev nD) (t : Fin cfg0.N) (h0 : t.val % 8 = 0) :
    outsAt V c t.val t.isLt = (idleOut, accFirst V c t h0) := by
  obtain ⟨n, hn⟩ := t
  cases n with
  | zero => rfl
  | succ n => exact dif_pos h0

theorem outsAt_middle (c : Dev nD) (t : Fin cfg0.N) (h0 : ¬t.val % 8 = 0) (h1 : ¬t.val % 8 = 7) :
    outsAt V c t.val t.isLt = (idleOut, accMiddle V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt_last (c : Dev nD) (t : Fin cfg0.N) (h1 : t.val % 8 = 7) :
    outsAt V c t.val t.isLt = (outLast V c t h1 (outsAt V c (t.val - 1) (Nat.lt_of_le_of_lt (Nat.sub_le _ _) t.isLt)).2,
      accLast V c t h1 (outsAt V c (t.val - 1) (Nat.lt_of_le_of_lt (Nat.sub_le _ _) t.isLt)).2) := by
  obtain ⟨n, hn⟩ := t
  cases n with
  | zero => exact absurd (show (0 : ℕ) % 8 = 7 from h1) (by decide)
  | succ n =>
    have h1' : (n + 1) % 8 = 7 := h1
    exact (dif_neg (fun h0 : (n + 1) % 8 = 0 => by omega)).trans (dif_pos h1)

/-! ## The region's invariant with the scratch column named -/

/-- Before the first point the standing invariant; afterwards the scratch column at what the point before left,
    beside the generator register at some state. -/
def PhiS (c : Dev nD) : (n : ℕ) → n ≤ cfg0.N → sProp 𝕄
  | 0, _ => Pipeline.ΦA spec0 c
  | n + 1, hn => iprop(iprop(owns (c : Thread nD τ) scAcc fullShare ((outsAt V c n hn).2)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scAcc fullShare ((outsAt V c n hn).2)) ∗ (∃ r, prngReg c r)) := rfl

theorem PhiS_pos (c : Dev nD) (n : ℕ) (h : n ≤ cfg0.N) (hz : n ≠ 0) :
    PhiS V c n h = iprop(iprop(owns (c : Thread nD τ) scAcc fullShare ((outsAt V c (n - 1) (by omega)).2)) ∗ (∃ r, prngReg c r)) := by
  cases n with
  | zero => exact absurd rfl hz
  | succ n => rfl

/-! ## The proof data -/

/-- The proof data on core c: the arrays as the region finds them; after the body each input's buffer at its block and
    the output's at the accumulation's first component; the invariant names the scratch column; nothing owed; the two
    input windows hold the two halves of the shared array's share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_row (c : Dev nD) (t : Fin cfg0.N) : (dat V c).after 0 t = iblk V c 0 t := by dsimp only [dat]
theorem after_col (c : Dev nD) (t : Fin cfg0.N) : (dat V c).after 1 t = iblk V c 1 t := by dsimp only [dat]
theorem after_out (c : Dev nD) (t : Fin cfg0.N) : (dat V c).after 2 t = (outsAt V c t.val t.isLt).1 := by dsimp only [dat]

/-- Each input's current staging buffer holds its block at every point, fetched there or not. -/
theorem before_row (c : Dev nD) (t : Fin cfg0.N) (d) : (dat V c).before 0 t d = iblk V c 0 t :=
  ((dat V c).before_in_eq_fetched 0 rfl (fun _ => rfl) (fun _ _ _ => rfl)
    (fun t => by rw [after_row]; unfold Dat.blockOf iblk; rw [A_eq]; try rfl) t d).trans
    (by unfold Dat.fetched Dat.blockOf iblk; rw [A_eq]; try rfl)

theorem before_col (c : Dev nD) (t : Fin cfg0.N) (d) : (dat V c).before 1 t d = iblk V c 1 t :=
  ((dat V c).before_in_eq_fetched 1 rfl (fun _ => rfl) (fun _ _ _ => rfl)
    (fun t => by rw [after_col]; unfold Dat.blockOf iblk; rw [A_eq]; try rfl) t d).trans
    (by unfold Dat.fetched Dat.blockOf iblk; rw [A_eq]; try rfl)

/-! ## The body obligation -/

/-- What the body is called with at point t, -/
def bodyPre (c : Dev nD) (t : Fin cfg0.N) : sProp 𝕄 :=
  iprop((dat V c).Φ t.castSucc ∗ (dat V c).owesAt () t.castSucc
    ∗ (∃ d, owns (c : Thread nD τ) (msRow t) fullShare ((dat V c).before 0 t d))
    ∗ (∃ d, owns (c : Thread nD τ) (msCol t) fullShare ((dat V c).before 1 t d))
    ∗ (∃ d, owns (c : Thread nD τ) (msOut t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

theorem leaves_row (c : Dev nD) (t : Fin cfg0.N) :
    (dat V c).leavesExact 0 t = owns (c : Thread nD τ) (msRow t) fullShare (iblk V c 0 t) := by
  unfold Dat.leavesExact; rw [live_in0 t, after_row]
theorem leaves_col (c : Dev nD) (t : Fin cfg0.N) :
    (dat V c).leavesExact 1 t = owns (c : Thread nD τ) (msCol t) fullShare (iblk V c 1 t) := by
  unfold Dat.leavesExact; rw [live_in1 t, after_col]

set_option maxHeartbeats 4800000 in
/-- The body at any point: the inputs' buffers hold their blocks; the column block says which case the point is in; the
    invariant hands the body the scratch column at what the point before left (at anything before the first point, and
    the first column block does not care) and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_row, before_col]
  rw [show (dat V c).owesAt () t.succ = (dat V c).owesAt () t.castSucc from rfl]
  rw [show (dat V c).Φ t.succ = PhiS V c (t.val + 1) t.isLt from rfl, PhiS_succ, leaves_row, leaves_col]
  by_cases h0 : t.val % 8 = 0
  · -- the first column block
    rw [Dat.leavesExact_idle (dat V c) 2 t (idle_out t (notLast_of_first t h0)) (noFlush_out t (notLast_of_first t h0))]
    rw [outsAt_first V c t h0]
    unfold accFirst; (try dsimp only)
    have hΦ : (dat V c).Φ t.castSucc ⊢ (iprop(iprop((∃ d, owns (c : Thread nD τ) scAcc fullShare d)) ∗ (∃ r, prngReg c r)) : sProp 𝕄) := by
      rw [PhiS_castSucc V c t]
      by_cases hz : t.val = 0
      · rw [PhiS_zero V c _ _ hz, PhiA_eq]
      · rw [PhiS_pos V c _ _ hz]
        iintro ⟨HS, Hg⟩
        isplitl [HS]; · iexists _; iexact HS
        iexact Hg
    iintro ⟨HΦ, Ho, ⟨%d0, H0⟩, ⟨%d1, H1⟩, ⟨%d2, H2⟩⟩
    ihave HΦ' := hΦ $$ HΦ
    icases HΦ' with ⟨HS0, Hg⟩
    iapply ((runFirst c (grid0.coords t) (msRow t) (hsRow t) (msCol t) (hsCol t) (msOut t) (hsOut t) scAcc (Memref.isWhole_whole _) ((hcondFirst t).mpr h0) (notLast_of_first t h0) (iblk V c 0 t) (iblk V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hg]
    · isplitl [HS0]
      · unfold owns; iexists _; isplitr
        swap; · iexact HS0
        ipureintro; exact View.read_writes_of_cover _ _ _ _ _ (coverFirst V c t h0)
      iexact Hg
    isplitl [Ho]; · iexact Ho
    isplitl [H0]; · iexact H0
    isplitl [H1]; · iexact H1
    iexists _; iexact H2
  · have hz : t.val ≠ 0 := fun e => h0 (by rw [e])
    by_cases h1 : t.val % 8 = 7
    · -- the last column block
      rw [show (dat V c).leavesExact 2 t = owns (c : Thread nD τ) (msOut t) fullShare ((dat V c).after 2 t) from by
        unfold Dat.leavesExact; rw [live_out t ((hcondLast t).mpr h1)], after_out]
      rw [outsAt_last V c t h1]
      unfold outLast accLast; (try dsimp only)
      rw [PhiS_castSucc V c t, PhiS_pos V c _ _ hz]
      iintro ⟨⟨HS0, Hg⟩, Ho, ⟨%d0, H0⟩, ⟨%d1, H1⟩, ⟨%d2, H2⟩⟩
      iapply ((runLast c (grid0.coords t) (msRow t) (hsRow t) (msCol t) (hsCol t) (msOut t) (hsOut t) scAcc (Memref.isWhole_whole _) (notFirst_of_last t h1) ((hcondLast t).mpr h1) (iblk V c 0 t) (iblk V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (coverLastAcc V c t h1 _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut V c t h1 _)
    · -- a middle column block
      rw [Dat.leavesExact_idle (dat V c) 2 t (idle_out t (fun h => h1 ((hcondLast t).mp h))) (noFlush_out t (fun h => h1 ((hcondLast t).mp h)))]
      rw [outsAt_middle V c t h0 h1]
      unfold accMiddle; (try dsimp only)
      rw [PhiS_castSucc V c t, PhiS_pos V c _ _ hz]
      iintro ⟨⟨HS0, Hg⟩, Ho, ⟨%d0, H0⟩, ⟨%d1, H1⟩, ⟨%d2, H2⟩⟩
      iapply ((runMiddle c (grid0.coords t) (msRow t) (hsRow t) (msCol t) (hsCol t) (msOut t) (hsOut t) scAcc (Memref.isWhole_whole _) (fun h => h0 ((hcondFirst t).mp h)) (fun h => h1 ((hcondLast t).mp h)) (iblk V c 0 t) (iblk V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (coverMiddle V c t h0 h1 _)
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the standing one back: the scratch column's named contents are forgotten. -/
theorem hout (c : Dev nD) : (dat V c).Φ (Fin.last cfg0.N) ⊢ Pipeline.ΦA spec0 c := by
  have ht : (Fin.last cfg0.N).val ≠ 0 := by rw [Fin.val_last]; have : cfg0.N = 64 := N_0; omega
  rw [show (dat V c).Φ (Fin.last cfg0.N) = PhiS V c (Fin.last cfg0.N).val (Nat.le_of_lt_succ (Fin.last cfg0.N).isLt) from rfl,
    PhiS_pos V c _ _ ht, PhiA_eq]
  iintro ⟨HS0, Hg⟩
  isplitl [HS0]
  · iexists _; iexact HS0
  iexact Hg

end Cert.Kernel.Hand

end
-- ==== Proof.LibRegionRecord.lean ====
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Kit

/-!
# A kernel region's segment record over the thread state "every unscoped buffer at a valuation"

For a program whose @main is host stretches and kernel regions, the thread state between two segments is: every unscoped
TensorCore buffer of the core, whole, at a valuation; the core's generator register at some state; the core owing
nothing. This file builds, once and for any pipeline, the segment record of a kernel region over that thread state:
the region is entered at a valuation W and left at a valuation W' that holds the pipeline's arrays at what the
write-backs leave and agrees with W elsewhere. The pipeline may read prefetched tables: they are unscoped buffers, they
hold the admissible contents at W, they pass through the region's invariant whole and are put back at the exit.
-/

noncomputable section

namespace RegionRecord

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {U : Type} [URA U]
variable {Λ₀ : Idealize.SL.Sem.Labels} {P : Type} [Fintype P]

local notation "𝕄" => MT nD τ sig Unit Val ℕ U ℕ

/-- A valuation of the device's references read at the TensorCore's references of core c. -/
abbrev tcVal (W : Dev nD → Valuation τ sig Val) (c : Dev nD) (b : Ref sig .tc) : Buf Val ((c : Thread nD τ).loc b) :=
  W c (Proc.devRef .tc b)

/-- What rides beside the buffers through every segment: the core's generator register at some state, and the core
    owing nothing. -/
abbrev rider (c : Dev nD) : sProp 𝕄 :=
  iprop((∃ r, prngReg c r) ∗ ∃ Wo, owes (c : Thread nD τ) (0 : CellTallies nD τ sig Unit) Wo)

/-- The thread state: every unscoped buffer of core c whole at the valuation, beside the rider. -/
abbrev threadState (W : Dev nD → Valuation τ sig Val) (c : Dev nD) : sProp 𝕄 :=
  iprop(StableHlo.held (c : Thread nD τ) (Pipeline.ucRefs τ sig) (W c) ∗ rider (U := U) (Val := Val) c)

section Record

variable (pcs : P → PCfg sig Λ₀ Val) (a : (p : P) → (pcs p).Adm)
  (pdats : (p : P) → (c : Dev nD) → Dat τ Val Unit ℕ U ℕ (pin pcs a p) c)
  (p : P) (kit : PLaunchFacts (nD := nD) (τ := τ) pcs p)
  (defs₀ : Defs nD τ sig Val Λ₀) (𝒱₀ : Variants)
  (W W' : Dev nD → Valuation τ sig Val)

-- the library's lemmas are stated over the pinned pipeline `pin pcs a p`; matching it against the family's member takes
-- unfolding plain definitions inside a metavariable's type
set_option backward.isDefEq.respectTransparency.types false in
/-- The segment record of kernel region p between the valuations W and W'. The proof data lend whole shares and owe
    nothing; their entry arrays are read off W; the tables hold the admissible contents at W; W' has the arrays at what
    the write-backs leave and is W elsewhere; the class invariant and the whole tables yield the data's invariant
    before the first point and are yielded back after the last. -/
def regionSeg
    (hbody : ∀ c, BodyObligationLoose (pdats p c) defs₀ 𝒱₀ () Set.univ)
    (hshare : ∀ c w, (pdats p c).share w = fullShare) (howed : ∀ c t, (pdats p c).owed t = 0)
    (hrec : ∀ c, (pdats p c).recorded 0 = Set.univ)
    (hA : ∀ c w, (pdats p c).A w = tcVal W c (arrRef (pin pcs a p).spec w))
    (hpf : ∀ c k, tcVal W c ((pcs p).pre.ref k) = (a p).1 k)
    (hF : ∀ c w, (pdats p c).arrAt w (pin pcs a p).N = tcVal W' c (arrRef (pin pcs a p).spec w))
    (hrest : ∀ c b, b ∉ Finset.univ.image (arrRef (pin pcs a p).spec) → tcVal W' c b = tcVal W c b)
    (hin : ∀ c, iprop(ΦA (U := U) (pin pcs a p).spec c ∗ prefHeld (Ix := Unit) (Name := ℕ) (U := U) (Lvl := ℕ) (pcs p).pre c (fun _ => fullShare) (a p).1) ⊢ (pdats p c).Φ 0)
    (hout : ∀ c, (pdats p c).Φ (Fin.last _) ⊢ iprop(ΦA (U := U) (pin pcs a p).spec c ∗ prefHeld (Ix := Unit) (Name := ℕ) (U := U) (Lvl := ℕ) (pcs p).pre c (fun _ => fullShare) (a p).1)) :
    RegionSeg pcs a pdats () defs₀ 𝒱₀ (fun _ => ∅) (fun _ _ => 0) p where
  win := kit.win.to₀
  block_pos := kit.block_pos
  stage_whole := kit.stage_whole
  K := PEmpty
  osem k := k.elim
  ho := OwnSemFacts.none _
  hbody := hbody
  hwaits := hwaits_of_owed_zero _ _ _ _ _ _ p howed
  pre c := threadState W c
  post c := threadState W' c
  X c := iprop(∃ r, prngReg c r)
  Y c := iprop((∃ r, prngReg c r) ∗ prefHeld (Ix := Unit) (Name := ℕ) (U := U) (Lvl := ℕ) (pcs p).pre c (fun _ => fullShare) (a p).1)
  Z c := unscopedRestP (Ix := Unit) (Name := ℕ) (U := U) (Lvl := ℕ) (pcs p).pre (pin pcs a p).spec c (tcVal W c)
  hentry c := by
    rw [ownSems0_none]
    have hsplit := arrays_of_unscopedBufs (p := p) pcs a pdats kit.win kit.arr_whole c (hshare c) (tcVal W c) (hA c)
    rw [unscopedBufs_held, unscopedRest_split kit.pre c (tcVal W c),
      show (fun k => tcVal W c ((pcs p).pre.ref k)) = (a p).1 from funext (hpf c)] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Dat.owesAt owesWithin
      rw [howed c 0]
      icases HO with ⟨%Wo, HO⟩; iexists Wo; isplitr
      · ipureintro; exact fun x _ => Or.inl (by rw [hrec c]; trivial)
      iexact HO
    isplitl [Hp]; · iexact Hp
    iexact Hrest
  hin c := by
    refine BIBase.Entails.trans ?_ (hin c)
    unfold ΦA
    iintro ⟨Hp, Ht, Hr⟩
    isplitr [Ht]
    · isplitl [Hr] <;> iassumption
    · iexact Ht
  hout c := by
    refine (hout c).trans ?_
    rw [ownSems0_none]; unfold ΦA
    iintro ⟨⟨Hr, Hp⟩, Ht⟩
    isplitl [Hp Ht]
    · isplitl [Hp] <;> iassumption
    isplitr; · iempintro
    iexact Hr
  hexit c := by
    have hjoin := unscopedBufs_of_arrays (p := p) pcs a (Ix := Unit) (Name := ℕ) (U := U) (Lvl := ℕ)
      kit.win kit.arr_whole c pdats (hshare c) (tcVal W c) (tcVal W' c) ((pdats p c).arrAt · (pin pcs a p).N) (hF c) (hrest c)
    rw [unscopedBufs_held, unscopedRest_split kit.pre c (tcVal W c),
      show (fun k => tcVal W c ((pcs p).pre.ref k)) = (a p).1 from funext (hpf c)] at hjoin
    iintro ⟨Ha, HO, ⟨HY, Ht⟩, Hrest⟩
    imodintro
    isplitl [Ha Ht Hrest]
    · iapply hjoin
      isplitl [Ha]; · iexact Ha
      isplitl [Ht] <;> iassumption
    isplitl [HY]; · iexact HY
    unfold Dat.owesAt owesWithin
    rw [howed c (Fin.last _)]
    icases HO with ⟨%Wo, -, HO⟩; iexists Wo; iexact HO

end Record

section Ends

variable (pcs : P → PCfg sig Λ₀ Val) (a : (p : P) → (pcs p).Adm)
  (pdats : (p : P) → (c : Dev nD) → Dat τ Val Unit ℕ U ℕ (pin pcs a p) c)
  (p : P) (kit : PLaunchFacts (nD := nD) (τ := τ) pcs p)
  (defs₀ : Defs nD τ sig Val Λ₀) (𝒱₀ : Variants)
  (W W' : Dev nD → Valuation τ sig Val)
  (hbody : ∀ c, BodyObligationLoose (pdats p c) defs₀ 𝒱₀ () Set.univ)
  (hshare : ∀ c w, (pdats p c).share w = fullShare) (howed : ∀ c t, (pdats p c).owed t = 0)
  (hrec : ∀ c, (pdats p c).recorded 0 = Set.univ)
  (hA : ∀ c w, (pdats p c).A w = tcVal W c (arrRef (pin pcs a p).spec w))
  (hpf : ∀ c k, tcVal W c ((pcs p).pre.ref k) = (a p).1 k)
  (hF : ∀ c w, (pdats p c).arrAt w (pin pcs a p).N = tcVal W' c (arrRef (pin pcs a p).spec w))
  (hrest : ∀ c b, b ∉ Finset.univ.image (arrRef (pin pcs a p).spec) → tcVal W' c b = tcVal W c b)
  (hin : ∀ c, iprop(ΦA (U := U) (pin pcs a p).spec c ∗ prefHeld (Ix := Unit) (Name := ℕ) (U := U) (Lvl := ℕ) (pcs p).pre c (fun _ => fullShare) (a p).1) ⊢ (pdats p c).Φ 0)
  (hout : ∀ c, (pdats p c).Φ (Fin.last _) ⊢ iprop(ΦA (U := U) (pin pcs a p).spec c ∗ prefHeld (Ix := Unit) (Name := ℕ) (U := U) (Lvl := ℕ) (pcs p).pre c (fun _ => fullShare) (a p).1))

/-- The record is entered from the thread state at W … -/
theorem regionSeg_pre (c : Dev nD) :
    (regionSeg pcs a pdats p kit defs₀ 𝒱₀ W W' hbody hshare howed hrec hA hpf hF hrest hin hout).pre c = threadState W c := rfl

/-- … and left at the thread state at W'. -/
theorem regionSeg_post (c : Dev nD) :
    (regionSeg pcs a pdats p kit defs₀ 𝒱₀ W W' hbody hshare howed hrec hA hpf hF hrest hin hout).post c = threadState W' c := rfl

end Ends

end RegionRecord

end
-- ==== Proof.LibSharedRecord.lean ====
import Idealize.ShloMosaic.Lib.Pipeline.Frame
import Idealize.ShloMosaic.Lib.Pipeline.Regions
import Idealize.ShloMosaic.Lib.Pipeline.RegionsLoop
import Idealize.ShloMosaic.Lib.Pipeline.FrameSuffix
import Idealize.ShloMosaic.Lib.Pipeline.Kit
import proofs.«173961_j1236950581990_1_alg».proof.Proof.LibRegionRecord

/-!
# A kernel region's segment record when several input windows read one array

The thread state between two segments is as before: every unscoped TensorCore buffer of the core, whole, at a
valuation, beside the generator register and the core owing nothing.  Here the pipeline's windows need not sit on
distinct arrays: one array may be handed to the kernel through several input windows.  The core's unscoped buffers
then split into the DISTINCT buffers behind the windows' arrays, each whole, and the rest; how a buffer that several
windows read is dealt among them (each window a share of it) is the caller's to say, as two entailments: the distinct
buffers at the entry valuation yield the proof data's arrays at their entry contents, and the arrays at their final
contents yield the distinct buffers at the exit valuation.  The exit valuation agrees with the entry one off the arrays.
-/

noncomputable section

namespace RegionRecord

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : Nat} {τ : Topo} {sig : RefSig} {Val : EltTy → Type}
variable {U : Type} [URA U]
variable {Λ₀ : Idealize.SL.Sem.Labels} {P : Type} [Fintype P]

local notation "𝕄" => MT nD τ sig Unit Val ℕ U ℕ

section Shared

variable (pcs : P → PCfg sig Λ₀ Val) (a : (p : P) → (pcs p).Adm)
  (pdats : (p : P) → (c : Dev nD) → Dat τ Val Unit ℕ U ℕ (pin pcs a p) c)
  (p : P)
  (defs₀ : Defs nD τ sig Val Λ₀) (𝒱₀ : Variants)
  (W W' : Dev nD → Valuation τ sig Val)

-- the library's lemmas are stated over the pinned pipeline; matching it against the family's member takes unfolding
-- plain definitions inside a metavariable's type
set_option backward.isDefEq.respectTransparency.types false in
/-- The segment record of kernel region p between the valuations W and W', the windows' arrays not assumed distinct.
    `hsplit`: the distinct buffers behind the arrays, whole at W, yield the proof data's arrays at their entry
    contents.  `hjoin`: the arrays at their final contents yield those buffers whole at W'.  W' is W off the arrays. -/
def sharedRegionSeg
    (hw : WinFacts₀ (pcs p).spec) (hpre : PreFacts (pcs p).spec (pcs p).pre)
    (block_pos : ∀ w : Fin (pin pcs a p).W, 0 < ((pin pcs a p).spec w).block.numel)
    (stage_whole : ∀ (w : Fin (pin pcs a p).W) (s : Fin ((pin pcs a p).spec w).nbuf), (((pin pcs a p).spec w).stage s).IsWhole)
    (hbody : ∀ c, BodyObligationLoose (pdats p c) defs₀ 𝒱₀ () Set.univ)
    (howed : ∀ c t, (pdats p c).owed t = 0)
    (hrec : ∀ c, (pdats p c).recorded 0 = Set.univ)
    (hpf : ∀ c k, tcVal W c ((pcs p).pre.ref k) = (a p).1 k)
    (hsplit : ∀ c, (arrBufs (Ix := Unit) (Name := ℕ) (U := U) (Lvl := ℕ) (pin pcs a p).spec c (tcVal W c) : sProp 𝕄)
      ⊢ (pdats p c).arrays ((pdats p c).arrAt · 0))
    (hjoin : ∀ c, (pdats p c).arrays ((pdats p c).arrAt · (pin pcs a p).N)
      ⊢ (arrBufs (Ix := Unit) (Name := ℕ) (U := U) (Lvl := ℕ) (pin pcs a p).spec c (tcVal W' c) : sProp 𝕄))
    (hrest : ∀ c b, b ∉ Finset.univ.image (arrRef (pin pcs a p).spec) → tcVal W' c b = tcVal W c b)
    (hin : ∀ c, iprop(ΦA (U := U) (pin pcs a p).spec c ∗ prefHeld (Ix := Unit) (Name := ℕ) (U := U) (Lvl := ℕ) (pcs p).pre c (fun _ => fullShare) (a p).1) ⊢ (pdats p c).Φ 0)
    (hout : ∀ c, (pdats p c).Φ (Fin.last _) ⊢ iprop(ΦA (U := U) (pin pcs a p).spec c ∗ prefHeld (Ix := Unit) (Name := ℕ) (U := U) (Lvl := ℕ) (pcs p).pre c (fun _ => fullShare) (a p).1)) :
    RegionSeg pcs a pdats () defs₀ 𝒱₀ (fun _ => ∅) (fun _ _ => 0) p where
  win := hw
  block_pos := block_pos
  stage_whole := stage_whole
  K := PEmpty
  osem k := k.elim
  ho := OwnSemFacts.none _
  hbody := hbody
  hwaits := hwaits_of_owed_zero _ _ _ _ _ _ p howed
  pre c := threadState W c
  post c := threadState W' c
  X c := iprop(∃ r, prngReg c r)
  Y c := iprop((∃ r, prngReg c r) ∗ prefHeld (Ix := Unit) (Name := ℕ) (U := U) (Lvl := ℕ) (pcs p).pre c (fun _ => fullShare) (a p).1)
  Z c := unscopedRestP (Ix := Unit) (Name := ℕ) (U := U) (Lvl := ℕ) (pcs p).pre (pin pcs a p).spec c (tcVal W c)
  hentry c := by
    rw [ownSems0_none]
    have h0 : (unscopedBufs (Ix := Unit) (Name := ℕ) (U := U) (Lvl := ℕ) c (tcVal W c) : sProp 𝕄)
        = iprop(arrBufs (pin pcs a p).spec c (tcVal W c) ∗ unscopedRest (pin pcs a p).spec c (tcVal W c)) :=
      unscopedBufs_split₀ (pin pcs a) p hw.arr_unscoped c (tcVal W c)
    rw [unscopedBufs_held, unscopedRest_split hpre c (tcVal W c),
      show (fun k => tcVal W c ((pcs p).pre.ref k)) = (a p).1 from funext (hpf c)] at h0
    iintro ⟨⟨Hub, Hp, HO⟩, -, -⟩
    ihave H := (Entails.of_eq h0) $$ Hub
    icases H with ⟨Ha, Ht, Hrest⟩
    ihave Ha' := (hsplit c) $$ Ha
    imodintro
    isplitl [Ha']; · iexact Ha'
    isplitl [Ht]; · iexact Ht
    isplitl [HO]
    · unfold Dat.owesAt owesWithin
      rw [howed c 0]
      icases HO with ⟨%Wo, HO⟩; iexists Wo; isplitr
      · ipureintro; exact fun x _ => Or.inl (by rw [hrec c]; trivial)
      iexact HO
    isplitl [Hp]; · iexact Hp
    iexact Hrest
  hin c := by
    refine BIBase.Entails.trans ?_ (hin c)
    unfold ΦA
    iintro ⟨Hp, Ht, Hr⟩
    isplitr [Ht]
    · isplitl [Hr] <;> iassumption
    · iexact Ht
  hout c := by
    refine (hout c).trans ?_
    rw [ownSems0_none]; unfold ΦA
    iintro ⟨⟨Hr, Hp⟩, Ht⟩
    isplitl [Hp Ht]
    · isplitl [Hp] <;> iassumption
    isplitr; · iempintro
    iexact Hr
  hexit c := by
    have h0 : (unscopedBufs (Ix := Unit) (Name := ℕ) (U := U) (Lvl := ℕ) c (tcVal W' c) : sProp 𝕄)
        = iprop(arrBufs (pin pcs a p).spec c (tcVal W' c) ∗ unscopedRest (pin pcs a p).spec c (tcVal W' c)) :=
      unscopedBufs_split₀ (pin pcs a) p hw.arr_unscoped c (tcVal W' c)
    have hr : (unscopedRest (Ix := Unit) (Name := ℕ) (U := U) (Lvl := ℕ) (pin pcs a p).spec c (tcVal W' c) : sProp 𝕄)
        = unscopedRest (pin pcs a p).spec c (tcVal W c) := by
      unfold unscopedRest
      exact bigSep_congr fun b hb => by rw [hrest c b (Finset.mem_sdiff.mp hb).2]
    rw [unscopedBufs_held, hr, unscopedRest_split hpre c (tcVal W c),
      show (fun k => tcVal W c ((pcs p).pre.ref k)) = (a p).1 from funext (hpf c)] at h0
    iintro ⟨Ha, HO, ⟨HY, Ht⟩, Hrest⟩
    ihave Ha' := (hjoin c) $$ Ha
    imodintro
    isplitl [Ha' Ht Hrest]
    · iapply (Entails.of_eq h0.symm)
      isplitl [Ha']; · iexact Ha'
      isplitl [Ht] <;> iassumption
    isplitl [HY]; · iexact HY
    unfold Dat.owesAt owesWithin
    rw [howed c (Fin.last _)]
    icases HO with ⟨%Wo, -, HO⟩; iexists Wo; iexact HO

end Shared

end RegionRecord

end
-- ==== Proof.Kernel.Launch.lean ====
/-
  The run of the whole program. Its @main is four stretches of host operations (the two row norms and the two divisions,
  then stacking and rounding), the denominator kernel's region, and a last stretch (the positives, the logarithms, the
  mean). Between two of these the core holds every unscoped buffer whole at a valuation: the launch memory, then each
  stretch's results folded in, then the kernel's result array at what its write-backs leave. The region reads the stacked
  rows through two windows of ONE array: that array's whole share is dealt to the two windows half and half on entry and
  joined again on exit, its contents unchanged. Every weakly fair execution terminates with every unscoped buffer at the
  last valuation.
-/
import proofs.«173961_j1236950581990_1_alg».proof.Proof.Kernel.Body
import proofs.«173961_j1236950581990_1_alg».proof.Proof.LibSharedRecord
import Idealize.ShloMosaic.Lib.Pipeline.Regions
import Idealize.ShloMosaic.Lib.StableHlo.Run

-- membership in a rectangle of full extents recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open RegionRecord
open Idealize.ShloMosaic.Pipeline (arrBufs arrRef ucRefs HostSeg Seg)

variable (m : (ℓ : Loc nD τ sig) → Buf (Elt F) ℓ) (ρ : Dev nD → PrngReg)

/-! ## The valuations between the segments -/

/-- The one admissible table contents of a pipeline that prefetches nothing. -/
abbrev adm : (p : Fin 1) → (pcfgs (F := F) p).Adm := fun q => (cfgs q).toPCfg_adm

/-- Core c's buffers at launch, and after each of the four stretches before the region. -/
abbrev W0 (c : Dev nD) : Valuation τ sig (Elt F) := StableHlo.launchContents m c
abbrev Wa (c : Dev nD) : Valuation τ sig (Elt F) := StableHlo.after hostOps0 (W0 m c)
abbrev Wb (c : Dev nD) : Valuation τ sig (Elt F) := StableHlo.after hostOps0_1 (Wa m c)
abbrev Wc (c : Dev nD) : Valuation τ sig (Elt F) := StableHlo.after hostOps0_2 (Wb m c)
abbrev W1 (c : Dev nD) : Valuation τ sig (Elt F) := StableHlo.after hostOps0_3 (Wc m c)

/-- The region-entry contents read at the TensorCore's references. -/
abbrev Vin (c : Dev nD) (b : Ref sig .tc) : Buf (Elt F) ((c : Thread nD τ).loc b) := W1 m c (Proc.devRef .tc b)

/-- The proof data of the one pipeline. -/
def pdats (_ : Fin 1) (c : Dev nD) : Dat τ (Elt F) Unit ℕ (UR sig nD τ) ℕ cfg0 c := dat (Vin m) c

/-- The kernel's result array after the region: what the write-backs leave. -/
def result (c : Dev nD) : Buf (Elt F) ((c : Thread nD τ).loc main_v12) := (dat (Vin m) c).arrAt 2 cfg0.N

/-- After the region: the result array at what the write-backs leave, every other buffer as the region found it. -/
def W2 (c : Dev nD) : Valuation τ sig (Elt F) := Function.update (W1 m c) (Proc.devRef .tc main_v12) (result m c)

/-- After the last stretch. -/
abbrev W3 (c : Dev nD) : Valuation τ sig (Elt F) := StableHlo.after hostOps1 (W2 m c)

theorem W2_result (c : Dev nD) : W2 m c (Proc.devRef .tc main_v12) = result m c := by
  unfold W2; exact Function.update_self _ _ _

theorem W2_other (c : Dev nD) (b : Ref sig .tc) (hb : b ≠ main_v12) : W2 m c (Proc.devRef .tc b) = W1 m c (Proc.devRef .tc b) := by
  unfold W2; exact Function.update_of_ne (fun e => hb (Proc.devRef_injective _ e)) _ _

/-! ## The shared array dealt to its two windows and joined again -/

theorem arr_image : Finset.univ.image (arrRef spec0) = {main_v11, main_v12} := by decide

/-- The distinct buffers behind the windows' arrays are two: the stacked rows and the result. -/
theorem arrBufs_eq (c : Dev nD) (X : (b : Ref sig .tc) → Buf (Elt F) ((c : Thread nD τ).loc b)) :
    (arrBufs (Ix := Unit) (Name := ℕ) (U := UR sig nD τ) (Lvl := ℕ) spec0 c X : sProp 𝕄)
      = iprop((((c : Thread nD τ).loc main_v11) ↦{fullShare} X main_v11) ∗ (((c : Thread nD τ).loc main_v12) ↦{fullShare} X main_v12)) := by
  unfold Pipeline.arrBufs
  exact bigSep_eq_bigSepL_of_eq [main_v11, main_v12] arr_image (by decide) _

theorem share_row (c : Dev nD) : (dat (Vin m) c).share 0 = fullShare.left := rfl
theorem share_col (c : Dev nD) : (dat (Vin m) c).share 1 = fullShare.right := rfl
theorem share_out (c : Dev nD) : (dat (Vin m) c).share 2 = fullShare := rfl

/-- On entry: the stacked rows' array, whole, is dealt half and half to the two input windows; the result array goes
    to the output window whole. -/
theorem hsplit (c : Dev nD) :
    (arrBufs (Ix := Unit) (Name := ℕ) (U := UR sig nD τ) (Lvl := ℕ) spec0 c (Vin m c) : sProp 𝕄)
      ⊢ (dat (Vin m) c).arrays ((dat (Vin m) c).arrAt · 0) := by
  rw [arrBufs_eq]
  unfold Dat.arrays
  rw [bigSep_W0, (arr_whole0 0).set_eq_univ, (arr_whole0 2).set_eq_univ, share_row, share_col, share_out]
  iintro ⟨H11, H12⟩
  ihave H := (pointsTo_share (PosShare.mem_left_op_right fullShare)).1 $$ H11
  icases H with ⟨Hl, Hr⟩
  isplitl [Hl]; · iexact Hl
  isplitl [Hr]; · iexact Hr
  iexact H12

/-- On exit: the two halves, their contents unchanged (an input array is never written), are the whole array again;
    the result array is held at what the write-backs leave. -/
theorem hjoin (c : Dev nD) :
    (dat (Vin m) c).arrays ((dat (Vin m) c).arrAt · cfg0.N)
      ⊢ (arrBufs (Ix := Unit) (Name := ℕ) (U := UR sig nD τ) (Lvl := ℕ) spec0 c (tcVal (W2 m) c) : sProp 𝕄) := by
  have a0 : (dat (Vin m) c).arrAt 0 cfg0.N = Vin m c main_v11 := (dat (Vin m) c).arrAt_in 0 rfl _
  have a1 : (dat (Vin m) c).arrAt 1 cfg0.N = Vin m c main_v11 := (dat (Vin m) c).arrAt_in 1 rfl _
  have b1 : tcVal (W2 m) c main_v11 = Vin m c main_v11 := W2_other m c main_v11 (by decide)
  have b2 : tcVal (W2 m) c main_v12 = (dat (Vin m) c).arrAt 2 cfg0.N := W2_result m c
  rw [arrBufs_eq]
  unfold Dat.arrays
  rw [bigSep_W0, (arr_whole0 0).set_eq_univ, (arr_whole0 2).set_eq_univ, share_row, share_col, share_out, b1, b2]
  dsimp only
  rw [a0, a1]
  iintro ⟨Hl, Hr, H12⟩
  isplitl [Hl Hr]
  · iapply (pointsTo_share (PosShare.mem_left_op_right fullShare)).2
    isplitl [Hl] <;> iassumption
  iexact H12

theorem hrest (c : Dev nD) (b : Ref sig .tc) (hb : b ∉ Finset.univ.image (arrRef spec0)) : tcVal (W2 m) c b = tcVal (W1 m) c b :=
  W2_other m c b (fun e => hb (by rw [arr_image, e]; decide))

/-! ## The region's record -/

/-- A pipeline that prefetches nothing holds no table. -/
theorem noTables (c : Dev nD) (v : (pcfgs (F := F) 0).pre.Contents (Elt F)) :
    (BI.emp : sProp 𝕄) ⊢ Pipeline.prefHeld (Ix := Unit) (Name := ℕ) (U := UR sig nD τ) (Lvl := ℕ) (pcfgs (F := F) 0).pre c (fun _ => fullShare) v := by
  unfold Pipeline.prefHeld
  rw [show (Finset.univ : Finset (Fin (pcfgs (F := F) 0).pre.K)) = ∅ from Finset.univ_eq_empty_iff.mpr ⟨fun k => k.elim0⟩, BI.bigSep_empty]

/-- The denominator kernel's region between the valuation it is entered at and the one it leaves. -/
def region : Pipeline.RegionSeg (pcfgs (F := F)) adm (pdats m) () (defs₀ (F := F)) Variants.none (fun _ => ∅) (fun _ _ => 0) 0 :=
  sharedRegionSeg (pcfgs (F := F)) adm (pdats m) 0 (defs₀ (F := F)) Variants.none (W1 m) (W2 m)
    winFacts₀0 (Pipeline.PreFacts.none _) block_pos0 stage_whole0
    (fun c => (body_obligation (Vin m) c).loose) (fun _ _ => rfl) (fun _ => rfl) (fun _ k => k.elim0)
    (hsplit m) (hjoin m) (hrest m)
    (fun c => (show _ ⊢ Pipeline.ΦA spec0 c from by iintro ⟨H, -⟩; iexact H).trans (hin (Vin m) c))
    (fun c => (hout (Vin m) c).trans (by
      iintro H
      isplitl [H]; · iexact H
      iapply (noTables c _)
      iempintro))

/-! ## @main as segments -/

/-- A stretch of host operations between two valuations: it runs within the unscoped buffers. -/
def stretch (ops : List (HloOp τ sig (Elt F))) (hsub : ops.Forall fun op => op.bufs ⊆ StableHlo.tcRefs τ sig)
    (hf : ∀ op ∈ ops, op.fresh = ∅) (W : Dev nD → Valuation τ sig (Elt F)) :
    HostSeg (Name := ℕ) (U := UR sig nD τ) (pcfgs (F := F)) (defs₀ (F := F)) Variants.none (fun _ => (∅ : Finset Unit)) (fun _ _ => (0 : ℕ)) :=
  HostSeg.ofOps (pcfgs (F := F)) (defs₀ (F := F)) Variants.none (fun _ => ∅) (fun _ _ => 0) (ucRefs τ sig) ops
    (fun op hop => Pipeline.sub_ucRefs op ((List.forall_iff_forall_mem.mp hsub) op hop)) hf W (fun c => rider (U := UR sig nD τ) (Val := Elt F) c)

/-- The segments of @main, in order. -/
def segs : List (Seg (pcfgs (F := F)) adm (pdats m) () (defs₀ (F := F)) Variants.none (fun _ => (∅ : Finset Unit)) (fun _ _ => (0 : ℕ))) :=
  [ .host (stretch hostOps0 hostOps0_sub (by intro _ h; (repeat (cases h with | head => rfl | tail _ h => ?_)); exact nomatch h) (W0 m)),
    .host (stretch hostOps0_1 hostOps0_1_sub (by intro _ h; (repeat (cases h with | head => rfl | tail _ h => ?_)); exact nomatch h) (Wa m)),
    .host (stretch hostOps0_2 hostOps0_2_sub (by intro _ h; (repeat (cases h with | head => rfl | tail _ h => ?_)); exact nomatch h) (Wb m)),
    .host (stretch hostOps0_3 hostOps0_3_sub (by intro _ h; (repeat (cases h with | head => rfl | tail _ h => ?_)); exact nomatch h) (Wc m)),
    .region (region m),
    .host (stretch hostOps1 hostOps1_sub (by intro _ h; (repeat (cases h with | head => rfl | tail _ h => ?_)); exact nomatch h) (W2 m)) ]

/-! ## The run -/

-- the launch theorem's implicit arguments are found by unifying its conclusion with this one, which takes unfolding
-- plain definitions in a metavariable's type
set_option backward.isDefEq.respectTransparency.types false in
/-- From any memory with zero counters every weakly fair execution of @main terminates, and in every final state each
    unscoped buffer of each core holds the last valuation's contents. -/
theorem run_main : θ_run (defs (F := F)) (onTc (τ := τ) (main (F := F))) ⟨m, fun _ => 0, ρ⟩
    (fun r => ∀ c : Dev nD, ∀ b ∈ ucRefs τ sig, r.2.mem (((c.tc : Thread nD τ).1, b) : Loc nD τ sig) = W3 m c b) := by
  have hinj : Function.Injective (Pipeline.cellOf (nD := nD) (τ := τ) (Pipeline.pin (pcfgs (F := F)) adm)) := cellOf_inj
  refine Pipeline.θ_run_regions_kit (pcfgs (F := F)) adm (pdats m) () hinj emb₁ (defs₀ (F := F)) Variants.none (fun _ => ∅) (fun _ _ => 0)
    m ρ main (segs m) ?hmain ?hnd (fun _ => 0) (fun _ _ => rfl) (fun _ => iprop(emp))
    (initOf (Pipeline.cells (Pipeline.pin (pcfgs (F := F)) adm) hinj) (Pipeline.launchToks (Pipeline.pin (pcfgs (F := F)) adm) hinj)) ?hu₀
    (threadState (W0 m)) (fun c => iprop(StableHlo.held (c.tc : Thread nD τ) (ucRefs τ sig) (W3 m c) ∗ ∃ r, prngReg c r)) ?hch ?hinit
    (fun c s => ∀ b ∈ ucRefs τ sig, s.mem (((c.tc : Thread nD τ).1, b) : Loc nD τ sig) = W3 m c b) ?hfin (fun s h c => h c)
  case hmain =>
    intro c Q
    rw [main_chain c, Seg.run_eq_chain]
    exact .rfl
  case hnd => exact List.nodup_singleton (0 : Fin 1)
  case hu₀ =>
    iintro Hu; imodintro
    isplitl [Hu]
    · iapply (show (ownU _ : sProp 𝕄) ⊢ BI.own (emb₁ (initOf (Pipeline.cells (Pipeline.pin (pcfgs (F := F)) adm) hinj) (Pipeline.launchToks (Pipeline.pin (pcfgs (F := F)) adm) hinj))) from .rfl)
      iexact Hu
    iapply (show (BI.emp : sProp 𝕄) ⊢ bigSep Finset.univ (fun _ : Dev nD => (BI.emp : sProp 𝕄)) from by rw [BI.bigSep_emp_const])
    iempintro
  case hch =>
    refine ⟨fun _ => .rfl, fun _ => .rfl, fun _ => .rfl, fun _ => .rfl, fun _ => .rfl, fun _ => .rfl, fun c => ?_⟩
    show iprop(StableHlo.held (c.tc : Thread nD τ) (ucRefs τ sig) (W3 m c) ∗ ((∃ r, prngReg c r) ∗ ∃ Wo, owes (c : Thread nD τ) (0 : CellTallies nD τ sig Unit) Wo)) ⊢ _
    iintro ⟨Hh, Hp, Ho⟩
    isplitl [Hh Hp]
    · isplitl [Hh] <;> iassumption
    iexact Ho
  case hinit =>
    refine Pipeline.initEach (fun _ => ∅) (fun _ _ => 0) fun c => ?_
    have e := Pipeline.unscopedBufs_held (Ix := Unit) (Name := ℕ) (U := UR sig nD τ) (Lvl := ℕ) c (W0 m c)
    iintro ⟨⟨Hub, -, HO, -, Hp, -⟩, -⟩
    imodintro
    isplitl [Hub]
    · iapply (Entails.of_eq e); iexact Hub
    isplitl [Hp]
    · iexists _; iexact Hp
    iexists _; iexact HO
  case hfin =>
    intro c s'
    unfold StableHlo.held
    iintro ⟨⟨Hh, -⟩, HSI⟩
    imodintro
    iapply (pointsTo_read_all (ucRefs τ sig) (fun b => (((c.tc : Thread nD τ).1, b) : Loc nD τ sig)) (W3 m c) s')
    isplitl [Hh]
    · iexact Hh
    · iexact HSI

/-! ## The arguments end as launched; the frame -/

/-- An unscoped reference of the TensorCore is among the buffers the core holds between segments. -/
theorem mem_ucRefs (b : Ref sig .tc) (hb : (Proc.devRef (τ := τ) .tc b).isScoped = false) : Proc.devRef .tc b ∈ ucRefs τ sig := by
  unfold Pipeline.ucRefs
  exact Finset.mem_filter.mpr ⟨StableHlo.devRef_mem_tcRefs b, by simp [hb]⟩

/-- No host operation writes an argument array and the region writes only its result: the first argument ends as launched. -/
theorem W3_arg0 (c : Dev nD) : W3 m c (Proc.devRef .tc main_arg0) = m ((c.tc : Thread nD τ).loc main_arg0) := by
  have h3 : W3 m c (Proc.devRef .tc main_arg0) = W2 m c (Proc.devRef .tc main_arg0) := by
    show StableHlo.after hostOps1 (W2 m c) (Proc.devRef .tc main_arg0) = _
    after_results_simp <;> rfl
  rw [h3, W2_other m c main_arg0 (by decide)]
  show StableHlo.after hostOps0_3 (StableHlo.after hostOps0_2 (StableHlo.after hostOps0_1 (StableHlo.after hostOps0 (StableHlo.launchContents m c)))) (Proc.devRef .tc main_arg0) = _
  after_results_simp <;> rfl

/-- The same of the second. -/
theorem W3_arg1 (c : Dev nD) : W3 m c (Proc.devRef .tc main_arg1) = m ((c.tc : Thread nD τ).loc main_arg1) := by
  have h3 : W3 m c (Proc.devRef .tc main_arg1) = W2 m c (Proc.devRef .tc main_arg1) := by
    show StableHlo.after hostOps1 (W2 m c) (Proc.devRef .tc main_arg1) = _
    after_results_simp <;> rfl
  rw [h3, W2_other m c main_arg1 (by decide)]
  show StableHlo.after hostOps0_3 (StableHlo.after hostOps0_2 (StableHlo.after hostOps0_1 (StableHlo.after hostOps0 (StableHlo.launchContents m c)))) (Proc.devRef .tc main_arg1) = _
  after_results_simp <;> rfl

/-- The program runs — every weakly fair execution terminates, nothing faults — its result at the last valuation's and
    its two argument arrays unchanged. -/
theorem run_result : θ_run (defs (F := F)) (onTc (τ := τ) (main (F := F))) ⟨m, fun _ => 0, ρ⟩ (fun r => ∀ c : Dev nD,
      r.2.mem ((c.tc : Thread nD τ).loc main_v24) = W3 m c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun _ h c => ⟨h c _ (mem_ucRefs main_v24 rfl),
    (h c _ (mem_ucRefs main_arg0 rfl)).trans (W3_arg0 m c), (h c _ (mem_ucRefs main_arg1 rfl)).trans (W3_arg1 m c)⟩) (run_main m ρ)

/-- The frame: the program runs and its argument arrays end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun _ h c => (h c).2) (run_result m ρ)

end Cert.Kernel.Hand

end
-- ==== Proof.KernelIdeal.Runs.lean ====
/-
  The denominator kernel runs on an 8 x 8 grid: point t is row block t / 8 against column block t % 8. Its body branches
  twice on the column block alone: at the first column block it zeroes the running row sums held in its scratch column,
  and at the last one it copies them into the output block. This module states the two conditions in closed form over
  the 64 points, says where the output window is idle and where it is written back, names the buffers the body is
  called with, and opens the region's standing invariant into the scratch column and the generator register.
-/
import proofs.«173961_j1236950581990_1_alg».proof.Proof.Gen.KernelIdeal.Launch
import proofs.«173961_j1236950581990_1_alg».proof.Proof.Gen.KernelIdeal.Skeleton
import proofs.«173961_j1236950581990_1_alg».proof.Proof.Gen.KernelIdeal.Points
import Idealize.ShloMosaic.Lib.Pipeline.FrameBody
import Idealize.ShloMosaic.Lib.Ring
import Idealize.ShloMosaic.Lib.Tactic

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions -/

/-- "This is the first column block", as the body computes it from the grid coordinates. -/
abbrev condFirst (i : grid0.Coords) : Prop := (Scalar.cmpi .ne (Scalar.extui (Scalar.cmpi .eq (BitVec.ofNat 32 (i 1).val) 0#32)) 0#32) = 1#1
/-- It holds exactly at the points whose column block is 0. -/
theorem hcondFirst : ∀ t : Fin cfg0.N, condFirst (grid0.coords t) ↔ t.val % 8 = 0 :=
  (by decide +kernel : ∀ t : Fin grid0.N, condFirst (grid0.coords t) ↔ t.val % 8 = 0)

/-- "This is the last column block". -/
abbrev condLast (i : grid0.Coords) : Prop := k0_cond2 i = 1#1
/-- It holds exactly at the points whose column block is 7. -/
theorem hcondLast : ∀ t : Fin cfg0.N, condLast (grid0.coords t) ↔ t.val % 8 = 7 :=
  (by decide +kernel : ∀ t : Fin grid0.N, condLast (grid0.coords t) ↔ t.val % 8 = 7)

/-! ## Where the windows are idle -/

/-- The two input windows are never idle. -/
theorem live_in0 : ∀ t : Fin cfg0.N, cfg0.idle 0 (grid0.coords t) = false := by decide +kernel
theorem live_in1 : ∀ t : Fin cfg0.N, cfg0.idle 1 (grid0.coords t) = false := by decide +kernel
/-- Away from the last column block the output window is idle (the body stores nothing into it) … -/
theorem idle_out : ∀ t : Fin cfg0.N, ¬condLast (grid0.coords t) → cfg0.idle 2 (grid0.coords t) = true := by decide +kernel
/-- … and is not written back; -/
theorem noFlush_out : ∀ t : Fin cfg0.N, ¬condLast (grid0.coords t) → (cfg0.win 2).flush t = false := by decide +kernel
/-- at the last column block it is live. -/
theorem live_out : ∀ t : Fin cfg0.N, condLast (grid0.coords t) → cfg0.idle 2 (grid0.coords t) = false := by decide +kernel

/-! ## The buffers the body is called with -/

/-- Each window's current staging buffer at point t, and that it is a whole buffer. -/
abbrev msRow (t : Fin cfg0.N) : Memref sig .tc .vmem S1024x256 .bf16 := win0_0.stage (cfg0.slots t 0)
abbrev hsRow (t : Fin cfg0.N) : (msRow t).IsWhole := hstage0_0 ((cfg0.slots t 0).cast nbuf0_0)
abbrev msCol (t : Fin cfg0.N) : Memref sig .tc .vmem S1024x256 .bf16 := win0_1.stage (cfg0.slots t 1)
abbrev hsCol (t : Fin cfg0.N) : (msCol t).IsWhole := hstage0_1 ((cfg0.slots t 1).cast nbuf0_1)
abbrev msOut (t : Fin cfg0.N) : Memref sig .tc .vmem S1024x1 .f32 := win0_2.stage (cfg0.slots t 2)
abbrev hsOut (t : Fin cfg0.N) : (msOut t).IsWhole := hstage0_2 ((cfg0.slots t 2).cast nbuf0_2)
/-- The scratch column of running row sums. -/
abbrev scAcc : Memref sig .tc .vmem S1024x1 .f32 := Memref.whole cc0_scratch0
/-- The views through which the scratch column's and the output block's contents are stated. -/
abbrev VAcc : View sig .tc .vmem S1024x1 .f32 := scAcc.view
abbrev VOut : View sig .tc .vmem S1024x1 .f32 := (Memref.whole cc0_stg2_0 : Memref sig .tc .vmem S1024x1 .f32).view

/-- The region's standing invariant is the scratch column at some contents beside the generator register at some state. -/
theorem PhiA_eq (c : Dev nD) :
    (Pipeline.ΦA spec0 c : sProp 𝕄)
      = iprop(iprop((∃ d, owns (c : Thread nD τ) scAcc fullShare d)) ∗ (∃ r, prngReg c r)) := by
  unfold Pipeline.ΦA; rw [scopedRest0_eq]; simp only [scAcc, owns_whole]; try rfl

end Cert.KernelIdeal.Hand

end
-- ==== Proof.KernelIdeal.RunA.lean ====
/-
  The body at a point of the first column block: the scratch column, whatever it held, is zeroed, then the block's
  masked row sums are added; the output block is not touched.
-/
import proofs.«173961_j1236950581990_1_alg».proof.Proof.KernelIdeal.Runs

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At the first column block: on whole buffers — the two input blocks at x0 and x1, the output block at xi2 (handed back
    untouched), the scratch column at anything — the body runs to the continuation holding the inputs and the output as
    they were and the scratch column with the pieces LS written; the pieces are what the run finds. -/
noncomputable def runFirst (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : condFirst i) (hc1 : ¬condLast i)
    (x0 x1 : Vec F S1024x256 .bf16) :
    { LS : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KernelIdeal.RunB.lean ====
/-
  The body at a point of a middle column block: the block's masked row sums are added to what the scratch column held;
  the output block is not touched.
-/
import proofs.«173961_j1236950581990_1_alg».proof.Proof.KernelIdeal.RunA

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At a middle column block: the scratch column at xs (what the point before left). -/
noncomputable def runMiddle (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : ¬condLast i)
    (x0 x1 : Vec F S1024x256 .bf16) (xs : Vec F S1024x1 .f32) :
    { LS : List (View.Piece (Elt F) S1024x1 .f32) //
      ∀ (xi2 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨?_, fun xi2 E K => ?run⟩
  case run =>
    simp only [cc0__denom_kernel_eq_skeleton]; unfold cc0__denom_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Hand

end
-- ==== Proof.KernelIdeal.RunC.lean ====
/-
  The body at a point of the last column block: the block's masked row sums are added to what the scratch column held,
  and the finished sums are copied into the output block.
-/
import proofs.«173961_j1236950581990_1_alg».proof.Proof.KernelIdeal.RunB

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- At the last column block: the scratch column at xs, the output block at anything; the output block ends with the
    pieces LO written, the scratch column with LS. -/
noncomputable def runLast (c : Dev nD) (i : grid0.Coords) (arg2 : Memref sig .tc .vmem S1024x256 .bf16) (harg2 : arg2.IsWhole) (arg3 : Memref sig .tc .vmem S1024x256 .bf16) (harg3 : arg3.IsWhole) (arg4 : Memref sig .tc .vmem S1024x1 .f32) (harg4 : arg4.IsWhole) (arg5 : Memref sig .tc .vmem S1024x1 .f32) (harg5 : arg5.IsWhole) (hc0 : ¬condFirst i) (hc1 : condLast i)
    (x0 x1 : Vec F S1024x256 .bf16) (xs : Vec F S1024x1 .f32) :
    Σ' (LO : List (View.Piece (Elt F) S1024x1 .f32)), { LS : List (View.Piece (Elt F) S1024x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LS)) -∗ K ⟨⟩))
          ⊢ wp frame (wpE (defs₀ (F := F)) Variants.none c none) E (cc0__denom_kernel i arg2 harg2 arg3 harg3 arg4 harg4 arg5 harg5) K } := by
  refine ⟨?_, ?_, fun E K => ?run⟩
  case run =>
    simp only [cc0__denom_kernel_eq_skeleton]; unfold cc0__denom_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Hand

end
-- ==== Proof.KernelIdeal.Body.lean ====
/-
  What the denominator kernel's buffers hold point by point, for any contents V of the core's buffers when the region is
  entered. The two input windows read ONE array (the stacked unit rows): the row-block window at block t / 8 and the
  column-block window at block t % 8. At every point the scratch column ends with the running row sums: zero plus the
  first block's masked sums at the first column block, the previous contents plus this block's sums afterwards; at the
  last column block the output block receives them. The proof data name these contents; each input is held at one half
  of the shared array's share; the body obligation is a case split on the column block.
-/
import proofs.«173961_j1236950581990_1_alg».proof.Proof.KernelIdeal.RunC

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The column block decides the case -/

theorem notLast_of_first (t : Fin cfg0.N) (h0 : t.val % 8 = 0) : ¬condLast (grid0.coords t) :=
  fun h => by have := (hcondLast t).mp h; omega
theorem notFirst_of_last (t : Fin cfg0.N) (h1 : t.val % 8 = 7) : ¬condFirst (grid0.coords t) :=
  fun h => by have := (hcondFirst t).mp h; omega

/-! ## What each case leaves -/

/-- The output block where the body leaves it alone: a placeholder nothing consults (the window is idle there and is
    not written back). -/
def idleOut : Vec F S1024x1 .f32 := VOut.read (Elt F) (VOut.writes (Elt F) VOut.junk [])

/-- The scratch column after a point of the first column block. -/
def accFirst (c : Dev nD) (t : Fin cfg0.N) (h0 : t.val % 8 = 0) : Vec F S1024x1 .f32 :=
  VAcc.read (Elt F) (VAcc.writes (Elt F) VAcc.junk
    (runFirst c (grid0.coords t) (msRow t) (hsRow t) (msCol t) (hsCol t) (msOut t) (hsOut t) scAcc (Memref.isWhole_whole _) ((hcondFirst t).mpr h0) (notLast_of_first t h0) (iblk V c 0 t) (iblk V c 1 t)).1)

/-- Its pieces cover the column. -/
theorem coverFirst (c : Dev nD) (t : Fin cfg0.N) (h0 : t.val % 8 = 0) (y : S1024x1.Idx) :
    ∃ pc ∈ (runFirst c (grid0.coords t) (msRow t) (hsRow t) (msCol t) (hsCol t) (msOut t) (hsOut t) scAcc (Memref.isWhole_whole _) ((hcondFirst t).mpr h0) (notLast_of_first t h0) (iblk V c 0 t) (iblk V c 1 t)).1, y ∈ pc.1.set :=
  View.cover_of_tiledL _ S1024x1.size (by sl_kernel_rfl) y

/-- The scratch column after a point of a middle column block, from what it held (xs). -/
def accMiddle (c : Dev nD) (t : Fin cfg0.N) (h0 : ¬t.val % 8 = 0) (h1 : ¬t.val % 8 = 7) (xs : Vec F S1024x1 .f32) : Vec F S1024x1 .f32 :=
  VAcc.read (Elt F) (VAcc.writes (Elt F) VAcc.junk
    (runMiddle c (grid0.coords t) (msRow t) (hsRow t) (msCol t) (hsCol t) (msOut t) (hsOut t) scAcc (Memref.isWhole_whole _) (fun h => h0 ((hcondFirst t).mp h)) (fun h => h1 ((hcondLast t).mp h)) (iblk V c 0 t) (iblk V c 1 t) xs).1)

theorem coverMiddle (c : Dev nD) (t : Fin cfg0.N) (h0 : ¬t.val % 8 = 0) (h1 : ¬t.val % 8 = 7) (xs : Vec F S1024x1 .f32) (y : S1024x1.Idx) :
    ∃ pc ∈ (runMiddle c (grid0.coords t) (msRow t) (hsRow t) (msCol t) (hsCol t) (msOut t) (hsOut t) scAcc (Memref.isWhole_whole _) (fun h => h0 ((hcondFirst t).mp h)) (fun h => h1 ((hcondLast t).mp h)) (iblk V c 0 t) (iblk V c 1 t) xs).1, y ∈ pc.1.set :=
  View.cover_of_tiledL _ S1024x1.size (by sl_kernel_rfl) y

/-- The scratch column and the output block after a point of the last column block. -/
def accLast (c : Dev nD) (t : Fin cfg0.N) (h1 : t.val % 8 = 7) (xs : Vec F S1024x1 .f32) : Vec F S1024x1 .f32 :=
  VAcc.read (Elt F) (VAcc.writes (Elt F) VAcc.junk
    (runLast c (grid0.coords t) (msRow t) (hsRow t) (msCol t) (hsCol t) (msOut t) (hsOut t) scAcc (Memref.isWhole_whole _) (notFirst_of_last t h1) ((hcondLast t).mpr h1) (iblk V c 0 t) (iblk V c 1 t) xs).2.1)

theorem coverLastAcc (c : Dev nD) (t : Fin cfg0.N) (h1 : t.val % 8 = 7) (xs : Vec F S1024x1 .f32) (y : S1024x1.Idx) :
    ∃ pc ∈ (runLast c (grid0.coords t) (msRow t) (hsRow t) (msCol t) (hsCol t) (msOut t) (hsOut t) scAcc (Memref.isWhole_whole _) (notFirst_of_last t h1) ((hcondLast t).mpr h1) (iblk V c 0 t) (iblk V c 1 t) xs).2.1, y ∈ pc.1.set :=
  View.cover_of_tiledL _ S1024x1.size (by sl_kernel_rfl) y

def outLast (c : Dev nD) (t : Fin cfg0.N) (h1 : t.val % 8 = 7) (xs : Vec F S1024x1 .f32) : Vec F S1024x1 .f32 :=
  VOut.read (Elt F) (VOut.writes (Elt F) VOut.junk
    (runLast c (grid0.coords t) (msRow t) (hsRow t) (msCol t) (hsCol t) (msOut t) (hsOut t) scAcc (Memref.isWhole_whole _) (notFirst_of_last t h1) ((hcondLast t).mpr h1) (iblk V c 0 t) (iblk V c 1 t) xs).1)

theorem coverLastOut (c : Dev nD) (t : Fin cfg0.N) (h1 : t.val % 8 = 7) (xs : Vec F S1024x1 .f32) (y : S1024x1.Idx) :
    ∃ pc ∈ (runLast c (grid0.coords t) (msRow t) (hsRow t) (msCol t) (hsCol t) (msOut t) (hsOut t) scAcc (Memref.isWhole_whole _) (notFirst_of_last t h1) ((hcondLast t).mpr h1) (iblk V c 0 t) (iblk V c 1 t) xs).1, y ∈ pc.1.set :=
  View.cover_of_tiledL _ S1024x1.size (by sl_kernel_rfl) y

/-! ## The accumulation, point by point -/

/-- What the output block and the scratch column hold after the body at position n (a pair: output, scratch). -/
def outsAt (c : Dev nD) : (n : ℕ) → n < cfg0.N → Vec F S1024x1 .f32 × Vec F S1024x1 .f32
  | 0, hn => (idleOut, accFirst V c ⟨0, hn⟩ (Nat.zero_mod _))
  | n + 1, hn =>
    if h0 : (n + 1) % 8 = 0 then (idleOut, accFirst V c ⟨n + 1, hn⟩ h0)
    else if h1 : (n + 1) % 8 = 7 then
      (outLast V c ⟨n + 1, hn⟩ h1 (outsAt c n (Nat.lt_of_succ_lt hn)).2, accLast V c ⟨n + 1, hn⟩ h1 (outsAt c n (Nat.lt_of_succ_lt hn)).2)
    else (idleOut, accMiddle V c ⟨n + 1, hn⟩ h0 h1 (outsAt c n (Nat.lt_of_succ_lt hn)).2)

theorem outsAt_first (c : Dev nD) (t : Fin cfg0.N) (h0 : t.val % 8 = 0) :
    outsAt V c t.val t.isLt = (idleOut, accFirst V c t h0) := by
  obtain ⟨n, hn⟩ := t
  cases n with
  | zero => rfl
  | succ n => exact dif_pos h0

theorem outsAt_middle (c : Dev nD) (t : Fin cfg0.N) (h0 : ¬t.val % 8 = 0) (h1 : ¬t.val % 8 = 7) :
    outsAt V c t.val t.isLt = (idleOut, accMiddle V c t h0 h1 (outsAt V c (t.val - 1) (Nat.lt_of_le_of_lt (Nat.sub_le _ _) t.isLt)).2) := by
  obtain ⟨n, hn⟩ := t
  cases n with
  | zero => exact absurd (Nat.zero_mod _) h0
  | succ n => exact (dif_neg h0).trans (dif_neg h1)

theorem outsAt_last (c : Dev nD) (t : Fin cfg0.N) (h1 : t.val % 8 = 7) :
    outsAt V c t.val t.isLt = (outLast V c t h1 (outsAt V c (t.val - 1) (Nat.lt_of_le_of_lt (Nat.sub_le _ _) t.isLt)).2,
      accLast V c t h1 (outsAt V c (t.val - 1) (Nat.lt_of_le_of_lt (Nat.sub_le _ _) t.isLt)).2) := by
  obtain ⟨n, hn⟩ := t
  cases n with
  | zero => exact absurd (show (0 : ℕ) % 8 = 7 from h1) (by decide)
  | succ n =>
    have h1' : (n + 1) % 8 = 7 := h1
    exact (dif_neg (fun h0 : (n + 1) % 8 = 0 => by omega)).trans (dif_pos h1)

/-! ## The region's invariant with the scratch column named -/

/-- Before the first point the standing invariant; afterwards the scratch column at what the point before left,
    beside the generator register at some state. -/
def PhiS (c : Dev nD) : (n : ℕ) → n ≤ cfg0.N → sProp 𝕄
  | 0, _ => Pipeline.ΦA spec0 c
  | n + 1, hn => iprop(iprop(owns (c : Thread nD τ) scAcc fullShare ((outsAt V c n hn).2)) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scAcc fullShare ((outsAt V c n hn).2)) ∗ (∃ r, prngReg c r)) := rfl

theorem PhiS_pos (c : Dev nD) (n : ℕ) (h : n ≤ cfg0.N) (hz : n ≠ 0) :
    PhiS V c n h = iprop(iprop(owns (c : Thread nD τ) scAcc fullShare ((outsAt V c (n - 1) (by omega)).2)) ∗ (∃ r, prngReg c r)) := by
  cases n with
  | zero => exact absurd rfl hz
  | succ n => rfl

/-! ## The proof data -/

/-- The proof data on core c: the arrays as the region finds them; after the body each input's buffer at its block and
    the output's at the accumulation's first component; the invariant names the scratch column; nothing owed; the two
    input windows hold the two halves of the shared array's share. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_row (c : Dev nD) (t : Fin cfg0.N) : (dat V c).after 0 t = iblk V c 0 t := by dsimp only [dat]
theorem after_col (c : Dev nD) (t : Fin cfg0.N) : (dat V c).after 1 t = iblk V c 1 t := by dsimp only [dat]
theorem after_out (c : Dev nD) (t : Fin cfg0.N) : (dat V c).after 2 t = (outsAt V c t.val t.isLt).1 := by dsimp only [dat]

/-- Each input's current staging buffer holds its block at every point, fetched there or not. -/
theorem before_row (c : Dev nD) (t : Fin cfg0.N) (d) : (dat V c).before 0 t d = iblk V c 0 t :=
  ((dat V c).before_in_eq_fetched 0 rfl (fun _ => rfl) (fun _ _ _ => rfl)
    (fun t => by rw [after_row]; unfold Dat.blockOf iblk; rw [A_eq]; try rfl) t d).trans
    (by unfold Dat.fetched Dat.blockOf iblk; rw [A_eq]; try rfl)

theorem before_col (c : Dev nD) (t : Fin cfg0.N) (d) : (dat V c).before 1 t d = iblk V c 1 t :=
  ((dat V c).before_in_eq_fetched 1 rfl (fun _ => rfl) (fun _ _ _ => rfl)
    (fun t => by rw [after_col]; unfold Dat.blockOf iblk; rw [A_eq]; try rfl) t d).trans
    (by unfold Dat.fetched Dat.blockOf iblk; rw [A_eq]; try rfl)

/-! ## The body obligation -/

/-- What the body is called with at point t, -/
def bodyPre (c : Dev nD) (t : Fin cfg0.N) : sProp 𝕄 :=
  iprop((dat V c).Φ t.castSucc ∗ (dat V c).owesAt () t.castSucc
    ∗ (∃ d, owns (c : Thread nD τ) (msRow t) fullShare ((dat V c).before 0 t d))
    ∗ (∃ d, owns (c : Thread nD τ) (msCol t) fullShare ((dat V c).before 1 t d))
    ∗ (∃ d, owns (c : Thread nD τ) (msOut t) fullShare ((dat V c).before 2 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

theorem leaves_row (c : Dev nD) (t : Fin cfg0.N) :
    (dat V c).leavesExact 0 t = owns (c : Thread nD τ) (msRow t) fullShare (iblk V c 0 t) := by
  unfold Dat.leavesExact; rw [live_in0 t, after_row]
theorem leaves_col (c : Dev nD) (t : Fin cfg0.N) :
    (dat V c).leavesExact 1 t = owns (c : Thread nD τ) (msCol t) fullShare (iblk V c 1 t) := by
  unfold Dat.leavesExact; rw [live_in1 t, after_col]

set_option maxHeartbeats 4800000 in
/-- The body at any point: the inputs' buffers hold their blocks; the column block says which case the point is in; the
    invariant hands the body the scratch column at what the point before left (at anything before the first point, and
    the first column block does not care) and takes it back at this point's contents; the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_row, before_col]
  rw [show (dat V c).owesAt () t.succ = (dat V c).owesAt () t.castSucc from rfl]
  rw [show (dat V c).Φ t.succ = PhiS V c (t.val + 1) t.isLt from rfl, PhiS_succ, leaves_row, leaves_col]
  by_cases h0 : t.val % 8 = 0
  · -- the first column block
    rw [Dat.leavesExact_idle (dat V c) 2 t (idle_out t (notLast_of_first t h0)) (noFlush_out t (notLast_of_first t h0))]
    rw [outsAt_first V c t h0]
    unfold accFirst; (try dsimp only)
    have hΦ : (dat V c).Φ t.castSucc ⊢ (iprop(iprop((∃ d, owns (c : Thread nD τ) scAcc fullShare d)) ∗ (∃ r, prngReg c r)) : sProp 𝕄) := by
      rw [PhiS_castSucc V c t]
      by_cases hz : t.val = 0
      · rw [PhiS_zero V c _ _ hz, PhiA_eq]
      · rw [PhiS_pos V c _ _ hz]
        iintro ⟨HS, Hg⟩
        isplitl [HS]; · iexists _; iexact HS
        iexact Hg
    iintro ⟨HΦ, Ho, ⟨%d0, H0⟩, ⟨%d1, H1⟩, ⟨%d2, H2⟩⟩
    ihave HΦ' := hΦ $$ HΦ
    icases HΦ' with ⟨HS0, Hg⟩
    iapply ((runFirst c (grid0.coords t) (msRow t) (hsRow t) (msCol t) (hsCol t) (msOut t) (hsOut t) scAcc (Memref.isWhole_whole _) ((hcondFirst t).mpr h0) (notLast_of_first t h0) (iblk V c 0 t) (iblk V c 1 t)).2 _ Set.univ _)
    isplitl [H0]; · iexact H0
    isplitl [H1]; · iexact H1
    isplitl [H2]; · iexact H2
    isplitl [HS0]; · iexact HS0
    iintro ⟨H0, H1, H2, ⟨%es0, HS0⟩⟩
    isplitl [HS0 Hg]
    · isplitl [HS0]
      · unfold owns; iexists _; isplitr
        swap; · iexact HS0
        ipureintro; exact View.read_writes_of_cover _ _ _ _ _ (coverFirst V c t h0)
      iexact Hg
    isplitl [Ho]; · iexact Ho
    isplitl [H0]; · iexact H0
    isplitl [H1]; · iexact H1
    iexists _; iexact H2
  · have hz : t.val ≠ 0 := fun e => h0 (by rw [e])
    by_cases h1 : t.val % 8 = 7
    · -- the last column block
      rw [show (dat V c).leavesExact 2 t = owns (c : Thread nD τ) (msOut t) fullShare ((dat V c).after 2 t) from by
        unfold Dat.leavesExact; rw [live_out t ((hcondLast t).mpr h1)], after_out]
      rw [outsAt_last V c t h1]
      unfold outLast accLast; (try dsimp only)
      rw [PhiS_castSucc V c t, PhiS_pos V c _ _ hz]
      iintro ⟨⟨HS0, Hg⟩, Ho, ⟨%d0, H0⟩, ⟨%d1, H1⟩, ⟨%d2, H2⟩⟩
      iapply ((runLast c (grid0.coords t) (msRow t) (hsRow t) (msCol t) (hsCol t) (msOut t) (hsOut t) scAcc (Memref.isWhole_whole _) (notFirst_of_last t h1) ((hcondLast t).mpr h1) (iblk V c 0 t) (iblk V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (coverLastAcc V c t h1 _)
        iexact Hg
      isplitl [Ho]; · iexact Ho
      isplitl [H0]; · iexact H0
      isplitl [H1]; · iexact H1
      unfold owns; iexists _; isplitr
      swap; · iexact H2
      ipureintro; exact View.read_writes_of_cover _ _ _ _ _ (coverLastOut V c t h1 _)
    · -- a middle column block
      rw [Dat.leavesExact_idle (dat V c) 2 t (idle_out t (fun h => h1 ((hcondLast t).mp h))) (noFlush_out t (fun h => h1 ((hcondLast t).mp h)))]
      rw [outsAt_middle V c t h0 h1]
      unfold accMiddle; (try dsimp only)
      rw [PhiS_castSucc V c t, PhiS_pos V c _ _ hz]
      iintro ⟨⟨HS0, Hg⟩, Ho, ⟨%d0, H0⟩, ⟨%d1, H1⟩, ⟨%d2, H2⟩⟩
      iapply ((runMiddle c (grid0.coords t) (msRow t) (hsRow t) (msCol t) (hsCol t) (msOut t) (hsOut t) scAcc (Memref.isWhole_whole _) (fun h => h0 ((hcondFirst t).mp h)) (fun h => h1 ((hcondLast t).mp h)) (iblk V c 0 t) (iblk V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hg]
      · isplitl [HS0]
        · unfold owns; iexists _; isplitr
          swap; · iexact HS0
          ipureintro; exact View.read_writes_of_cover _ _ _ _ _ (coverMiddle V c t h0 h1 _)
        iexact Hg
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After the last point the invariant gives the standing one back: the scratch column's named contents are forgotten. -/
theorem hout (c : Dev nD) : (dat V c).Φ (Fin.last cfg0.N) ⊢ Pipeline.ΦA spec0 c := by
  have ht : (Fin.last cfg0.N).val ≠ 0 := by rw [Fin.val_last]; have : cfg0.N = 64 := N_0; omega
  rw [show (dat V c).Φ (Fin.last cfg0.N) = PhiS V c (Fin.last cfg0.N).val (Nat.le_of_lt_succ (Fin.last cfg0.N).isLt) from rfl,
    PhiS_pos V c _ _ ht, PhiA_eq]
  iintro ⟨HS0, Hg⟩
  isplitl [HS0]
  · iexists _; iexact HS0
  iexact Hg

end Cert.KernelIdeal.Hand

end
-- ==== Proof.KernelIdeal.Launch.lean ====
/-
  The run of the whole program. Its @main is four stretches of host operations (the two row norms and the two divisions,
  then stacking and rounding), the denominator kernel's region, and a last stretch (the positives, the logarithms, the
  mean). Between two of these the core holds every unscoped buffer whole at a valuation: the launch memory, then each
  stretch's results folded in, then the kernel's result array at what its write-backs leave. The region reads the stacked
  rows through two windows of ONE array: that array's whole share is dealt to the two windows half and half on entry and
  joined again on exit, its contents unchanged. Every weakly fair execution terminates with every unscoped buffer at the
  last valuation.
-/
import proofs.«173961_j1236950581990_1_alg».proof.Proof.KernelIdeal.Body
import proofs.«173961_j1236950581990_1_alg».proof.Proof.LibSharedRecord
import Idealize.ShloMosaic.Lib.Pipeline.Regions
import Idealize.ShloMosaic.Lib.StableHlo.Run

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open RegionRecord
open Idealize.ShloMosaic.Pipeline (arrBufs arrRef ucRefs HostSeg Seg)

variable (m : (ℓ : Loc nD τ sig) → Buf (Elt F) ℓ) (ρ : Dev nD → PrngReg)

/-! ## The valuations between the segments -/

/-- The one admissible table contents of a pipeline that prefetches nothing. -/
abbrev adm : (p : Fin 1) → (pcfgs (F := F) p).Adm := fun q => (cfgs q).toPCfg_adm

/-- Core c's buffers at launch, and after each of the four stretches before the region. -/
abbrev W0 (c : Dev nD) : Valuation τ sig (Elt F) := StableHlo.launchContents m c
abbrev Wa (c : Dev nD) : Valuation τ sig (Elt F) := StableHlo.after hostOps0 (W0 m c)
abbrev Wb (c : Dev nD) : Valuation τ sig (Elt F) := StableHlo.after hostOps0_1 (Wa m c)
abbrev Wc (c : Dev nD) : Valuation τ sig (Elt F) := StableHlo.after hostOps0_2 (Wb m c)
abbrev W1 (c : Dev nD) : Valuation τ sig (Elt F) := StableHlo.after hostOps0_3 (Wc m c)

/-- The region-entry contents read at the TensorCore's references. -/
abbrev Vin (c : Dev nD) (b : Ref sig .tc) : Buf (Elt F) ((c : Thread nD τ).loc b) := W1 m c (Proc.devRef .tc b)

/-- The proof data of the one pipeline. -/
def pdats (_ : Fin 1) (c : Dev nD) : Dat τ (Elt F) Unit ℕ (UR sig nD τ) ℕ cfg0 c := dat (Vin m) c

/-- The kernel's result array after the region: what the write-backs leave. -/
def result (c : Dev nD) : Buf (Elt F) ((c : Thread nD τ).loc main_v12) := (dat (Vin m) c).arrAt 2 cfg0.N

/-- After the region: the result array at what the write-backs leave, every other buffer as the region found it. -/
def W2 (c : Dev nD) : Valuation τ sig (Elt F) := Function.update (W1 m c) (Proc.devRef .tc main_v12) (result m c)

/-- After the last stretch. -/
abbrev W3 (c : Dev nD) : Valuation τ sig (Elt F) := StableHlo.after hostOps1 (W2 m c)

theorem W2_result (c : Dev nD) : W2 m c (Proc.devRef .tc main_v12) = result m c := by
  unfold W2; exact Function.update_self _ _ _

theorem W2_other (c : Dev nD) (b : Ref sig .tc) (hb : b ≠ main_v12) : W2 m c (Proc.devRef .tc b) = W1 m c (Proc.devRef .tc b) := by
  unfold W2; exact Function.update_of_ne (fun e => hb (Proc.devRef_injective _ e)) _ _

/-! ## The shared array dealt to its two windows and joined again -/

theorem arr_image : Finset.univ.image (arrRef spec0) = {main_v11, main_v12} := by decide

/-- The distinct buffers behind the windows' arrays are two: the stacked rows and the result. -/
theorem arrBufs_eq (c : Dev nD) (X : (b : Ref sig .tc) → Buf (Elt F) ((c : Thread nD τ).loc b)) :
    (arrBufs (Ix := Unit) (Name := ℕ) (U := UR sig nD τ) (Lvl := ℕ) spec0 c X : sProp 𝕄)
      = iprop((((c : Thread nD τ).loc main_v11) ↦{fullShare} X main_v11) ∗ (((c : Thread nD τ).loc main_v12) ↦{fullShare} X main_v12)) := by
  unfold Pipeline.arrBufs
  exact bigSep_eq_bigSepL_of_eq [main_v11, main_v12] arr_image (by decide) _

theorem share_row (c : Dev nD) : (dat (Vin m) c).share 0 = fullShare.left := rfl
theorem share_col (c : Dev nD) : (dat (Vin m) c).share 1 = fullShare.right := rfl
theorem share_out (c : Dev nD) : (dat (Vin m) c).share 2 = fullShare := rfl

/-- On entry: the stacked rows' array, whole, is dealt half and half to the two input windows; the result array goes
    to the output window whole. -/
theorem hsplit (c : Dev nD) :
    (arrBufs (Ix := Unit) (Name := ℕ) (U := UR sig nD τ) (Lvl := ℕ) spec0 c (Vin m c) : sProp 𝕄)
      ⊢ (dat (Vin m) c).arrays ((dat (Vin m) c).arrAt · 0) := by
  rw [arrBufs_eq]
  unfold Dat.arrays
  rw [bigSep_W0, (arr_whole0 0).set_eq_univ, (arr_whole0 2).set_eq_univ, share_row, share_col, share_out]
  iintro ⟨H11, H12⟩
  ihave H := (pointsTo_share (PosShare.mem_left_op_right fullShare)).1 $$ H11
  icases H with ⟨Hl, Hr⟩
  isplitl [Hl]; · iexact Hl
  isplitl [Hr]; · iexact Hr
  iexact H12

/-- On exit: the two halves, their contents unchanged (an input array is never written), are the whole array again;
    the result array is held at what the write-backs leave. -/
theorem hjoin (c : Dev nD) :
    (dat (Vin m) c).arrays ((dat (Vin m) c).arrAt · cfg0.N)
      ⊢ (arrBufs (Ix := Unit) (Name := ℕ) (U := UR sig nD τ) (Lvl := ℕ) spec0 c (tcVal (W2 m) c) : sProp 𝕄) := by
  have a0 : (dat (Vin m) c).arrAt 0 cfg0.N = Vin m c main_v11 := (dat (Vin m) c).arrAt_in 0 rfl _
  have a1 : (dat (Vin m) c).arrAt 1 cfg0.N = Vin m c main_v11 := (dat (Vin m) c).arrAt_in 1 rfl _
  have b1 : tcVal (W2 m) c main_v11 = Vin m c main_v11 := W2_other m c main_v11 (by decide)
  have b2 : tcVal (W2 m) c main_v12 = (dat (Vin m) c).arrAt 2 cfg0.N := W2_result m c
  rw [arrBufs_eq]
  unfold Dat.arrays
  rw [bigSep_W0, (arr_whole0 0).set_eq_univ, (arr_whole0 2).set_eq_univ, share_row, share_col, share_out, b1, b2]
  dsimp only
  rw [a0, a1]
  iintro ⟨Hl, Hr, H12⟩
  isplitl [Hl Hr]
  · iapply (pointsTo_share (PosShare.mem_left_op_right fullShare)).2
    isplitl [Hl] <;> iassumption
  iexact H12

theorem hrest (c : Dev nD) (b : Ref sig .tc) (hb : b ∉ Finset.univ.image (arrRef spec0)) : tcVal (W2 m) c b = tcVal (W1 m) c b :=
  W2_other m c b (fun e => hb (by rw [arr_image, e]; decide))

/-! ## The region's record -/

/-- A pipeline that prefetches nothing holds no table. -/
theorem noTables (c : Dev nD) (v : (pcfgs (F := F) 0).pre.Contents (Elt F)) :
    (BI.emp : sProp 𝕄) ⊢ Pipeline.prefHeld (Ix := Unit) (Name := ℕ) (U := UR sig nD τ) (Lvl := ℕ) (pcfgs (F := F) 0).pre c (fun _ => fullShare) v := by
  unfold Pipeline.prefHeld
  rw [show (Finset.univ : Finset (Fin (pcfgs (F := F) 0).pre.K)) = ∅ from Finset.univ_eq_empty_iff.mpr ⟨fun k => k.elim0⟩, BI.bigSep_empty]

/-- The denominator kernel's region between the valuation it is entered at and the one it leaves. -/
def region : Pipeline.RegionSeg (pcfgs (F := F)) adm (pdats m) () (defs₀ (F := F)) Variants.none (fun _ => ∅) (fun _ _ => 0) 0 :=
  sharedRegionSeg (pcfgs (F := F)) adm (pdats m) 0 (defs₀ (F := F)) Variants.none (W1 m) (W2 m)
    winFacts₀0 (Pipeline.PreFacts.none _) block_pos0 stage_whole0
    (fun c => (body_obligation (Vin m) c).loose) (fun _ _ => rfl) (fun _ => rfl) (fun _ k => k.elim0)
    (hsplit m) (hjoin m) (hrest m)
    (fun c => (show _ ⊢ Pipeline.ΦA spec0 c from by iintro ⟨H, -⟩; iexact H).trans (hin (Vin m) c))
    (fun c => (hout (Vin m) c).trans (by
      iintro H
      isplitl [H]; · iexact H
      iapply (noTables c _)
      iempintro))

/-! ## @main as segments -/

/-- A stretch of host operations between two valuations: it runs within the unscoped buffers. -/
def stretch (ops : List (HloOp τ sig (Elt F))) (hsub : ops.Forall fun op => op.bufs ⊆ StableHlo.tcRefs τ sig)
    (hf : ∀ op ∈ ops, op.fresh = ∅) (W : Dev nD → Valuation τ sig (Elt F)) :
    HostSeg (Name := ℕ) (U := UR sig nD τ) (pcfgs (F := F)) (defs₀ (F := F)) Variants.none (fun _ => (∅ : Finset Unit)) (fun _ _ => (0 : ℕ)) :=
  HostSeg.ofOps (pcfgs (F := F)) (defs₀ (F := F)) Variants.none (fun _ => ∅) (fun _ _ => 0) (ucRefs τ sig) ops
    (fun op hop => Pipeline.sub_ucRefs op ((List.forall_iff_forall_mem.mp hsub) op hop)) hf W (fun c => rider (U := UR sig nD τ) (Val := Elt F) c)

/-- The segments of @main, in order. -/
def segs : List (Seg (pcfgs (F := F)) adm (pdats m) () (defs₀ (F := F)) Variants.none (fun _ => (∅ : Finset Unit)) (fun _ _ => (0 : ℕ))) :=
  [ .host (stretch hostOps0 hostOps0_sub (by intro _ h; (repeat (cases h with | head => rfl | tail _ h => ?_)); exact nomatch h) (W0 m)),
    .host (stretch hostOps0_1 hostOps0_1_sub (by intro _ h; (repeat (cases h with | head => rfl | tail _ h => ?_)); exact nomatch h) (Wa m)),
    .host (stretch hostOps0_2 hostOps0_2_sub (by intro _ h; (repeat (cases h with | head => rfl | tail _ h => ?_)); exact nomatch h) (Wb m)),
    .host (stretch hostOps0_3 hostOps0_3_sub (by intro _ h; (repeat (cases h with | head => rfl | tail _ h => ?_)); exact nomatch h) (Wc m)),
    .region (region m),
    .host (stretch hostOps1 hostOps1_sub (by intro _ h; (repeat (cases h with | head => rfl | tail _ h => ?_)); exact nomatch h) (W2 m)) ]

/-! ## The run -/

-- the launch theorem's implicit arguments are found by unifying its conclusion with this one, which takes unfolding
-- plain definitions in a metavariable's type
set_option backward.isDefEq.respectTransparency.types false in
/-- From any memory with zero counters every weakly fair execution of @main terminates, and in every final state each
    unscoped buffer of each core holds the last valuation's contents. -/
theorem run_main : θ_run (defs (F := F)) (onTc (τ := τ) (main (F := F))) ⟨m, fun _ => 0, ρ⟩
    (fun r => ∀ c : Dev nD, ∀ b ∈ ucRefs τ sig, r.2.mem (((c.tc : Thread nD τ).1, b) : Loc nD τ sig) = W3 m c b) := by
  have hinj : Function.Injective (Pipeline.cellOf (nD := nD) (τ := τ) (Pipeline.pin (pcfgs (F := F)) adm)) := cellOf_inj
  refine Pipeline.θ_run_regions_kit (pcfgs (F := F)) adm (pdats m) () hinj emb₁ (defs₀ (F := F)) Variants.none (fun _ => ∅) (fun _ _ => 0)
    m ρ main (segs m) ?hmain ?hnd (fun _ => 0) (fun _ _ => rfl) (fun _ => iprop(emp))
    (initOf (Pipeline.cells (Pipeline.pin (pcfgs (F := F)) adm) hinj) (Pipeline.launchToks (Pipeline.pin (pcfgs (F := F)) adm) hinj)) ?hu₀
    (threadState (W0 m)) (fun c => iprop(StableHlo.held (c.tc : Thread nD τ) (ucRefs τ sig) (W3 m c) ∗ ∃ r, prngReg c r)) ?hch ?hinit
    (fun c s => ∀ b ∈ ucRefs τ sig, s.mem (((c.tc : Thread nD τ).1, b) : Loc nD τ sig) = W3 m c b) ?hfin (fun s h c => h c)
  case hmain =>
    intro c Q
    rw [main_chain c, Seg.run_eq_chain]
    exact .rfl
  case hnd => exact List.nodup_singleton (0 : Fin 1)
  case hu₀ =>
    iintro Hu; imodintro
    isplitl [Hu]
    · iapply (show (ownU _ : sProp 𝕄) ⊢ BI.own (emb₁ (initOf (Pipeline.cells (Pipeline.pin (pcfgs (F := F)) adm) hinj) (Pipeline.launchToks (Pipeline.pin (pcfgs (F := F)) adm) hinj))) from .rfl)
      iexact Hu
    iapply (show (BI.emp : sProp 𝕄) ⊢ bigSep Finset.univ (fun _ : Dev nD => (BI.emp : sProp 𝕄)) from by rw [BI.bigSep_emp_const])
    iempintro
  case hch =>
    refine ⟨fun _ => .rfl, fun _ => .rfl, fun _ => .rfl, fun _ => .rfl, fun _ => .rfl, fun _ => .rfl, fun c => ?_⟩
    show iprop(StableHlo.held (c.tc : Thread nD τ) (ucRefs τ sig) (W3 m c) ∗ ((∃ r, prngReg c r) ∗ ∃ Wo, owes (c : Thread nD τ) (0 : CellTallies nD τ sig Unit) Wo)) ⊢ _
    iintro ⟨Hh, Hp, Ho⟩
    isplitl [Hh Hp]
    · isplitl [Hh] <;> iassumption
    iexact Ho
  case hinit =>
    refine Pipeline.initEach (fun _ => ∅) (fun _ _ => 0) fun c => ?_
    have e := Pipeline.unscopedBufs_held (Ix := Unit) (Name := ℕ) (U := UR sig nD τ) (Lvl := ℕ) c (W0 m c)
    iintro ⟨⟨Hub, -, HO, -, Hp, -⟩, -⟩
    imodintro
    isplitl [Hub]
    · iapply (Entails.of_eq e); iexact Hub
    isplitl [Hp]
    · iexists _; iexact Hp
    iexists _; iexact HO
  case hfin =>
    intro c s'
    unfold StableHlo.held
    iintro ⟨⟨Hh, -⟩, HSI⟩
    imodintro
    iapply (pointsTo_read_all (ucRefs τ sig) (fun b => (((c.tc : Thread nD τ).1, b) : Loc nD τ sig)) (W3 m c) s')
    isplitl [Hh]
    · iexact Hh
    · iexact HSI

/-! ## The arguments end as launched; the frame -/

/-- An unscoped reference of the TensorCore is among the buffers the core holds between segments. -/
theorem mem_ucRefs (b : Ref sig .tc) (hb : (Proc.devRef (τ := τ) .tc b).isScoped = false) : Proc.devRef .tc b ∈ ucRefs τ sig := by
  unfold Pipeline.ucRefs
  exact Finset.mem_filter.mpr ⟨StableHlo.devRef_mem_tcRefs b, by simp [hb]⟩

/-- No host operation writes an argument array and the region writes only its result: the first argument ends as launched. -/
theorem W3_arg0 (c : Dev nD) : W3 m c (Proc.devRef .tc main_arg0) = m ((c.tc : Thread nD τ).loc main_arg0) := by
  have h3 : W3 m c (Proc.devRef .tc main_arg0) = W2 m c (Proc.devRef .tc main_arg0) := by
    show StableHlo.after hostOps1 (W2 m c) (Proc.devRef .tc main_arg0) = _
    after_results_simp <;> rfl
  rw [h3, W2_other m c main_arg0 (by decide)]
  show StableHlo.after hostOps0_3 (StableHlo.after hostOps0_2 (StableHlo.after hostOps0_1 (StableHlo.after hostOps0 (StableHlo.launchContents m c)))) (Proc.devRef .tc main_arg0) = _
  after_results_simp <;> rfl

/-- The same of the second. -/
theorem W3_arg1 (c : Dev nD) : W3 m c (Proc.devRef .tc main_arg1) = m ((c.tc : Thread nD τ).loc main_arg1) := by
  have h3 : W3 m c (Proc.devRef .tc main_arg1) = W2 m c (Proc.devRef .tc main_arg1) := by
    show StableHlo.after hostOps1 (W2 m c) (Proc.devRef .tc main_arg1) = _
    after_results_simp <;> rfl
  rw [h3, W2_other m c main_arg1 (by decide)]
  show StableHlo.after hostOps0_3 (StableHlo.after hostOps0_2 (StableHlo.after hostOps0_1 (StableHlo.after hostOps0 (StableHlo.launchContents m c)))) (Proc.devRef .tc main_arg1) = _
  after_results_simp <;> rfl

/-- The program runs — every weakly fair execution terminates, nothing faults — its result at the last valuation's and
    its two argument arrays unchanged. -/
theorem run_result : θ_run (defs (F := F)) (onTc (τ := τ) (main (F := F))) ⟨m, fun _ => 0, ρ⟩ (fun r => ∀ c : Dev nD,
      r.2.mem ((c.tc : Thread nD τ).loc main_v24) = W3 m c (Proc.devRef .tc main_v24)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun _ h c => ⟨h c _ (mem_ucRefs main_v24 rfl),
    (h c _ (mem_ucRefs main_arg0 rfl)).trans (W3_arg0 m c), (h c _ (mem_ucRefs main_arg1 rfl)).trans (W3_arg1 m c)⟩) (run_main m ρ)

/-- The frame: the program runs and its argument arrays end unchanged. -/
theorem frame : θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun _ h c => (h c).2) (run_result m ρ)

end Cert.KernelIdeal.Hand

end
-- ==== Proof.Spec.lean ====
import Idealize.ShloMosaic.PureOps.Ideal
import Idealize.ShloMosaic.Lib.ValueIdx

/-!
# The contrastive loss both programs compute, as one function of the two argument arrays

Rows of the two 4096 x 256 arrays are divided by max(norm, eps); the 8192 unit rows are stacked; sim r c is the
inner product of unit rows r and c; the denominator of row r sums exp(2 sim r c) over every column c other than r;
the positive of row r is the inner product of the two unit rows with index r mod 4096; the loss is the mean over the
8192 rows of -log(exp(pos / (1/2)) / den). Everything is read on the extended reals; the float literals stay the
words the programs print.
-/

noncomputable section

open scoped BigOperators

namespace Cert.Spec

open Idealize.ShloMosaic Idealize.ShloMosaic.ValueIdx

/-- An argument array: 4096 rows of 256 extended reals. -/
abbrev Arr : Type := (⟨2, ![4096, 256]⟩ : Shape).Idx → EReal

/-- The norm floor 1e-12, the temperature 1/2, its reciprocal 2 and the row count 8192, as the printed words. -/
def eps : EReal := Ideal.ofBits .f32 0x2B8CBCCC#32
def half : EReal := Ideal.ofBits .f32 0x3F000000#32
def two : EReal := Ideal.ofBits .f32 0x40000000#32
def cnt : EReal := Ideal.ofBits .f32 0x46000000#32

/-- The Euclidean norm of row r. -/
def nrm (p : Arr) (r : Fin 4096) : EReal := Ideal.sqrt (∑ k : Fin 256, p (ix2 r k) * p (ix2 r k))

/-- Row r divided by its floored norm. -/
def unit (p : Arr) (r : Fin 4096) (k : Fin 256) : EReal := Ideal.div (p (ix2 r k)) (max (nrm p r) eps)

/-- The row index r mod 4096. -/
def low (r : Fin 8192) : Fin 4096 := ⟨r.val % 4096, Nat.mod_lt _ (by norm_num)⟩

/-- The 8192 stacked unit rows: the first array's, then the second's. -/
def z (p1 p2 : Arr) (r : Fin 8192) (k : Fin 256) : EReal :=
  if r.val < 4096 then unit p1 (low r) k else unit p2 (low r) k

/-- The similarity of rows r and c. -/
def sim (p1 p2 : Arr) (r c : Fin 8192) : EReal := ∑ k : Fin 256, z p1 p2 r k * z p1 p2 c k

/-- The denominator of row r: exp(2 sim) summed over the other rows. -/
def den (p1 p2 : Arr) (r : Fin 8192) : EReal :=
  ∑ c : Fin 8192, if r = c then 0 else Ideal.exp (sim p1 p2 r c * two)

/-- The positive pair of row r. -/
def pos (p1 p2 : Arr) (r : Fin 8192) : EReal := ∑ k : Fin 256, unit p1 (low r) k * unit p2 (low r) k

/-- Row r's loss term. -/
def term (p1 p2 : Arr) (r : Fin 8192) : EReal :=
  -Ideal.log (Ideal.div (Ideal.exp (Ideal.div (pos p1 p2 r) half)) (den p1 p2 r))

/-- The loss: the mean of the terms. -/
def loss (p1 p2 : Arr) : EReal := Ideal.div (∑ r : Fin 8192, term p1 p2 r) cnt

end Cert.Spec

end
-- ==== Proof.KernelUnitRows.lean ====
import proofs.«173961_j1236950581990_1_alg».proof.Proof.Gen.KernelIdeal
import proofs.«173961_j1236950581990_1_alg».proof.Proof.Spec
import Idealize.ShloMosaic.PureOps.Ideal.Laws
import Idealize.ShloMosaic.Lib.ValueIdx
import Idealize.ShloMosaic.Lib.IdealHost
import Idealize.ShloMosaic.Lib.Pipeline.Value

/-!
# The host operations before the kernel: unit rows, stacked

Each argument array has its rows divided by the larger of the row's Euclidean norm and the floor 1e-12; the two arrays of
unit rows are stacked into one of 8192 rows. The change of float format that follows is the identity on the extended reals.
-/

noncomputable section

open scoped BigOperators

namespace Cert.KernelMath

open Cert.KernelIdeal Cert.KernelIdeal.Gen Idealize.ShloMosaic Idealize.ShloMosaic.ValueIdx

/-- The rows of `x` divided by their floored norms, as the host operations compose. -/
def unitOf (x : FVec Ideal S4096x256 .f32) : FVec Ideal S4096x256 .f32 :=
  Host.divf (F := Ideal) x (broadcastInDim S4096x256 ![0, 1] bcast_S4096x1_S4096x256_0_1
    (maximumf (Host.sqrt (F := Ideal) (broadcastInDim S4096x1 ![0] bcast_S4096_S4096x1_0
        (Host.reduceAdd (F := Ideal) (mulf x x) (constant (F := Ideal) S_ .f32 0x00000000#32) reducesTo_S4096x256_S4096_d1 h_S_)))
      (broadcastInDim S4096x1 ![] bcast_S_S4096x1 (constant (F := Ideal) S_ .f32 0x2B8CBCCC#32))))

/-- The two arrays of unit rows stacked, in the kernel's operand format. -/
def stackOf (a b : FVec Ideal S4096x256 .f32) : FVec Ideal S8192x256 .bf16 :=
  truncf .bf16 (concatenate S8192x256 0 [⟨S4096x256, unitOf a⟩, ⟨S4096x256, unitOf b⟩] concatenates_S4096x256_S4096x256_S8192x256_d0) bitsLt_bf16_f32

/-- The host's pointwise operations at an index, on the extended reals. -/
theorem hostDivf_apply {s : Shape} {φ : FTy} (a b : FVec Ideal s φ) (i : s.Idx) : Host.divf (F := Ideal) a b i = Ideal.div (a i) (b i) := rfl
theorem hostSqrt_apply {s : Shape} {φ : FTy} (a : FVec Ideal s φ) (i : s.Idx) : Host.sqrt (F := Ideal) a i = Ideal.sqrt (a i) := rfl
theorem hostExp_apply {s : Shape} {φ : FTy} (a : FVec Ideal s φ) (i : s.Idx) : Host.exp (F := Ideal) a i = Ideal.exp (a i) := rfl
theorem hostLog_apply {s : Shape} {φ : FTy} (a : FVec Ideal s φ) (i : s.Idx) : Host.log (F := Ideal) a i = Ideal.log (a i) := rfl
theorem hostNegf_apply {s : Shape} {φ : FTy} (a : FVec Ideal s φ) (i : s.Idx) : Host.negf (F := Ideal) a i = -(a i) := rfl

/-- The sum of a row's entries from the zero word, read at row `r`. -/
theorem rowSum_apply (y : FVec Ideal S4096x256 .f32) (r : Fin 4096) :
    Host.reduceAdd (F := Ideal) y (constant (F := Ideal) S_ .f32 0x00000000#32) reducesTo_S4096x256_S4096_d1 h_S_ (ix1 r)
      = ∑ k : Fin 256, y (ix2 r k) := by
  refine (hostReduceAdd_apply y _ reducesTo_S4096x256_S4096_d1 h_S_ (ix1 r)).trans ?_
  rw [Ideal.hostReduceAdd_single reducesTo_S4096x256_S4096_d1 (by decide)]
  show Ideal.ofBits .f32 0x00000000#32 + _ = _
  rw [Ideal.ofBits_zero_f32, zero_add]
  refine Finset.sum_congr rfl fun k _ => congrArg y ?_
  funext d
  match d with
  | ⟨0, _⟩ => exact Fin.ext rfl
  | ⟨1, _⟩ => exact Fin.ext rfl

/-- A unit row's entry: the entry divided by the larger of the row's norm and the floor. -/
theorem unitOf_apply (x : FVec Ideal S4096x256 .f32) (r : Fin 4096) (k : Fin 256) :
    unitOf x (ix2 r k) = Cert.Spec.unit x r k := by
  unfold unitOf Cert.Spec.unit Cert.Spec.nrm Cert.Spec.eps
  refine (hostDivf_apply _ _ _).trans ?_
  refine congrArg (Ideal.div (x (ix2 r k))) ?_
  refine (broadcastInDim_apply ![0, 1] bcast_S4096x1_S4096x256_0_1 _ (ix2 r k) (ix2 r (0 : Fin 1)) (fun d => by
    match d with
    | ⟨0, _⟩ => show r.val = if (4096 : ℕ) = 1 then 0 else r.val; rw [if_neg (by decide)]
    | ⟨1, _⟩ => show 0 = if (1 : ℕ) = 1 then 0 else k.val; rw [if_pos rfl])).trans ?_
  refine (maximumf_apply _ _ _).trans ?_
  refine congrArg₂ max ?_ ?_
  · refine (hostSqrt_apply _ _).trans (congrArg Ideal.sqrt ?_)
    refine (broadcastInDim_apply ![0] bcast_S4096_S4096x1_0 _ (ix2 r (0 : Fin 1)) (ix1 r) (fun d => by
      match d with
      | ⟨0, _⟩ => show r.val = if (4096 : ℕ) = 1 then 0 else r.val; rw [if_neg (by decide)])).trans ?_
    exact rowSum_apply (mulf x x) r
  · exact broadcastInDim_scalar_apply bcast_S_S4096x1 _ _

/-- The stacked array's entry: the first array's unit rows, then the second's. -/
theorem stackOf_apply (a b : FVec Ideal S4096x256 .f32) (r : Fin 8192) (k : Fin 256) :
    stackOf a b (ix2 r k) = Cert.Spec.z a b r k := by
  unfold stackOf Cert.Spec.z
  refine (truncf_apply _ bitsLt_bf16_f32 (ix2 r k)).trans ?_
  by_cases h : r.val < 4096
  · rw [if_pos h, ← unitOf_apply]
    refine concatenate_pair_apply_left 0 (unitOf a) (unitOf b) concatenates_S4096x256_S4096x256_S8192x256_d0 (ix2 r k) rfl
      (ix2 (Cert.Spec.low r) k) (fun d => by
        match d with
        | ⟨0, _⟩ => show r.val % 4096 = r.val; exact Nat.mod_eq_of_lt h
        | ⟨1, _⟩ => rfl)
  · rw [if_neg h, ← unitOf_apply]
    have hr := r.isLt
    refine concatenate_pair_apply_right 0 (unitOf a) (unitOf b) concatenates_S4096x256_S4096x256_S8192x256_d0 (ix2 r k) rfl rfl
      (ix2 (Cert.Spec.low r) k) (fun d hd => by
        match d with
        | ⟨0, _⟩ => exact absurd rfl hd
        | ⟨1, _⟩ => rfl) (by
        show r.val % 4096 + 4096 = r.val
        omega)

end Cert.KernelMath

end
-- ==== Proof.KernelLanes.lean ====
import Idealize.ShloMosaic.PureOps.Ideal.Laws
import Idealize.ShloMosaic.Lib.ValueIdx
import Idealize.ShloMosaic.Lib.ValueLayout

/-!
# Reading a column, a lane sum and the row/column comparison at an index

Three small readings used by the kernel's payload: an `[a]` vector viewed as an `[a, 1]` column (and back); the sum along
the lanes of an `[a, b]` array, read at a row; and the 32-bit comparison `i0 * 1024 + r ≠ i1 * 1024 + c` of a global row number with
a global column number, which does not wrap for block numbers below 8 and offsets below 1024.
-/

noncomputable section

open scoped BigOperators

namespace Cert.KernelMath

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The sum along the lanes of an `[a, b]` array from the zero word, read at row `r`: the sum of the row's entries. -/
theorem laneSum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ x 0x00000000#32 h hφ hacc (ix1 r) = ∑ c : Fin b, x (ix2 r c) := by
  refine (Ideal.multiReduction_add_single x 0x00000000#32 h hφ hacc (ix1 r)).trans ?_
  refine Finset.sum_congr rfl fun c _ => congrArg x ?_
  funext d
  match d with
  | ⟨0, _⟩ => exact Fin.ext rfl
  | ⟨1, _⟩ => exact Fin.ext rfl

/-- A global index `q * 1024 + o` with `q < 8`, `o < 1024`, computed in 32-bit words, is the word of that number. -/
theorem blockWord (q o : ℕ) : IntOp.addi (Scalar.muli (BitVec.ofNat 32 q) 1024#32) (BitVec.ofNat 32 o) = BitVec.ofNat 32 (q * 1024 + o) := by
  show BitVec.ofNat 32 q * BitVec.ofNat 32 1024 + BitVec.ofNat 32 o = _
  rw [BitVec.ofNat_add, BitVec.ofNat_mul]

/-- Two numbers below 2^32 have the same 32-bit word only if they are equal. -/
theorem ofNat32_inj {m n : ℕ} (hm : m < 2 ^ 32) (hn : n < 2 ^ 32) : BitVec.ofNat 32 m = BitVec.ofNat 32 n ↔ m = n := by
  constructor
  · intro h
    have := congrArg BitVec.toNat h
    rwa [BitVec.toNat_ofNat, BitVec.toNat_ofNat, Nat.mod_eq_of_lt hm, Nat.mod_eq_of_lt hn] at this
  · rintro rfl; rfl

/-- Selecting by the word comparison "global row ≠ global column" keeps the first value off the diagonal and the second on it. -/
theorem select_rowNeCol (q0 q1 r c : ℕ) (h0 : q0 < 8) (h1 : q1 < 8) (hr : r < 1024) (hc : c < 1024) (x y : α) :
    Scalar.select (IntOp.cmpi .ne (IntOp.addi (Scalar.muli (BitVec.ofNat 32 q0) 1024#32) (BitVec.ofNat 32 r))
      (IntOp.addi (Scalar.muli (BitVec.ofNat 32 q1) 1024#32) (BitVec.ofNat 32 c))) x y
      = if q0 * 1024 + r = q1 * 1024 + c then y else x := by
  rw [blockWord, blockWord]
  have hm : q0 * 1024 + r < 2 ^ 32 := by omega
  have hn : q1 * 1024 + c < 2 ^ 32 := by omega
  by_cases e : q0 * 1024 + r = q1 * 1024 + c
  · rw [if_pos e, e]
    show (if BitVec.ofBool (BitVec.ofNat 32 (q1 * 1024 + c) != BitVec.ofNat 32 (q1 * 1024 + c)) = 1 then x else y) = y
    rw [if_neg]
    simp
  · rw [if_neg e]
    have hne : BitVec.ofNat 32 (q0 * 1024 + r) ≠ BitVec.ofNat 32 (q1 * 1024 + c) := fun h => e ((ofNat32_inj hm hn).1 h)
    show (if BitVec.ofBool (BitVec.ofNat 32 (q0 * 1024 + r) != BitVec.ofNat 32 (q1 * 1024 + c)) = 1 then x else y) = x
    have hb : (BitVec.ofNat 32 (q0 * 1024 + r) != BitVec.ofNat 32 (q1 * 1024 + c)) = true := bne_iff_ne.2 hne
    rw [hb]
    rfl

/-- The masked array at `(r, c)`: `y` on the diagonal "global row = global column", `x` off it. The global numbers are the
    block numbers times 1024 plus the two iotas, as 32-bit words. -/
theorem masked_apply (q0 q1 : ℕ) (h0 : q0 < 8) (h1 : q1 < 8) (x y : FVec Ideal ⟨2, ![1024, 1024]⟩ .f32)
    (hi0 : (⟨2, ![1024, 1024]⟩ : Shape).Iotas .tc 32 [0]) (hi1 : (⟨2, ![1024, 1024]⟩ : Shape).Iotas .tc 32 [1]) (r c : Fin 1024) :
    select (cmpi .ne
        (addi (broadcast ⟨2, ![1024, 1024]⟩ (Scalar.muli (BitVec.ofNat 32 q0) 1024#32)) (iota .tc ⟨2, ![1024, 1024]⟩ 32 [0] hi0))
        (addi (broadcast ⟨2, ![1024, 1024]⟩ (Scalar.muli (BitVec.ofNat 32 q1) 1024#32)) (iota .tc ⟨2, ![1024, 1024]⟩ 32 [1] hi1)))
      x y (ix2 r c)
      = if q0 * 1024 + r.val = q1 * 1024 + c.val then y (ix2 r c) else x (ix2 r c) := by
  show Scalar.select (IntOp.cmpi .ne
      (IntOp.addi (Scalar.muli (BitVec.ofNat 32 q0) 1024#32) (iota .tc ⟨2, ![1024, 1024]⟩ 32 [0] hi0 (ix2 r c)))
      (IntOp.addi (Scalar.muli (BitVec.ofNat 32 q1) 1024#32) (iota .tc ⟨2, ![1024, 1024]⟩ 32 [1] hi1 (ix2 r c))))
    (x (ix2 r c)) (y (ix2 r c)) = _
  rw [iota_single_apply .tc ⟨2, ![1024, 1024]⟩ 32 0 hi0, iota_single_apply .tc ⟨2, ![1024, 1024]⟩ 32 1 hi1]
  exact select_rowNeCol q0 q1 r.val c.val h0 h1 r.isLt c.isLt _ _

/-- The exponential of an array scaled by a splat word, at an index. -/
theorem scaledExp_apply {s : Shape} (m : FVec Ideal s .f32) (w : BitVec 32) (j : s.Idx) :
    exp (mulf m (broadcast s (Scalar.ofBits (F := Ideal) .f32 w))) j = Ideal.exp (m j * Ideal.ofBits .f32 w) := rfl

/-- A splat of the zero word is zero at every index. -/
theorem zeroSplat_apply {s : Shape} (j : s.Idx) : broadcast s (Scalar.ofBits (F := Ideal) .f32 0x00000000#32) j = 0 :=
  Ideal.ofBits_zero_f32

end Cert.KernelMath

end
-- ==== Proof.KernelLossTail.lean ====
import proofs.«173961_j1236950581990_1_alg».proof.Proof.Gen.KernelIdeal
import proofs.«173961_j1236950581990_1_alg».proof.Proof.Spec
import proofs.«173961_j1236950581990_1_alg».proof.Proof.KernelLanes
import proofs.«173961_j1236950581990_1_alg».proof.Proof.KernelUnitRows

/-!
# The host operations after the kernel: from the denominators to the loss

The kernel's result is the column of the 8192 denominators. The host multiplies the two arrays of unit rows entry by entry and
sums each row (the positive pair's inner product), repeats those 4096 sums twice, divides by the temperature, exponentiates,
divides by the denominators, takes minus the logarithm, sums the 8192 terms and divides by 8192.
-/

noncomputable section

open scoped BigOperators

namespace Cert.KernelMath

open Cert.KernelIdeal Cert.KernelIdeal.Gen Idealize.ShloMosaic Idealize.ShloMosaic.ValueIdx

/-- The host's operations after the kernel, composed: the loss as a function of the two arrays of unit rows and the
    kernel's column of denominators. -/
def tailOf (u1 u2 : FVec Ideal S4096x256 .f32) (d : FVec Ideal S8192x1 .f32) : FVec Ideal S_ .f32 :=
  Host.divf (F := Ideal)
    (Host.reduceAdd (F := Ideal)
      (Host.negf (F := Ideal) (Host.log (F := Ideal) (Host.divf (F := Ideal)
        (Host.exp (F := Ideal) (Host.divf (F := Ideal)
          (concatenate S8192 0
            [⟨S4096, Host.reduceAdd (F := Ideal) (mulf u1 u2) (constant (F := Ideal) S_ .f32 0x00000000#32) reducesTo_S4096x256_S4096_d1 h_S_⟩,
             ⟨S4096, Host.reduceAdd (F := Ideal) (mulf u1 u2) (constant (F := Ideal) S_ .f32 0x00000000#32) reducesTo_S4096x256_S4096_d1 h_S_⟩]
            concatenates_S4096_S4096_S8192_d0)
          (broadcastInDim S8192 ![] bcast_S_S8192 (constant (F := Ideal) S_ .f32 0x3F000000#32))))
        (shapeCast S8192 d shapeCasts_S8192x1_S8192))))
      (constant (F := Ideal) S_ .f32 0x00000000#32) reducesTo_S8192_S_d0 h_S_)
    (constant (F := Ideal) S_ .f32 0x46000000#32)

/-- The 4096 row sums repeated twice, read at row `r` of 8192: the row sum at `r mod 4096`. -/
theorem twice_apply (v : FVec Ideal S4096 .f32) (r : Fin 8192) :
    concatenate S8192 0 [⟨S4096, v⟩, ⟨S4096, v⟩] concatenates_S4096_S4096_S8192_d0 (ix1 r) = v (ix1 (Cert.Spec.low r)) := by
  by_cases h : r.val < 4096
  · exact concatenate_pair_apply_left 0 v v concatenates_S4096_S4096_S8192_d0 (ix1 r) rfl (ix1 (Cert.Spec.low r)) (fun d => by
      match d with
      | ⟨0, _⟩ => show r.val % 4096 = r.val; exact Nat.mod_eq_of_lt h)
  · have hr := r.isLt
    exact concatenate_pair_apply_right 0 v v concatenates_S4096_S4096_S8192_d0 (ix1 r) rfl rfl (ix1 (Cert.Spec.low r)) (fun d hd => by
      match d with
      | ⟨0, _⟩ => exact absurd rfl hd) (by
      show r.val % 4096 + 4096 = r.val
      omega)

/-- A sum over the indices of a vector of 8192 entries is the sum over `Fin 8192`. -/
theorem sum_idx1 {M : Type*} [AddCommMonoid M] {n : ℕ} (f : (⟨1, ![n]⟩ : Shape).Idx → M) : ∑ j : (⟨1, ![n]⟩ : Shape).Idx, f j = ∑ r : Fin n, f (ix1 r) :=
  Fintype.sum_equiv ⟨fun j => j 0, fun r => ix1 r, fun j => (eq_ix1 j).symm, fun _ => rfl⟩ _ _ fun j => congrArg f (eq_ix1 j)

/-- With the kernel's column holding the denominators, the host's tail computes the loss. -/
theorem tailOf_loss (a b : FVec Ideal S4096x256 .f32) (d : FVec Ideal S8192x1 .f32)
    (hd : ∀ r : Fin 8192, d (ix2 r 0) = Cert.Spec.den a b r) :
    tailOf (unitOf a) (unitOf b) d = fun _ => Cert.Spec.loss a b := by
  funext j
  unfold tailOf Cert.Spec.loss Cert.Spec.cnt
  refine (hostDivf_apply _ _ j).trans ?_
  refine congrArg₂ Ideal.div ?_ rfl
  refine (hostReduceAdd_apply _ _ reducesTo_S8192_S_d0 h_S_ j).trans ?_
  refine (Ideal.hostReduceAdd_total reducesTo_S8192_S_d0 (fun b => b.elim0) _ _ j).trans ?_
  refine (congrArg₂ (· + ·) Ideal.ofBits_zero_f32 (sum_idx1 _)).trans ?_
  refine (zero_add _).trans ?_
  refine Finset.sum_congr rfl fun r _ => ?_
  unfold Cert.Spec.term Cert.Spec.half
  refine (hostNegf_apply _ _).trans (congrArg Neg.neg ?_)
  refine (hostLog_apply _ _).trans (congrArg Ideal.log ?_)
  refine (hostDivf_apply _ _ _).trans (congrArg₂ Ideal.div ?_ ?_)
  · refine (hostExp_apply _ _).trans (congrArg Ideal.exp ?_)
    refine (hostDivf_apply _ _ _).trans (congrArg₂ Ideal.div ?_ ?_)
    · refine (twice_apply _ r).trans ?_
      refine (rowSum_apply _ _).trans ?_
      unfold Cert.Spec.pos
      refine Finset.sum_congr rfl fun k _ => ?_
      refine (mulf_apply _ _ _).trans ?_
      rw [unitOf_apply, unitOf_apply]
    · exact broadcastInDim_scalar_apply bcast_S_S8192 _ _
  · exact (shapeCast_a1_a_apply d shapeCasts_S8192x1_S8192 r).trans (hd r)

end Cert.KernelMath

end
-- ==== Proof.KernelIdeal.HostValue.lean ====
/-
  The value of the program's result on the extended reals. When the region is entered the stacked-rows array holds the
  8192 unit rows of the two arguments; the last stretch computes the loss from the two arrays of unit rows and the
  kernel's result array. Once the result array holds each row's denominator, the program's result is the contrastive
  loss of its two arguments.
-/
import proofs.«173961_j1236950581990_1_alg».proof.Proof.KernelIdeal.Launch
import proofs.«173961_j1236950581990_1_alg».proof.Proof.KernelUnitRows
import proofs.«173961_j1236950581990_1_alg».proof.Proof.KernelLossTail

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelMath Idealize.ShloMosaic.ValueIdx

variable (m : (ℓ : Loc nD τ sig) → Buf (Elt Ideal) ℓ)

/-- The two argument arrays on core c. -/
abbrev argA (c : Dev nD) : FVec Ideal S4096x256 .f32 := m ((c.tc : Thread nD τ).loc main_arg0)
abbrev argB (c : Dev nD) : FVec Ideal S4096x256 .f32 := m ((c.tc : Thread nD τ).loc main_arg1)

/-- When the region is entered the stacked-rows array is the two arguments' unit rows, stacked. -/
theorem Vin_stack (c : Dev nD) : Vin m c main_v11 = stackOf (argA m c) (argB m c) := by
  show StableHlo.after hostOps0_3 (StableHlo.after hostOps0_2 (StableHlo.after hostOps0_1 (StableHlo.after hostOps0 (StableHlo.launchContents m c)))) (Proc.devRef .tc main_v11) = _
  after_results_simp
  rfl

/-- After the region the two arrays of unit rows are still what the stretches before it computed. -/
theorem W2_unitA (c : Dev nD) : W2 m c (Proc.devRef .tc main_v4) = unitOf (argA m c) := by
  rw [W2_other m c main_v4 (by decide)]
  show StableHlo.after hostOps0_3 (StableHlo.after hostOps0_2 (StableHlo.after hostOps0_1 (StableHlo.after hostOps0 (StableHlo.launchContents m c)))) (Proc.devRef .tc main_v4) = _
  after_results_simp
  rfl

theorem W2_unitB (c : Dev nD) : W2 m c (Proc.devRef .tc main_v9) = unitOf (argB m c) := by
  rw [W2_other m c main_v9 (by decide)]
  show StableHlo.after hostOps0_3 (StableHlo.after hostOps0_2 (StableHlo.after hostOps0_1 (StableHlo.after hostOps0 (StableHlo.launchContents m c)))) (Proc.devRef .tc main_v9) = _
  after_results_simp
  rfl

/-- The last stretch's result from what the region left. -/
theorem W3_tail (c : Dev nD) :
    W3 m c (Proc.devRef .tc main_v24)
      = tailOf (W2 m c (Proc.devRef .tc main_v4)) (W2 m c (Proc.devRef .tc main_v9)) (W2 m c (Proc.devRef .tc main_v12)) := by
  show StableHlo.after hostOps1 (W2 m c) (Proc.devRef .tc main_v24) = _
  after_results_simp
  rfl

/-- Once the kernel's result array holds each row's denominator, the program's result is the loss of its arguments. -/
theorem W3_loss (c : Dev nD) (hden : ∀ R : Fin 8192, result m c (ix2 R 0) = Cert.Spec.den (argA m c) (argB m c) R) :
    W3 m c (Proc.devRef .tc main_v24) = fun _ => Cert.Spec.loss (argA m c) (argB m c) := by
  rw [W3_tail, W2_unitA, W2_unitB, W2_result]
  exact tailOf_loss _ _ _ hden

end Cert.KernelIdeal.Hand

end
-- ==== Proof.KernelColumnBlocks.lean ====
import Mathlib.Algebra.BigOperators.Fin
import Mathlib.Algebra.BigOperators.Ring.Finset
import Mathlib.Logic.Equiv.Fin.Basic

/-!
# Eight successive column-block sums make the whole row sum

A row of 8192 columns is cut into eight blocks of 1024 consecutive columns. An accumulator that starts at zero and
adds one block's sum after another holds, after the eighth block, the sum over all 8192 columns. Only commutativity
and associativity of addition are used, so this holds in any additive commutative monoid (the extended reals among them).
-/

noncomputable section

open scoped BigOperators

namespace Cert.KernelMath

variable {M : Type*} [AddCommMonoid M]

/-- The sum of `f` over column block `j`: the columns `j * 1024 + c`, `c < 1024`. -/
def blockSum (f : Fin 8192 → M) (j : Fin 8) : M :=
  ∑ c : Fin 1024, f ⟨j.val * 1024 + c.val, by have := j.isLt; have := c.isLt; omega⟩

/-- The accumulator after the first `j` column blocks: zero, then one block sum added at a time. -/
def acc (f : Fin 8192 → M) : Nat → M
  | 0 => 0
  | j + 1 => acc f j + (if h : j < 8 then blockSum f ⟨j, h⟩ else 0)

theorem acc_zero (f : Fin 8192 → M) : acc f 0 = 0 := rfl

theorem acc_succ (f : Fin 8192 → M) (j : Nat) (h : j < 8) : acc f (j + 1) = acc f j + blockSum f ⟨j, h⟩ := by
  show acc f j + (if h : j < 8 then blockSum f ⟨j, h⟩ else 0) = _
  rw [dif_pos h]

/-- The sum over all 8192 columns, block by block. -/
theorem sum_eq_sum_blockSum (f : Fin 8192 → M) : ∑ c : Fin 8192, f c = ∑ j : Fin 8, blockSum f j := by
  have e : Fin 8 × Fin 1024 ≃ Fin 8192 := (finProdFinEquiv : Fin 8 × Fin 1024 ≃ Fin (8 * 1024))
  have he : ∀ p : Fin 8 × Fin 1024, ((finProdFinEquiv : Fin 8 × Fin 1024 ≃ Fin (8 * 1024)) p : Fin 8192)
      = ⟨p.1.val * 1024 + p.2.val, by have := p.1.isLt; have := p.2.isLt; omega⟩ := fun p => Fin.ext (by
    show p.2.val + 1024 * p.1.val = p.1.val * 1024 + p.2.val
    omega)
  rw [← Equiv.sum_comp (finProdFinEquiv : Fin 8 × Fin 1024 ≃ Fin (8 * 1024)) f, Fintype.sum_prod_type]
  refine Finset.sum_congr rfl fun j _ => ?_
  unfold blockSum
  refine Finset.sum_congr rfl fun c _ => ?_
  exact congrArg f (he (j, c))

/-- After the eighth block the accumulator holds the whole row sum. -/
theorem acc_eight (f : Fin 8192 → M) : acc f 8 = ∑ c : Fin 8192, f c := by
  rw [sum_eq_sum_blockSum, Fin.sum_univ_eight]
  rw [acc_succ f 7 (by omega), acc_succ f 6 (by omega), acc_succ f 5 (by omega), acc_succ f 4 (by omega),
    acc_succ f 3 (by omega), acc_succ f 2 (by omega), acc_succ f 1 (by omega), acc_succ f 0 (by omega), acc_zero, zero_add]
  rfl

end Cert.KernelMath

end
-- ==== Proof.KernelPayload.lean ====
import proofs.«173961_j1236950581990_1_alg».proof.Proof.Gen.KernelIdeal.Skeleton
import proofs.«173961_j1236950581990_1_alg».proof.Proof.KernelLanes
import proofs.«173961_j1236950581990_1_alg».proof.Proof.Spec

/-!
# The kernel's two stored columns, read at a row

At a grid point (row block, column block) the kernel adds to its accumulator column, at row `r`, the sum over the block's
1024 columns `c` of `exp (2 ⟨row r of the first operand block, row c of the second⟩)`, leaving out the column whose global
number equals the row's global number; at the first column block it first stores the zero column.
-/

noncomputable section

open scoped BigOperators

namespace Cert.KernelMath

open Cert.KernelIdeal Cert.KernelIdeal.Gen Idealize.ShloMosaic Idealize.ShloMosaic.ValueIdx

/-- The left operand's index of the product at `(r, c)`, contraction coordinate `q`: row `r`. -/
theorem dot_lhs_0 (j : S1024x1024.Idx) (q : dot_S1024x256_S256x1024_S1024x1024_1_0_0_1_n_n.contr.Idx) :
    (dot_S1024x256_S256x1024_S1024x1024_1_0_0_1_n_n.lhsIdx j q 0).val = (j 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem dot_lhs_1 (j : S1024x1024.Idx) (q : dot_S1024x256_S256x1024_S1024x1024_1_0_0_1_n_n.contr.Idx) :
    (dot_S1024x256_S256x1024_S1024x1024_1_0_0_1_n_n.lhsIdx j q 1).val = (q ⟨0, by decide⟩).val :=
  dot_S1024x256_S256x1024_S1024x1024_1_0_0_1_n_n.lhsIdx_val_of_single rfl j q
theorem dot_rhs_0 (j : S1024x1024.Idx) (q : dot_S1024x256_S256x1024_S1024x1024_1_0_0_1_n_n.contr.Idx) :
    (dot_S1024x256_S256x1024_S1024x1024_1_0_0_1_n_n.rhsIdx j q 0).val = (q ⟨0, by decide⟩).val :=
  dot_S1024x256_S256x1024_S1024x1024_1_0_0_1_n_n.rhsIdx_val_of_single rfl j q
theorem dot_rhs_1 (j : S1024x1024.Idx) (q : dot_S1024x256_S256x1024_S1024x1024_1_0_0_1_n_n.contr.Idx) :
    (dot_S1024x256_S256x1024_S1024x1024_1_0_0_1_n_n.rhsIdx j q 1).val = (j 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The product of a block of rows with the transpose of a block of rows, into the zero accumulator, at `(r, c)`:
    the inner product of row `r` of the first with row `c` of the second. -/
theorem dot_apply (a b : FVec Ideal S1024x256 .bf16) (ht : S1024x256.Transposes [1, 0] S256x1024) (r c : Fin 1024) :
    matmul dot_S1024x256_S256x1024_S1024x1024_1_0_0_1_n_n none a (transpose S256x1024 [1, 0] b ht)
        (constant (F := Ideal) S1024x1024 .f32 0x00000000#32) (ix2 r c)
      = ∑ k : Fin 256, a (ix2 r k) * b (ix2 c k) := by
  refine (Ideal.matmul_constant_zero_apply dot_S1024x256_S256x1024_S1024x1024_1_0_0_1_n_n none a _ (ix2 r c)).trans ?_
  rw [← Equiv.sum_comp (contrEquiv1 dot_S1024x256_S256x1024_S1024x1024_1_0_0_1_n_n 256 rfl rfl).symm]
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 r c) ((contrEquiv1 dot_S1024x256_S256x1024_S1024x1024_1_0_0_1_n_n 256 rfl rfl).symm k) = ix2 r k := funext fun d => Fin.ext (by
    match d with
    | ⟨0, _⟩ => exact dot_lhs_0 _ _
    | ⟨1, _⟩ => exact (dot_lhs_1 _ _).trans hk)
  have er : dot_S1024x256_S256x1024_S1024x1024_1_0_0_1_n_n.rhsIdx (ix2 r c) ((contrEquiv1 dot_S1024x256_S256x1024_S1024x1024_1_0_0_1_n_n 256 rfl rfl).symm k) = ix2 k c := funext fun d => Fin.ext (by
    match d with
    | ⟨0, _⟩ => exact (dot_rhs_0 _ _).trans hk
    | ⟨1, _⟩ => exact dot_rhs_1 _ _)
  rw [el, er, transpose_ix2_apply]

/-- The column stored into the accumulator at the first column block is zero. -/
theorem pay1_apply (r : Fin 1024) : Gen.k0_pay1 (F := Ideal) (ix2 r 0) = 0 := by
  unfold Gen.k0_pay1
  exact Ideal.ofBits_zero_f32

/-- The accumulator update at grid point `i`, at row `r`: the old value plus the sum over the block's 1024 columns of
    `exp (2 ⟨row r, column c⟩)`, the term of the column whose global number is the row's left out. The factor 2 is kept as its word. -/
theorem pay2_apply_word (i : grid0.Coords) (v3 v5 : Vec Ideal S1024x256 .bf16) (v23 : Vec Ideal S1024x1 .f32) (r : Fin 1024) :
    Gen.k0_pay2 (F := Ideal) i v3 v5 v23 (ix2 r 0)
      = v23 (ix2 r 0) + ∑ c : Fin 1024, (if (i 0).val * 1024 + r.val = (i 1).val * 1024 + c.val then 0
          else Ideal.exp ((∑ k : Fin 256, v3 (ix2 r k) * v5 (ix2 c k)) * Ideal.ofBits .f32 0x40000000#32)) := by
  have h0 : (i 0).val < 8 := (i 0).isLt
  have h1 : (i 1).val < 8 := (i 1).isLt
  unfold Gen.k0_pay2
  dsimp only
  refine (congrFun (shapeCast_self _ _) (ix2 r 0)).trans ?_
  refine (addf_apply _ _ (ix2 r 0)).trans ?_
  refine congrArg (v23 (ix2 r 0) + ·) ?_
  refine (shapeCast_a_a1_apply _ _ r 0).trans ?_
  refine (laneSum_apply _ _ _ _ r).trans ?_
  refine Finset.sum_congr rfl fun c _ => ?_
  refine (masked_apply (i 0).val (i 1).val h0 h1 _ _ _ _ r c).trans ?_
  refine ite_congr rfl (fun _ => zeroSplat_apply _) (fun _ => ?_)
  refine (scaledExp_apply _ _ _).trans ?_
  refine congrArg (fun t => Ideal.exp (t * Ideal.ofBits .f32 0x40000000#32)) ?_
  refine (dot_apply _ _ _ r c).trans ?_
  rw [shapeCast_self, shapeCast_self]

/-- The same with the factor 2 named as the specification names it. -/
theorem pay2_apply (i : grid0.Coords) (v3 v5 : Vec Ideal S1024x256 .bf16) (v23 : Vec Ideal S1024x1 .f32) (r : Fin 1024) :
    Gen.k0_pay2 (F := Ideal) i v3 v5 v23 (ix2 r 0)
      = v23 (ix2 r 0) + ∑ c : Fin 1024, (if (i 0).val * 1024 + r.val = (i 1).val * 1024 + c.val then 0
          else Ideal.exp ((∑ k : Fin 256, v3 (ix2 r k) * v5 (ix2 c k)) * Cert.Spec.two)) :=
  pay2_apply_word i v3 v5 v23 r

end Cert.KernelMath

end
-- ==== Proof.KernelDenominator.lean ====
import proofs.«173961_j1236950581990_1_alg».proof.Proof.KernelColumnBlocks
import proofs.«173961_j1236950581990_1_alg».proof.Proof.KernelPayload

/-!
# The kernel's accumulator update as one column block of a row's denominator

When the two operand blocks hold the stacked unit rows of row block `q0` and of column block `q1`, the accumulator update at
row `r` adds exactly the block sum, over column block `q1`, of the denominator's terms of the global row `q0 * 1024 + r`; and the
denominator is what the eight successive block sums accumulate to.
-/

noncomputable section

open scoped BigOperators

namespace Cert.KernelMath

open Cert.KernelIdeal Cert.KernelIdeal.Gen Idealize.ShloMosaic Idealize.ShloMosaic.ValueIdx

/-- The global number of offset `o` in block `q`. -/
def glob (q : Fin 8) (o : Fin 1024) : Fin 8192 := ⟨q.val * 1024 + o.val, by have := q.isLt; have := o.isLt; omega⟩

/-- Row `R`'s denominator term at column `c`: nothing on the diagonal, `exp (2 sim)` off it. -/
def denTerm (a b : Cert.Spec.Arr) (R c : Fin 8192) : EReal :=
  if R = c then 0 else Ideal.exp (Cert.Spec.sim a b R c * Cert.Spec.two)

/-- The denominator is the accumulator after the eight column blocks. -/
theorem den_eq_acc (a b : Cert.Spec.Arr) (R : Fin 8192) : Cert.Spec.den a b R = acc (denTerm a b R) 8 :=
  (acc_eight (denTerm a b R)).symm

/-- The accumulator update at a grid point whose operand blocks are the stacked rows' blocks `q0` and `q1`. -/
theorem pay2_block (a b : Cert.Spec.Arr) (i : grid0.Coords) (q0 q1 : Fin 8) (h0 : (i 0).val = q0.val) (h1 : (i 1).val = q1.val)
    (v3 v5 : Vec Ideal S1024x256 .bf16) (v23 : Vec Ideal S1024x1 .f32) (r : Fin 1024)
    (h3 : ∀ (r' : Fin 1024) (k : Fin 256), v3 (ix2 r' k) = Cert.Spec.z a b (glob q0 r') k)
    (h5 : ∀ (c : Fin 1024) (k : Fin 256), v5 (ix2 c k) = Cert.Spec.z a b (glob q1 c) k) :
    Gen.k0_pay2 (F := Ideal) i v3 v5 v23 (ix2 r 0) = v23 (ix2 r 0) + blockSum (denTerm a b (glob q0 r)) q1 := by
  rw [pay2_apply, h0, h1]
  refine congrArg (v23 (ix2 r 0) + ·) ?_
  unfold blockSum
  refine Finset.sum_congr rfl fun c _ => ?_
  unfold denTerm
  refine ite_congr ?_ (fun _ => rfl) (fun _ => ?_)
  · exact propext ⟨fun h => Fin.ext h, fun h => congrArg Fin.val h⟩
  · refine congrArg (fun t => Ideal.exp (t * Cert.Spec.two)) ?_
    unfold Cert.Spec.sim
    refine Finset.sum_congr rfl fun k _ => ?_
    rw [h3, h5]
    rfl

end Cert.KernelMath

end
-- ==== Proof.KernelIdeal.Value.lean ====
import proofs.«173961_j1236950581990_1_alg».proof.Proof.KernelIdeal.Body
import proofs.«173961_j1236950581990_1_alg».proof.Proof.KernelDenominator
import Idealize.ShloMosaic.Lib.Pipeline.Value

/-!
# What the kernel's result array holds: the denominators

The body's found store pieces are the payload of the blocks it loads; the two input windows' blocks are rows
`(t / 8) * 1024 + r` and `(t % 8) * 1024 + r` of the stacked unit rows; so along a row block's eight points the scratch
column holds the denominator's terms accumulated over the column blocks so far, and the block written back at the eighth
point holds the denominators of the row block's 1024 rows. The eight row blocks tile the result column.
-/

set_option maxRecDepth 16384

noncomputable section

namespace Cert.KernelIdeal.Hand

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen Cert.KernelMath

/-! ## The found pieces are the payload -/

section Pieces

variable {F : FTy → Type} [FloatOps F]
variable (V : (c : Dev nD) → (b : Ref sig .tc) → Buf (Elt F) ((c : Thread nD τ).loc b))

theorem hz : (![0, 0] : Fin 2 → Nat) = fun _ => 0 := funext fun a => match a with | ⟨0, _⟩ => rfl | ⟨1, _⟩ => rfl

/-- The scratch column read back whole is what it was filled with. -/
theorem scAcc_read (X : Vec F S1024x1 .f32) :
    scAcc.view.read (Elt F) ((Memref.isWhole_whole cc0_scratch0 : scAcc.IsWhole).unread X) = X :=
  Memref.IsWhole.read_unread _ X

/-- A middle column block leaves the update of what the scratch column held. -/
theorem accMiddle_eq (c : Dev nD) (t : Fin cfg0.N) (h0 : ¬t.val % 8 = 0) (h1 : ¬t.val % 8 = 7) (xs : Vec F S1024x1 .f32) :
    accMiddle V c t h0 h1 xs = Gen.k0_pay2 (grid0.coords t) (iblk V c 0 t) (iblk V c 1 t) xs := by
  unfold accMiddle
  rw [View.read_writes_eq_canon _ _ _ (coverMiddle V c t h0 h1 xs)]
  unfold runMiddle
  dsimp only
  try sl_unfold_words
  rw [View.canon_unit_zero hz]
  simp only [View.readAt_eq_ld, Memref.IsWhole.read_unread, View.ld_unit_zero (S := S1024x256) hz, View.ld_unit_zero (S := S1024x1) hz]
  first | done | exact congrArg (Gen.k0_pay2 (grid0.coords t) (iblk V c 0 t) (iblk V c 1 t)) (scAcc_read xs)

/-- The first column block leaves the update of the zero column. -/
theorem accFirst_eq (c : Dev nD) (t : Fin cfg0.N) (h0 : t.val % 8 = 0) :
    accFirst V c t h0 = Gen.k0_pay2 (grid0.coords t) (iblk V c 0 t) (iblk V c 1 t) Gen.k0_pay1 := by
  unfold accFirst
  rw [View.read_writes_eq_canon _ _ _ (coverFirst V c t h0)]
  unfold runFirst
  dsimp only
  try sl_unfold_words
  rw [View.canon_cons_unit_zero (S := S1024x1) hz, View.readCov_unit_zero (S := S1024x1) _ hz]
  simp only [View.readAt_eq_ld, Memref.IsWhole.read_unread, View.ld_unit_zero (S := S1024x256) hz, View.ld_unit_zero (S := S1024x1) hz]

/-- The last column block leaves the update in the scratch column … -/
theorem accLast_eq (c : Dev nD) (t : Fin cfg0.N) (h1 : t.val % 8 = 7) (xs : Vec F S1024x1 .f32) :
    accLast V c t h1 xs = Gen.k0_pay2 (grid0.coords t) (iblk V c 0 t) (iblk V c 1 t) xs := by
  unfold accLast
  rw [View.read_writes_eq_canon _ _ _ (coverLastAcc V c t h1 xs)]
  unfold runLast
  dsimp only
  try sl_unfold_words
  rw [View.canon_unit_zero hz]
  simp only [View.readAt_eq_ld, Memref.IsWhole.read_unread, View.ld_unit_zero (S := S1024x256) hz, View.ld_unit_zero (S := S1024x1) hz]
  first | done | exact congrArg (Gen.k0_pay2 (grid0.coords t) (iblk V c 0 t) (iblk V c 1 t)) (scAcc_read xs)

/-- … and copies it into the output block. -/
theorem outLast_eq (c : Dev nD) (t : Fin cfg0.N) (h1 : t.val % 8 = 7) (xs : Vec F S1024x1 .f32) :
    outLast V c t h1 xs = Gen.k0_pay2 (grid0.coords t) (iblk V c 0 t) (iblk V c 1 t) xs := by
  unfold outLast
  rw [View.read_writes_eq_canon _ _ _ (coverLastOut V c t h1 xs)]
  unfold runLast
  dsimp only
  try sl_unfold_words
  rw [View.canon_unit_zero hz, View.readCov_unit_zero (S := S1024x1) _ hz]
  simp only [View.readAt_eq_ld, Memref.IsWhole.read_unread, View.ld_unit_zero (S := S1024x256) hz, View.ld_unit_zero (S := S1024x1) hz]
  first | done | exact congrArg (Gen.k0_pay2 (grid0.coords t) (iblk V c 0 t) (iblk V c 1 t)) (scAcc_read xs)

end Pieces

/-- The components of a pair known by an equation. -/
theorem fst_of_eq {α β : Type} {p : α × β} {x : α} {y : β} (h : p = (x, y)) : p.1 = x := by rw [h]
theorem snd_of_eq {α β : Type} {p : α × β} {x : α} {y : β} (h : p = (x, y)) : p.2 = y := by rw [h]

/-! ## The grid, decided once -/

/-- Point t is row block t / 8 against column block t % 8, and the three windows' blocks sit accordingly. -/
theorem point_facts : ∀ t : Fin cfg0.N,
    (grid0.coords t 0).val = t.val / 8 ∧ (grid0.coords t 1).val = t.val % 8
    ∧ win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-! ## The blocks of the stacked unit rows -/

section Values

variable (V : (c : Dev nD) → (b : Ref sig .tc) → Buf (Elt Ideal) ((c : Thread nD τ).loc b))
variable (a b : Cert.Spec.Arr)

/-- The kernel's operand array holds the stacked unit rows when the region is entered. -/
def Stacked (c : Dev nD) : Prop :=
  ∀ (R : Fin 8192) (k : Fin 256), (V c main_v11 : S8192x256.Idx → Elt Ideal .bf16) (ix2 R k) = Cert.Spec.z a b R k

/-- The row-block window's block at point t: rows (t / 8) * 1024 + r. -/
theorem iblk_row_apply (c : Dev nD) (hV : Stacked V a b c) (t : Fin cfg0.N) (q0 : Fin 8) (hq : q0.val = t.val / 8)
    (r : Fin 1024) (k : Fin 256) :
    (iblk V c 0 t : Vec Ideal S1024x256 .bf16) (ix2 r k) = Cert.Spec.z a b (glob q0 r) k := by
  obtain ⟨-, -, e0, e1, -⟩ := point_facts t
  rw [← hV (glob q0 r) k]
  unfold iblk
  rw [View.read_apply]
  show V c main_v11 _ = V c main_v11 _
  congr 1
  funext d; apply Fin.ext
  match d with
  | ⟨0, _⟩ => show win0_0.index t (0 : Fin 2) * 1024 + 1 * r.val = q0.val * 1024 + r.val; rw [e0, hq]; omega
  | ⟨1, _⟩ => show win0_0.index t (1 : Fin 2) * 256 + 1 * k.val = k.val; rw [e1]; omega

/-- The column-block window's block at point t: rows (t % 8) * 1024 + r. -/
theorem iblk_col_apply (c : Dev nD) (hV : Stacked V a b c) (t : Fin cfg0.N) (q1 : Fin 8) (hq : q1.val = t.val % 8)
    (r : Fin 1024) (k : Fin 256) :
    (iblk V c 1 t : Vec Ideal S1024x256 .bf16) (ix2 r k) = Cert.Spec.z a b (glob q1 r) k := by
  obtain ⟨-, -, -, -, e0, e1, -⟩ := point_facts t
  rw [← hV (glob q1 r) k]
  unfold iblk
  rw [View.read_apply]
  show V c main_v11 _ = V c main_v11 _
  congr 1
  funext d; apply Fin.ext
  match d with
  | ⟨0, _⟩ => show win0_1.index t (0 : Fin 2) * 1024 + 1 * r.val = q1.val * 1024 + r.val; rw [e0, hq]; omega
  | ⟨1, _⟩ => show win0_1.index t (1 : Fin 2) * 256 + 1 * k.val = k.val; rw [e1]; omega

/-- The update at point t, at row r: what the column held plus column block t % 8 of the denominator's terms of global row
    (t / 8) * 1024 + r. -/
theorem update_apply (c : Dev nD) (hV : Stacked V a b c) (t : Fin cfg0.N) (q0 q1 : Fin 8) (hq0 : q0.val = t.val / 8) (hq1 : q1.val = t.val % 8)
    (xs : Vec Ideal S1024x1 .f32) (r : Fin 1024) :
    Gen.k0_pay2 (F := Ideal) (grid0.coords t) (iblk V c 0 t) (iblk V c 1 t) xs (ix2 r 0)
      = xs (ix2 r 0) + blockSum (denTerm a b (glob q0 r)) q1 := by
  obtain ⟨g0, g1, -⟩ := point_facts t
  exact pay2_block a b (grid0.coords t) q0 q1 (g0.trans hq0.symm) (g1.trans hq1.symm) _ _ xs r
    (fun r' k => iblk_row_apply V a b c hV t q0 hq0 r' k) (fun c' k => iblk_col_apply V a b c hV t q1 hq1 c' k)

/-! ## The running sums -/

/-- After the point at position n the scratch column holds, at row r, the denominator's terms of global row
    (n / 8) * 1024 + r accumulated over the first n % 8 + 1 column blocks. -/
theorem acc_at (c : Dev nD) (hV : Stacked V a b c) : ∀ (n : ℕ) (hn : n < cfg0.N) (q0 : Fin 8) (hq : q0.val = n / 8) (r : Fin 1024),
    (outsAt V c n hn).2 (ix2 r 0) = acc (denTerm a b (glob q0 r)) (n % 8 + 1) := by
  intro n
  induction n with
  | zero =>
    intro hn q0 hq r
    have e : outsAt V c 0 hn = (idleOut, accFirst V c ⟨0, hn⟩ (Nat.zero_mod _)) := rfl
    refine (congrFun (snd_of_eq e) (ix2 r 0)).trans ?_
    refine (congrFun (accFirst_eq V c ⟨0, hn⟩ (Nat.zero_mod _)) (ix2 r 0)).trans ?_
    refine (update_apply V a b c hV ⟨0, hn⟩ q0 ⟨0, by omega⟩ hq rfl _ r).trans ?_
    rw [pay1_apply]
    show 0 + _ = acc _ (0 + 1)
    rw [acc_succ _ 0 (by omega), acc_zero]
  | succ n ih =>
    intro hn q0 hq r
    have hN : cfg0.N = 64 := N_0
    by_cases h0 : (n + 1) % 8 = 0
    · have e : outsAt V c (n + 1) hn = (idleOut, accFirst V c ⟨n + 1, hn⟩ h0) := dif_pos h0
      refine (congrFun (snd_of_eq e) (ix2 r 0)).trans ?_
      refine (congrFun (accFirst_eq V c ⟨n + 1, hn⟩ h0) (ix2 r 0)).trans ?_
      refine (update_apply V a b c hV ⟨n + 1, hn⟩ q0 ⟨0, by omega⟩ hq h0.symm _ r).trans ?_
      rw [pay1_apply, h0, acc_succ _ 0 (by omega), acc_zero]
    · have hlt : (n + 1) % 8 < 8 := Nat.mod_lt _ (by omega)
      have e8 : n % 8 + 1 = (n + 1) % 8 := by omega
      have hq' : q0.val = n / 8 := by omega
      have IH := ih (Nat.lt_of_succ_lt hn) q0 hq' r
      have fin : ∀ xs : Vec Ideal S1024x1 .f32, xs (ix2 r 0) = acc (denTerm a b (glob q0 r)) (n % 8 + 1) →
          xs (ix2 r 0) + blockSum (denTerm a b (glob q0 r)) ⟨(n + 1) % 8, hlt⟩ = acc (denTerm a b (glob q0 r)) ((n + 1) % 8 + 1) := by
        intro xs hxs
        rw [hxs, acc_succ _ ((n + 1) % 8) hlt]
        exact congrArg₂ (· + ·) (congrArg (acc _) e8) rfl
      by_cases h1 : (n + 1) % 8 = 7
      · have e : outsAt V c (n + 1) hn = (outLast V c ⟨n + 1, hn⟩ h1 (outsAt V c n (Nat.lt_of_succ_lt hn)).2,
            accLast V c ⟨n + 1, hn⟩ h1 (outsAt V c n (Nat.lt_of_succ_lt hn)).2) := (dif_neg h0).trans (dif_pos h1)
        refine (congrFun (snd_of_eq e) (ix2 r 0)).trans ?_
        refine (congrFun (accLast_eq V c ⟨n + 1, hn⟩ h1 _) (ix2 r 0)).trans ?_
        refine (update_apply V a b c hV ⟨n + 1, hn⟩ q0 ⟨(n + 1) % 8, hlt⟩ hq rfl _ r).trans ?_
        exact fin _ IH
      · have e : outsAt V c (n + 1) hn = (idleOut, accMiddle V c ⟨n + 1, hn⟩ h0 h1 (outsAt V c n (Nat.lt_of_succ_lt hn)).2) :=
          (dif_neg h0).trans (dif_neg h1)
        refine (congrFun (snd_of_eq e) (ix2 r 0)).trans ?_
        refine (congrFun (accMiddle_eq V c ⟨n + 1, hn⟩ h0 h1 _) (ix2 r 0)).trans ?_
        refine (update_apply V a b c hV ⟨n + 1, hn⟩ q0 ⟨(n + 1) % 8, hlt⟩ hq rfl _ r).trans ?_
        exact fin _ IH

/-! ## The result column -/

/-- The column of the 8192 denominators. -/
def denCol : S8192x1.Idx → Elt Ideal .f32 := fun i => Cert.Spec.den a b ⟨(i 0).val, (i 0).isLt⟩

/-- At the last column block the output block receives what the scratch column ends with. -/
theorem out_eq_acc (c : Dev nD) (t : Fin cfg0.N) (h7 : t.val % 8 = 7) : (outsAt V c t.val t.isLt).1 = (outsAt V c t.val t.isLt).2 := by
  have e := outsAt_last V c t h7
  exact (fst_of_eq e).trans ((outLast_eq V c t h7 _).trans ((accLast_eq V c t h7 _).symm.trans (snd_of_eq e).symm))

/-- What a point of the last column block writes back is its block of the column of denominators. -/
theorem flushed_eq (c : Dev nD) (hV : Stacked V a b c) (t : Fin cfg0.N) (hf : (cfg0.win 2).flush t = true) :
    (dat V c).flushed 2 t = ((cfg0.win 2).blk t).view.read (Elt Ideal) (denCol a b) := by
  have h7 : t.val % 8 = 7 := (flush0_2 t).mp hf
  have hN : cfg0.N = 64 := N_0
  have ht := t.isLt
  obtain ⟨-, -, -, -, -, -, e0, e1⟩ := point_facts t
  have hA : (dat V c).after 2 t = (fun j : S1024x1.Idx => Cert.Spec.den a b (glob ⟨t.val / 8, by omega⟩ ⟨(j 0).val, (j 0).isLt⟩)) := by
    refine (after_out V c t).trans ?_
    refine (out_eq_acc V c t h7).trans ?_
    funext j
    obtain ⟨r, u, rfl⟩ : ∃ (r : Fin 1024) (u : Fin 1), j = ix2 r u := ⟨j 0, j 1, eq_ix2 j⟩
    obtain rfl : u = 0 := Subsingleton.elim _ _
    refine (acc_at V a b c hV t.val t.isLt ⟨t.val / 8, by omega⟩ rfl r).trans ?_
    rw [h7]
    exact (den_eq_acc a b _).symm
  show (cfg0.win 2).cut (grid0.coords t) ((dat V c).after 2 t) = _
  refine (congrArg ((cfg0.win 2).cut (grid0.coords t)) hA).trans ?_
  funext j
  show Cert.Spec.den a b _ = Cert.Spec.den a b _
  refine congrArg (Cert.Spec.den a b) (Fin.ext ?_)
  show (t.val / 8) * 1024 + (j 0).val = win0_2.index t (0 : Fin 2) * 1024 + 1 * (j 0).val
  rw [e0]; omega

/-- An index of the result column is in point t's block iff each coordinate is in the block's range. -/
theorem mem_blk (t : Fin cfg0.N) (i : S8192x1.Idx) :
    i ∈ ((cfg0.win 2).blk t).view.set ↔ ∀ d : Fin 2, win0_2.index t d * S1024x1.size d ≤ (i d).val ∧ (i d).val < win0_2.index t d * S1024x1.size d + S1024x1.size d := by
  show i ∈ ((View.whole main_v12).slice (win0_2.rect t)).set ↔ _
  rw [View.set_slice_whole, Rect.mem_set_unit]
  exact Iff.rfl

/-- The result column ends holding the denominators. -/
theorem result_col (c : Dev nD) (hV : Stacked V a b c) : (dat V c).arrAt 2 cfg0.N = denCol a b :=
  (dat V c).arrAt_eq_of_cover 2 (denCol a b) (flushed_eq V a b c hV) fun i => by
    have hN : cfg0.N = 64 := N_0
    have hi0 : (i 0).val < 8192 := (i 0).isLt
    have hi1 : (i 1).val < 1 := (i 1).isLt
    refine ⟨⟨8 * ((i 0).val / 1024) + 7, by omega⟩, (flush0_2 _).mpr (by show (8 * ((i 0).val / 1024) + 7) % 8 = 7; omega), ?_⟩
    rw [mem_blk]
    obtain ⟨-, -, -, -, -, -, e0, e1⟩ := point_facts ⟨8 * ((i 0).val / 1024) + 7, by omega⟩
    intro d
    match d with
    | ⟨0, _⟩ =>
      show win0_2.index _ (0 : Fin 2) * 1024 ≤ (i 0).val ∧ (i 0).val < win0_2.index _ (0 : Fin 2) * 1024 + 1024
      rw [e0]
      show (8 * ((i 0).val / 1024) + 7) / 8 * 1024 ≤ (i 0).val ∧ (i 0).val < (8 * ((i 0).val / 1024) + 7) / 8 * 1024 + 1024
      omega
    | ⟨1, _⟩ =>
      show win0_2.index _ (1 : Fin 2) * 1 ≤ (i 1).val ∧ (i 1).val < win0_2.index _ (1 : Fin 2) * 1 + 1
      rw [e1]; omega

/-- Row R of the result column is row R's denominator. -/
theorem result_apply (c : Dev nD) (hV : Stacked V a b c) (R : Fin 8192) :
    ((dat V c).arrAt 2 cfg0.N : S8192x1.Idx → Elt Ideal .f32) (ix2 R 0) = Cert.Spec.den a b R := by
  rw [result_col V a b c hV]
  rfl

end Values

end Cert.KernelIdeal.Hand

end
-- ==== Proof.KernelIdeal.Result.lean ====
/-
  The kernel program's result is the loss of its arguments: the stacked-rows array the region finds holds the 8192 unit
  rows, so the region's result array holds every row's denominator, and the last stretch turns it into the loss.
-/
import proofs.«173961_j1236950581990_1_alg».proof.Proof.KernelIdeal.HostValue
import proofs.«173961_j1236950581990_1_alg».proof.Proof.KernelIdeal.Value

-- membership in a rectangle of full extents recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KernelMath Idealize.ShloMosaic.ValueIdx

variable (m : (ℓ : Loc nD τ sig) → Buf (Elt Ideal) ℓ)

/-- The array the two input windows read holds the stacked unit rows of the two arguments. -/
theorem stacked (c : Dev nD) : Stacked (Vin m) (argA m c) (argB m c) c := fun R k => by
  rw [Vin_stack]; exact stackOf_apply _ _ R k

/-- The region's result array holds each row's denominator. -/
theorem result_den (c : Dev nD) (R : Fin 8192) : result m c (ix2 R 0) = Cert.Spec.den (argA m c) (argB m c) R :=
  result_apply (Vin m) (argA m c) (argB m c) c (stacked m c) R

/-- The program's result. -/
theorem loss_result (c : Dev nD) : W3 m c (Proc.devRef .tc main_v24) = fun _ => Cert.Spec.loss (argA m c) (argB m c) :=
  W3_loss m c (result_den m c)

end Cert.KernelIdeal.Hand

end
-- ==== Proof.RefStages.lean ====
import proofs.«173961_j1236950581990_1_alg».proof.Proof.RefRunP
import proofs.«173961_j1236950581990_1_alg».proof.Proof.RefReadP

/-!
# The reference's run read back in nine stages

The operation list is cut in front of each concatenation and behind each buffer that is read more than once. Each
stage is read back from an arbitrary valuation: the buffers a later stage asks for as a function of the buffers the
stage reads, the others as it found them.
-/

noncomputable section

namespace Cert.RefBridge

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The two normalised arrays. -/
abbrev ops1 : List (HloOp τ sig (Elt F)) :=
  [ TRef.binary (TRef.of (T := ⟨S4096x256, .f32⟩) main_arg0) (TRef.of (T := ⟨S4096x256, .f32⟩) main_arg0) (TRef.of (T := ⟨S4096x256, .f32⟩) main_call0_v0) mulf,
    TRef.nullary (TRef.of (T := ⟨S_, .f32⟩) main_call0_cst) (constant S_ .f32 0x00000000#32),
    TRef.binary (TRef.of (T := ⟨S4096x256, .f32⟩) main_call0_v0) (TRef.of (T := ⟨S_, .f32⟩) main_call0_cst) (TRef.of (T := ⟨S4096, .f32⟩) main_call0_v1) (fun x v => Host.reduceAdd x v reducesTo_S4096x256_S4096_d1 h_S_),
    TRef.unary (TRef.of (T := ⟨S4096, .f32⟩) main_call0_v1) (TRef.of (T := ⟨S4096x1, .f32⟩) main_call0_v2) (broadcastInDim S4096x1 ![0] bcast_S4096_S4096x1_0),
    TRef.unary (TRef.of (T := ⟨S4096x1, .f32⟩) main_call0_v2) (TRef.of (T := ⟨S4096x1, .f32⟩) main_v0) Host.sqrt,
    nullary main_cst (constant S_ .f32 0x2B8CBCCC#32),
    unary main_cst main_v1 (broadcastInDim S4096x1 ![] bcast_S_S4096x1 : (⟨S_, .f32⟩ : BufTy).Contents (Elt F) → (⟨S4096x1, .f32⟩ : BufTy).Contents (Elt F)),
    binary main_v0 main_v1 main_v2 (maximumf : (⟨S4096x1, .f32⟩ : BufTy).Contents (Elt F) → (⟨S4096x1, .f32⟩ : BufTy).Contents (Elt F) → (⟨S4096x1, .f32⟩ : BufTy).Contents (Elt F)),
    unary main_v2 main_v3 (broadcastInDim S4096x256 ![0, 1] bcast_S4096x1_S4096x256_0_1 : (⟨S4096x1, .f32⟩ : BufTy).Contents (Elt F) → (⟨S4096x256, .f32⟩ : BufTy).Contents (Elt F)),
    binary main_arg0 main_v3 main_v4 (Host.divf : (⟨S4096x256, .f32⟩ : BufTy).Contents (Elt F) → (⟨S4096x256, .f32⟩ : BufTy).Contents (Elt F) → (⟨S4096x256, .f32⟩ : BufTy).Contents (Elt F)),
    TRef.binary (TRef.of (T := ⟨S4096x256, .f32⟩) main_arg1) (TRef.of (T := ⟨S4096x256, .f32⟩) main_arg1) (TRef.of (T := ⟨S4096x256, .f32⟩) main_call1_v0) mulf,
    TRef.nullary (TRef.of (T := ⟨S_, .f32⟩) main_call1_cst) (constant S_ .f32 0x00000000#32),
    TRef.binary (TRef.of (T := ⟨S4096x256, .f32⟩) main_call1_v0) (TRef.of (T := ⟨S_, .f32⟩) main_call1_cst) (TRef.of (T := ⟨S4096, .f32⟩) main_call1_v1) (fun x v => Host.reduceAdd x v reducesTo_S4096x256_S4096_d1 h_S_),
    TRef.unary (TRef.of (T := ⟨S4096, .f32⟩) main_call1_v1) (TRef.of (T := ⟨S4096x1, .f32⟩) main_call1_v2) (broadcastInDim S4096x1 ![0] bcast_S4096_S4096x1_0),
    TRef.unary (TRef.of (T := ⟨S4096x1, .f32⟩) main_call1_v2) (TRef.of (T := ⟨S4096x1, .f32⟩) main_v5) Host.sqrt,
    nullary main_cst_0 (constant S_ .f32 0x2B8CBCCC#32),
    unary main_cst_0 main_v6 (broadcastInDim S4096x1 ![] bcast_S_S4096x1 : (⟨S_, .f32⟩ : BufTy).Contents (Elt F) → (⟨S4096x1, .f32⟩ : BufTy).Contents (Elt F)),
    binary main_v5 main_v6 main_v7 (maximumf : (⟨S4096x1, .f32⟩ : BufTy).Contents (Elt F) → (⟨S4096x1, .f32⟩ : BufTy).Contents (Elt F) → (⟨S4096x1, .f32⟩ : BufTy).Contents (Elt F)),
    unary main_v7 main_v8 (broadcastInDim S4096x256 ![0, 1] bcast_S4096x1_S4096x256_0_1 : (⟨S4096x1, .f32⟩ : BufTy).Contents (Elt F) → (⟨S4096x256, .f32⟩ : BufTy).Contents (Elt F)),
    binary main_arg1 main_v8 main_v9 (Host.divf : (⟨S4096x256, .f32⟩ : BufTy).Contents (Elt F) → (⟨S4096x256, .f32⟩ : BufTy).Contents (Elt F) → (⟨S4096x256, .f32⟩ : BufTy).Contents (Elt F)) ]

/-- The stack, its transpose and the similarity matrix. -/
abbrev ops2 : List (HloOp τ sig (Elt F)) :=
  [ binary main_v4 main_v9 main_v10 ((fun a b => concatenate S8192x256 0 [⟨S4096x256, a⟩, ⟨S4096x256, b⟩] concatenates_S4096x256_S4096x256_S8192x256_d0) : (⟨S4096x256, .f32⟩ : BufTy).Contents (Elt F) → (⟨S4096x256, .f32⟩ : BufTy).Contents (Elt F) → (⟨S8192x256, .f32⟩ : BufTy).Contents (Elt F)),
    unary main_v10 main_v11 ((transpose S256x8192 [1, 0] · transposes_S8192x256_S256x8192_1_0) : (⟨S8192x256, .f32⟩ : BufTy).Contents (Elt F) → (⟨S256x8192, .f32⟩ : BufTy).Contents (Elt F)),
    binary main_v10 main_v11 main_v12 ((fun l r => Host.dotGeneral dot_S8192x256_S256x8192_S8192x8192_1_0_0_1_n_n none l r) : (⟨S8192x256, .f32⟩ : BufTy).Contents (Elt F) → (⟨S256x8192, .f32⟩ : BufTy).Contents (Elt F) → (⟨S8192x8192, .f32⟩ : BufTy).Contents (Elt F)) ]

/-- The first gather's index words, as two columns. -/
abbrev ops3 : List (HloOp τ sig (Elt F)) :=
  [ nullary main_v13 (iotaInDim S4096 32 0),
    nullary main_c (constantI S_ 32 4096#32),
    unary main_c main_v14 (broadcastInDim S4096 ![] bcast_S_S4096 : (⟨S_, .i32⟩ : BufTy).Contents (Elt F) → (⟨S4096, .i32⟩ : BufTy).Contents (Elt F)),
    binary main_v13 main_v14 main_v15 (addi : (⟨S4096, .i32⟩ : BufTy).Contents (Elt F) → (⟨S4096, .i32⟩ : BufTy).Contents (Elt F) → (⟨S4096, .i32⟩ : BufTy).Contents (Elt F)),
    nullary main_c_1 (constantI S_ 32 0#32),
    unary main_c_1 main_v16 (broadcastInDim S4096 ![] bcast_S_S4096 : (⟨S_, .i32⟩ : BufTy).Contents (Elt F) → (⟨S4096, .i32⟩ : BufTy).Contents (Elt F)),
    binary main_v13 main_v16 main_v17 (cmpi .slt : (⟨S4096, .i32⟩ : BufTy).Contents (Elt F) → (⟨S4096, .i32⟩ : BufTy).Contents (Elt F) → (⟨S4096, .i1⟩ : BufTy).Contents (Elt F)),
    nullary main_c_2 (constantI S_ 32 8192#32),
    unary main_c_2 main_v18 (broadcastInDim S4096 ![] bcast_S_S4096 : (⟨S_, .i32⟩ : BufTy).Contents (Elt F) → (⟨S4096, .i32⟩ : BufTy).Contents (Elt F)),
    binary main_v13 main_v18 main_v19 (addi : (⟨S4096, .i32⟩ : BufTy).Contents (Elt F) → (⟨S4096, .i32⟩ : BufTy).Contents (Elt F) → (⟨S4096, .i32⟩ : BufTy).Contents (Elt F)),
    ternary main_v17 main_v19 main_v13 main_v20 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_3 (constantI S_ 32 0#32),
    unary main_c_3 main_v21 (broadcastInDim S4096 ![] bcast_S_S4096 : (⟨S_, .i32⟩ : BufTy).Contents (Elt F) → (⟨S4096, .i32⟩ : BufTy).Contents (Elt F)),
    binary main_v15 main_v21 main_v22 (cmpi .slt : (⟨S4096, .i32⟩ : BufTy).Contents (Elt F) → (⟨S4096, .i32⟩ : BufTy).Contents (Elt F) → (⟨S4096, .i1⟩ : BufTy).Contents (Elt F)),
    nullary main_c_4 (constantI S_ 32 8192#32),
    unary main_c_4 main_v23 (broadcastInDim S4096 ![] bcast_S_S4096 : (⟨S_, .i32⟩ : BufTy).Contents (Elt F) → (⟨S4096, .i32⟩ : BufTy).Contents (Elt F)),
    binary main_v15 main_v23 main_v24 (addi : (⟨S4096, .i32⟩ : BufTy).Contents (Elt F) → (⟨S4096, .i32⟩ : BufTy).Contents (Elt F) → (⟨S4096, .i32⟩ : BufTy).Contents (Elt F)),
    ternary main_v22 main_v24 main_v15 main_v25 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v20 main_v26 (broadcastInDim S4096x1 ![0] bcast_S4096_S4096x1_0 : (⟨S4096, .i32⟩ : BufTy).Contents (Elt F) → (⟨S4096x1, .i32⟩ : BufTy).Contents (Elt F)),
    unary main_v25 main_v27 (broadcastInDim S4096x1 ![0] bcast_S4096_S4096x1_0 : (⟨S4096, .i32⟩ : BufTy).Contents (Elt F) → (⟨S4096x1, .i32⟩ : BufTy).Contents (Elt F)) ]

/-- The first array of start indices and the first gather. -/
abbrev ops4 : List (HloOp τ sig (Elt F)) :=
  [ binary main_v26 main_v27 main_v28 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v12 main_v28 main_v29 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)) ]

/-- The second gather's index words, as two columns. -/
abbrev ops5 : List (HloOp τ sig (Elt F)) :=
  [ nullary main_c_5 (constantI S_ 32 4096#32),
    unary main_c_5 main_v30 (broadcastInDim S4096 ![] bcast_S_S4096 : (⟨S_, .i32⟩ : BufTy).Contents (Elt F) → (⟨S4096, .i32⟩ : BufTy).Contents (Elt F)),
    binary main_v13 main_v30 main_v31 (addi : (⟨S4096, .i32⟩ : BufTy).Contents (Elt F) → (⟨S4096, .i32⟩ : BufTy).Contents (Elt F) → (⟨S4096, .i32⟩ : BufTy).Contents (Elt F)),
    nullary main_c_6 (constantI S_ 32 0#32),
    unary main_c_6 main_v32 (broadcastInDim S4096 ![] bcast_S_S4096 : (⟨S_, .i32⟩ : BufTy).Contents (Elt F) → (⟨S4096, .i32⟩ : BufTy).Contents (Elt F)),
    binary main_v31 main_v32 main_v33 (cmpi .slt : (⟨S4096, .i32⟩ : BufTy).Contents (Elt F) → (⟨S4096, .i32⟩ : BufTy).Contents (Elt F) → (⟨S4096, .i1⟩ : BufTy).Contents (Elt F)),
    nullary main_c_7 (constantI S_ 32 8192#32),
    unary main_c_7 main_v34 (broadcastInDim S4096 ![] bcast_S_S4096 : (⟨S_, .i32⟩ : BufTy).Contents (Elt F) → (⟨S4096, .i32⟩ : BufTy).Contents (Elt F)),
    binary main_v31 main_v34 main_v35 (addi : (⟨S4096, .i32⟩ : BufTy).Contents (Elt F) → (⟨S4096, .i32⟩ : BufTy).Contents (Elt F) → (⟨S4096, .i32⟩ : BufTy).Contents (Elt F)),
    ternary main_v33 main_v35 main_v31 main_v36 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_8 (constantI S_ 32 0#32),
    unary main_c_8 main_v37 (broadcastInDim S4096 ![] bcast_S_S4096 : (⟨S_, .i32⟩ : BufTy).Contents (Elt F) → (⟨S4096, .i32⟩ : BufTy).Contents (Elt F)),
    binary main_v13 main_v37 main_v38 (cmpi .slt : (⟨S4096, .i32⟩ : BufTy).Contents (Elt F) → (⟨S4096, .i32⟩ : BufTy).Contents (Elt F) → (⟨S4096, .i1⟩ : BufTy).Contents (Elt F)),
    nullary main_c_9 (constantI S_ 32 8192#32),
    unary main_c_9 main_v39 (broadcastInDim S4096 ![] bcast_S_S4096 : (⟨S_, .i32⟩ : BufTy).Contents (Elt F) → (⟨S4096, .i32⟩ : BufTy).Contents (Elt F)),
    binary main_v13 main_v39 main_v40 (addi : (⟨S4096, .i32⟩ : BufTy).Contents (Elt F) → (⟨S4096, .i32⟩ : BufTy).Contents (Elt F) → (⟨S4096, .i32⟩ : BufTy).Contents (Elt F)),
    ternary main_v38 main_v40 main_v13 main_v41 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v36 main_v42 (broadcastInDim S4096x1 ![0] bcast_S4096_S4096x1_0 : (⟨S4096, .i32⟩ : BufTy).Contents (Elt F) → (⟨S4096x1, .i32⟩ : BufTy).Contents (Elt F)),
    unary main_v41 main_v43 (broadcastInDim S4096x1 ![0] bcast_S4096_S4096x1_0 : (⟨S4096, .i32⟩ : BufTy).Contents (Elt F) → (⟨S4096x1, .i32⟩ : BufTy).Contents (Elt F)) ]

/-- The second array of start indices and the second gather. -/
abbrev ops6 : List (HloOp τ sig (Elt F)) :=
  [ binary main_v42 main_v43 main_v44 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v12 main_v44 main_v45 ((fun x i => Host.gather gather_S8192x8192_S4096x2_S4096_n_01_n_n_01_1_11 x i) : (⟨S8192x8192, .f32⟩ : BufTy).Contents (Elt F) → (⟨S4096x2, .i32⟩ : BufTy).Contents (Elt F) → (⟨S4096, .f32⟩ : BufTy).Contents (Elt F)) ]

/-- The joined positives, divided by the word 1/2, and their exponentials. -/
abbrev ops7 : List (HloOp τ sig (Elt F)) :=
  [ binary main_v29 main_v45 main_v46 ((fun a b => concatenate S8192 0 [⟨S4096, a⟩, ⟨S4096, b⟩] concatenates_S4096_S4096_S8192_d0) : (⟨S4096, .f32⟩ : BufTy).Contents (Elt F) → (⟨S4096, .f32⟩ : BufTy).Contents (Elt F) → (⟨S8192, .f32⟩ : BufTy).Contents (Elt F)),
    nullary main_cst_10 (constant S_ .f32 0x3F000000#32),
    unary main_cst_10 main_v47 (broadcastInDim S8192 ![] bcast_S_S8192 : (⟨S_, .f32⟩ : BufTy).Contents (Elt F) → (⟨S8192, .f32⟩ : BufTy).Contents (Elt F)),
    binary main_v46 main_v47 main_v48 (Host.divf : (⟨S8192, .f32⟩ : BufTy).Contents (Elt F) → (⟨S8192, .f32⟩ : BufTy).Contents (Elt F) → (⟨S8192, .f32⟩ : BufTy).Contents (Elt F)),
    unary main_v48 main_v49 (Host.exp : (⟨S8192, .f32⟩ : BufTy).Contents (Elt F) → (⟨S8192, .f32⟩ : BufTy).Contents (Elt F)) ]

/-- The mask, the masked exponentials and the denominators. -/
abbrev ops8 : List (HloOp τ sig (Elt F)) :=
  [ nullary main_v50 (iotaInDim S8192x8192 32 0),
    nullary main_v51 (iotaInDim S8192x8192 32 1),
    nullary main_c_11 (constantI S_ 32 0#32),
    unary main_c_11 main_v52 (broadcastInDim S8192x8192 ![] bcast_S_S8192x8192 : (⟨S_, .i32⟩ : BufTy).Contents (Elt F) → (⟨S8192x8192, .i32⟩ : BufTy).Contents (Elt F)),
    binary main_v50 main_v52 main_v53 (addi : (⟨S8192x8192, .i32⟩ : BufTy).Contents (Elt F) → (⟨S8192x8192, .i32⟩ : BufTy).Contents (Elt F) → (⟨S8192x8192, .i32⟩ : BufTy).Contents (Elt F)),
    binary main_v53 main_v51 main_v54 (cmpi .eq : (⟨S8192x8192, .i32⟩ : BufTy).Contents (Elt F) → (⟨S8192x8192, .i32⟩ : BufTy).Contents (Elt F) → (⟨S8192x8192, .i1⟩ : BufTy).Contents (Elt F)),
    unary main_v54 main_v55 (uitofp .f32 : (⟨S8192x8192, .i1⟩ : BufTy).Contents (Elt F) → (⟨S8192x8192, .f32⟩ : BufTy).Contents (Elt F)),
    nullary main_cst_12 (constant S_ .f32 0x3F800000#32),
    unary main_cst_12 main_v56 (broadcastInDim S8192x8192 ![] bcast_S_S8192x8192 : (⟨S_, .f32⟩ : BufTy).Contents (Elt F) → (⟨S8192x8192, .f32⟩ : BufTy).Contents (Elt F)),
    binary main_v56 main_v55 main_v57 (subf : (⟨S8192x8192, .f32⟩ : BufTy).Contents (Elt F) → (⟨S8192x8192, .f32⟩ : BufTy).Contents (Elt F) → (⟨S8192x8192, .f32⟩ : BufTy).Contents (Elt F)),
    nullary main_cst_13 (constant S_ .f32 0x3F000000#32),
    unary main_cst_13 main_v58 (broadcastInDim S8192x8192 ![] bcast_S_S8192x8192 : (⟨S_, .f32⟩ : BufTy).Contents (Elt F) → (⟨S8192x8192, .f32⟩ : BufTy).Contents (Elt F)),
    binary main_v12 main_v58 main_v59 (Host.divf : (⟨S8192x8192, .f32⟩ : BufTy).Contents (Elt F) → (⟨S8192x8192, .f32⟩ : BufTy).Contents (Elt F) → (⟨S8192x8192, .f32⟩ : BufTy).Contents (Elt F)),
    unary main_v59 main_v60 (Host.exp : (⟨S8192x8192, .f32⟩ : BufTy).Contents (Elt F) → (⟨S8192x8192, .f32⟩ : BufTy).Contents (Elt F)),
    binary main_v57 main_v60 main_v61 (mulf : (⟨S8192x8192, .f32⟩ : BufTy).Contents (Elt F) → (⟨S8192x8192, .f32⟩ : BufTy).Contents (Elt F) → (⟨S8192x8192, .f32⟩ : BufTy).Contents (Elt F)),
    nullary main_cst_14 (constant S_ .f32 0x00000000#32),
    binary main_v61 main_cst_14 main_v62 ((fun x v => Host.reduceAdd x v reducesTo_S8192x8192_S8192_d1 h_S_) : (⟨S8192x8192, .f32⟩ : BufTy).Contents (Elt F) → (⟨S_, .f32⟩ : BufTy).Contents (Elt F) → (⟨S8192, .f32⟩ : BufTy).Contents (Elt F)) ]

/-- The terms, their sum from the zero word and the mean. -/
abbrev ops9 : List (HloOp τ sig (Elt F)) :=
  [ binary main_v49 main_v62 main_v63 (Host.divf : (⟨S8192, .f32⟩ : BufTy).Contents (Elt F) → (⟨S8192, .f32⟩ : BufTy).Contents (Elt F) → (⟨S8192, .f32⟩ : BufTy).Contents (Elt F)),
    unary main_v63 main_v64 (Host.log : (⟨S8192, .f32⟩ : BufTy).Contents (Elt F) → (⟨S8192, .f32⟩ : BufTy).Contents (Elt F)),
    unary main_v64 main_v65 (Host.negf : (⟨S8192, .f32⟩ : BufTy).Contents (Elt F) → (⟨S8192, .f32⟩ : BufTy).Contents (Elt F)),
    nullary main_cst_15 (constant S_ .f32 0x00000000#32),
    binary main_v65 main_cst_15 main_v66 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_16 (constant S_ .f32 0x46000000#32),
    binary main_v66 main_cst_16 main_v67 (Host.divf : (⟨S_, .f32⟩ : BufTy).Contents (Elt F) → (⟨S_, .f32⟩ : BufTy).Contents (Elt F) → (⟨S_, .f32⟩ : BufTy).Contents (Elt F)) ]

set_option maxRecDepth 8192 in
/-- The nine stages in a row are the program's operation list. -/
theorem ops_split : (ops : List (HloOp τ sig (Elt F))) = ops1 ++ (ops2 ++ (ops3 ++ (ops4 ++ (ops5 ++ (ops6 ++ (ops7 ++ (ops8 ++ ops9))))))) := rfl

/-- The contents after two lines in a row. -/
theorem after_append' : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append' l₁ l₂]

/-- The similarity matrix, as a function of the two normalised arrays. -/
def simOf (a b : (⟨S4096x256, .f32⟩ : BufTy).Contents (Elt F)) : (⟨S8192x8192, .f32⟩ : BufTy).Contents (Elt F) :=
  Host.dotGeneral dot_S8192x256_S256x8192_S8192x8192_1_0_0_1_n_n none
    (concatenate S8192x256 0 [⟨S4096x256, a⟩, ⟨S4096x256, b⟩] concatenates_S4096x256_S4096x256_S8192x256_d0)
    (transpose S256x8192 [1, 0] (concatenate S8192x256 0 [⟨S4096x256, a⟩, ⟨S4096x256, b⟩] concatenates_S4096x256_S4096x256_S8192x256_d0)
      transposes_S8192x256_S256x8192_1_0)

/-- A gather of the similarity matrix, as a function of the matrix and the two columns of start words. -/
def gatherOf (s : (⟨S8192x8192, .f32⟩ : BufTy).Contents (Elt F)) (p q : (⟨S4096x1, .i32⟩ : BufTy).Contents (Elt F)) :
    (⟨S4096, .f32⟩ : BufTy).Contents (Elt F) :=
  Host.gather gather_S8192x8192_S4096x2_S4096_n_01_n_n_01_1_11 s
    (concatenate S4096x2 1 [⟨S4096x1, p⟩, ⟨S4096x1, q⟩] concatenates_S4096x1_S4096x1_S4096x2_d1)

/-- The exponentials of the positives, as a function of the two gathers. -/
def expPosOf (g h : (⟨S4096, .f32⟩ : BufTy).Contents (Elt F)) : (⟨S8192, .f32⟩ : BufTy).Contents (Elt F) :=
  Host.exp (Host.divf (concatenate S8192 0 [⟨S4096, g⟩, ⟨S4096, h⟩] concatenates_S4096_S4096_S8192_d0) (val_main_v47 (F := F)))

/-- The denominators, as a function of the similarity matrix. -/
def denOf (s : (⟨S8192x8192, .f32⟩ : BufTy).Contents (Elt F)) : (⟨S8192, .f32⟩ : BufTy).Contents (Elt F) :=
  Host.reduceAdd (mulf (val_main_v57 (F := F)) (Host.exp (Host.divf s (val_main_v58 (F := F))))) (val_main_cst_14 (F := F))
    reducesTo_S8192x8192_S8192_d1 h_S_

/-- The result, as a function of the exponentials of the positives and the denominators. -/
def tailOf (p d : (⟨S8192, .f32⟩ : BufTy).Contents (Elt F)) : (⟨S_, .f32⟩ : BufTy).Contents (Elt F) :=
  Host.divf (Host.reduceAdd (Host.negf (Host.log (Host.divf p d))) (val_main_cst_15 (F := F)) reducesTo_S8192_S_d0 h_S_)
    (val_main_cst_16 (F := F))

/-- The stages' functions composed are the last stage of the reference read operation by operation. -/
theorem stages_eq (x0 x1 : (⟨S4096x256, .f32⟩ : BufTy).Contents (Elt F)) :
    tailOf (expPosOf (gatherOf (simOf (val_main_v4 (F := F) x0) (val_main_v9 (F := F) x1)) (val_main_v26 (F := F)) (val_main_v27 (F := F)))
        (gatherOf (simOf (val_main_v4 (F := F) x0) (val_main_v9 (F := F) x1)) (val_main_v42 (F := F)) (val_main_v43 (F := F))))
      (denOf (simOf (val_main_v4 (F := F) x0) (val_main_v9 (F := F) x1))) = val_main_v67 (F := F) x0 x1 := rfl

variable (W : Valuation τ sig (Elt F))

set_option maxRecDepth 8192 in
theorem s1_v4 : after ops1 W (Proc.devRef .tc main_v4) = val_main_v4 (F := F) (W (Proc.devRef .tc main_arg0)) := by
  after_results_simp <;> rfl

set_option maxRecDepth 8192 in
theorem s1_v9 : after ops1 W (Proc.devRef .tc main_v9) = val_main_v9 (F := F) (W (Proc.devRef .tc main_arg1)) := by
  after_results_simp <;> rfl

set_option maxRecDepth 8192 in
theorem s1_keep_arg0 : after ops1 W (Proc.devRef .tc main_arg0) = W (Proc.devRef .tc main_arg0) := by
  after_results_simp

set_option maxRecDepth 8192 in
theorem s1_keep_arg1 : after ops1 W (Proc.devRef .tc main_arg1) = W (Proc.devRef .tc main_arg1) := by
  after_results_simp

set_option maxRecDepth 8192 in
theorem s2_v12 : after ops2 W (Proc.devRef .tc main_v12) = simOf (F := F) (W (Proc.devRef .tc main_v4)) (W (Proc.devRef .tc main_v9)) := by
  after_results_simp <;> rfl

set_option maxRecDepth 8192 in
theorem s2_keep_arg0 : after ops2 W (Proc.devRef .tc main_arg0) = W (Proc.devRef .tc main_arg0) := by
  after_results_simp

set_option maxRecDepth 8192 in
theorem s2_keep_arg1 : after ops2 W (Proc.devRef .tc main_arg1) = W (Proc.devRef .tc main_arg1) := by
  after_results_simp

set_option maxRecDepth 8192 in
theorem s3_v13 : after ops3 W (Proc.devRef .tc main_v13) = val_main_v13 (F := F) := by
  after_results_simp <;> rfl

set_option maxRecDepth 8192 in
theorem s3_v26 : after ops3 W (Proc.devRef .tc main_v26) = val_main_v26 (F := F) := by
  after_results_simp <;> rfl

set_option maxRecDepth 8192 in
theorem s3_v27 : after ops3 W (Proc.devRef .tc main_v27) = val_main_v27 (F := F) := by
  after_results_simp <;> rfl

set_option maxRecDepth 8192 in
theorem s3_keep_v12 : after ops3 W (Proc.devRef .tc main_v12) = W (Proc.devRef .tc main_v12) := by
  after_results_simp

set_option maxRecDepth 8192 in
theorem s3_keep_arg0 : after ops3 W (Proc.devRef .tc main_arg0) = W (Proc.devRef .tc main_arg0) := by
  after_results_simp

set_option maxRecDepth 8192 in
theorem s3_keep_arg1 : after ops3 W (Proc.devRef .tc main_arg1) = W (Proc.devRef .tc main_arg1) := by
  after_results_simp

set_option maxRecDepth 8192 in
theorem s4_v29 : after ops4 W (Proc.devRef .tc main_v29) = gatherOf (F := F) (W (Proc.devRef .tc main_v12)) (W (Proc.devRef .tc main_v26)) (W (Proc.devRef .tc main_v27)) := by
  after_results_simp <;> rfl

set_option maxRecDepth 8192 in
theorem s4_keep_v13 : after ops4 W (Proc.devRef .tc main_v13) = W (Proc.devRef .tc main_v13) := by
  after_results_simp

set_option maxRecDepth 8192 in
theorem s4_keep_v12 : after ops4 W (Proc.devRef .tc main_v12) = W (Proc.devRef .tc main_v12) := by
  after_results_simp

set_option maxRecDepth 8192 in
theorem s4_keep_arg0 : after ops4 W (Proc.devRef .tc main_arg0) = W (Proc.devRef .tc main_arg0) := by
  after_results_simp

set_option maxRecDepth 8192 in
theorem s4_keep_arg1 : after ops4 W (Proc.devRef .tc main_arg1) = W (Proc.devRef .tc main_arg1) := by
  after_results_simp

set_option maxRecDepth 8192 in
theorem s5_v42 (h13 : W (Proc.devRef .tc main_v13) = val_main_v13 (F := F)) :
    after ops5 W (Proc.devRef .tc main_v42) = val_main_v42 (F := F) := by
  after_results_simp
  rw [h13]
  rfl

set_option maxRecDepth 8192 in
theorem s5_v43 (h13 : W (Proc.devRef .tc main_v13) = val_main_v13 (F := F)) :
    after ops5 W (Proc.devRef .tc main_v43) = val_main_v43 (F := F) := by
  after_results_simp
  rw [h13]
  rfl

set_option maxRecDepth 8192 in
theorem s5_keep_v12 : after ops5 W (Proc.devRef .tc main_v12) = W (Proc.devRef .tc main_v12) := by
  after_results_simp

set_option maxRecDepth 8192 in
theorem s5_keep_v29 : after ops5 W (Proc.devRef .tc main_v29) = W (Proc.devRef .tc main_v29) := by
  after_results_simp

set_option maxRecDepth 8192 in
theorem s5_keep_arg0 : after ops5 W (Proc.devRef .tc main_arg0) = W (Proc.devRef .tc main_arg0) := by
  after_results_simp

set_option maxRecDepth 8192 in
theorem s5_keep_arg1 : after ops5 W (Proc.devRef .tc main_arg1) = W (Proc.devRef .tc main_arg1) := by
  after_results_simp

set_option maxRecDepth 8192 in
theorem s6_v45 : after ops6 W (Proc.devRef .tc main_v45) = gatherOf (F := F) (W (Proc.devRef .tc main_v12)) (W (Proc.devRef .tc main_v42)) (W (Proc.devRef .tc main_v43)) := by
  after_results_simp <;> rfl

set_option maxRecDepth 8192 in
theorem s6_keep_v12 : after ops6 W (Proc.devRef .tc main_v12) = W (Proc.devRef .tc main_v12) := by
  after_results_simp

set_option maxRecDepth 8192 in
theorem s6_keep_v29 : after ops6 W (Proc.devRef .tc main_v29) = W (Proc.devRef .tc main_v29) := by
  after_results_simp

set_option maxRecDepth 8192 in
theorem s6_keep_arg0 : after ops6 W (Proc.devRef .tc main_arg0) = W (Proc.devRef .tc main_arg0) := by
  after_results_simp

set_option maxRecDepth 8192 in
theorem s6_keep_arg1 : after ops6 W (Proc.devRef .tc main_arg1) = W (Proc.devRef .tc main_arg1) := by
  after_results_simp

set_option maxRecDepth 8192 in
theorem s7_v49 : after ops7 W (Proc.devRef .tc main_v49) = expPosOf (F := F) (W (Proc.devRef .tc main_v29)) (W (Proc.devRef .tc main_v45)) := by
  after_results_simp <;> rfl

set_option maxRecDepth 8192 in
theorem s7_keep_v12 : after ops7 W (Proc.devRef .tc main_v12) = W (Proc.devRef .tc main_v12) := by
  after_results_simp

set_option maxRecDepth 8192 in
theorem s7_keep_arg0 : after ops7 W (Proc.devRef .tc main_arg0) = W (Proc.devRef .tc main_arg0) := by
  after_results_simp

set_option maxRecDepth 8192 in
theorem s7_keep_arg1 : after ops7 W (Proc.devRef .tc main_arg1) = W (Proc.devRef .tc main_arg1) := by
  after_results_simp

set_option maxRecDepth 8192 in
theorem s8_v62 : after ops8 W (Proc.devRef .tc main_v62) = denOf (F := F) (W (Proc.devRef .tc main_v12)) := by
  after_results_simp <;> rfl

set_option maxRecDepth 8192 in
theorem s8_keep_v49 : after ops8 W (Proc.devRef .tc main_v49) = W (Proc.devRef .tc main_v49) := by
  after_results_simp

set_option maxRecDepth 8192 in
theorem s8_keep_arg0 : after ops8 W (Proc.devRef .tc main_arg0) = W (Proc.devRef .tc main_arg0) := by
  after_results_simp

set_option maxRecDepth 8192 in
theorem s8_keep_arg1 : after ops8 W (Proc.devRef .tc main_arg1) = W (Proc.devRef .tc main_arg1) := by
  after_results_simp

set_option maxRecDepth 8192 in
theorem s9_v67 : after ops9 W (Proc.devRef .tc main_v67) = tailOf (F := F) (W (Proc.devRef .tc main_v49)) (W (Proc.devRef .tc main_v62)) := by
  after_results_simp <;> rfl

set_option maxRecDepth 8192 in
theorem s9_keep_arg0 : after ops9 W (Proc.devRef .tc main_arg0) = W (Proc.devRef .tc main_arg0) := by
  after_results_simp

set_option maxRecDepth 8192 in
theorem s9_keep_arg1 : after ops9 W (Proc.devRef .tc main_arg1) = W (Proc.devRef .tc main_arg1) := by
  after_results_simp

/-- The result buffer after the whole list: the last stage of the reference read operation by operation, at the
    two argument buffers as the list found them. -/
theorem after_res (V : Valuation τ sig (Elt F)) :
    after (ops : List (HloOp τ sig (Elt F))) V (Proc.devRef .tc main_v67)
      = val_main_v67 (F := F) (V (Proc.devRef .tc main_arg0)) (V (Proc.devRef .tc main_arg1)) := by
  have h13 : after ops4 (after ops3 (after ops2 (after ops1 V))) (Proc.devRef .tc main_v13) = val_main_v13 (F := F) := by
    rw [s4_keep_v13, s3_v13]
  rw [ops_split, after_append', after_append', after_append', after_append', after_append', after_append', after_append',
    after_append', s9_v67, s8_v62, s8_keep_v49, s7_v49, s7_keep_v12, s6_v45, s6_keep_v29, s6_keep_v12, s5_v42 _ h13, s5_v43 _ h13,
    s5_keep_v29, s5_keep_v12, s4_v29, s4_keep_v12, s3_v26, s3_v27, s3_keep_v12, s2_v12, s1_v4, s1_v9]
  exact stages_eq _ _

/-- The first argument buffer after the whole list: as the list found it. -/
theorem after_arg0 (V : Valuation τ sig (Elt F)) :
    after (ops : List (HloOp τ sig (Elt F))) V (Proc.devRef .tc main_arg0) = V (Proc.devRef .tc main_arg0) := by
  rw [ops_split, after_append', after_append', after_append', after_append', after_append', after_append', after_append',
    after_append', s9_keep_arg0, s8_keep_arg0, s7_keep_arg0, s6_keep_arg0, s5_keep_arg0, s4_keep_arg0, s3_keep_arg0,
    s2_keep_arg0, s1_keep_arg0]

/-- The second argument buffer after the whole list: as the list found it. -/
theorem after_arg1 (V : Valuation τ sig (Elt F)) :
    after (ops : List (HloOp τ sig (Elt F))) V (Proc.devRef .tc main_arg1) = V (Proc.devRef .tc main_arg1) := by
  rw [ops_split, after_append', after_append', after_append', after_append', after_append', after_append', after_append',
    after_append', s9_keep_arg1, s8_keep_arg1, s7_keep_arg1, s6_keep_arg1, s5_keep_arg1, s4_keep_arg1, s3_keep_arg1,
    s2_keep_arg1, s1_keep_arg1]

end Cert.RefBridge

end
-- ==== Proof.RefUnit.lean ====
import proofs.«173961_j1236950581990_1_alg».proof.Proof.RefReadP
import proofs.«173961_j1236950581990_1_alg».proof.Proof.Spec

/-!
# The two normalised arrays of the reference are the unit rows of the specification

Each argument's entry (r, k) is divided by the row's norm floored at the word 1e-12: the norm is the square root
of the row's sum of squares started from the zero word.
-/

noncomputable section

open scoped BigOperators

namespace Cert.RefBridge

open Idealize.ShloMosaic Idealize.ShloMosaic.ValueIdx Cert.ReferenceIdeal Cert.ReferenceIdeal.Gen Cert.ReferenceIdeal.ReadP

/-- The first argument, normalised, at (r, k). -/
theorem unit0_apply (x0 : (⟨S4096x256, .f32⟩ : BufTy).Contents (Elt Ideal)) (r : Fin 4096) (k : Fin 256) :
    val_main_v4 (F := Ideal) x0 (ix2 r k) = Cert.Spec.unit x0 r k := by
  have e : ∀ k' : Fin 256, idx_main_call0_v1 (idx_main_call0_v2 (idx_main_v3 (ix2 r k))) k' = ix2 r k' := fun k' =>
    funext fun a => Fin.ext (by match a with | ⟨0, _⟩ => rfl | ⟨1, _⟩ => rfl)
  rw [val_main_v4_apply, val_main_v3_apply, val_main_v2_apply, val_main_v0_apply, val_main_call0_v2_apply,
    val_main_call0_v1_apply, val_main_v1_apply, val_main_cst_apply, val_main_call0_cst_apply]
  simp only [val_main_call0_v0_apply, e, Ideal.hostDivf_def, Ideal.maximumf_def, Ideal.hostUnary_sqrt_def,
    Ideal.ofBits_def, Ideal.mulf_def, Ideal.ofBits_zero_f32, zero_add]
  rfl

/-- The second argument, normalised, at (r, k). -/
theorem unit1_apply (x1 : (⟨S4096x256, .f32⟩ : BufTy).Contents (Elt Ideal)) (r : Fin 4096) (k : Fin 256) :
    val_main_v9 (F := Ideal) x1 (ix2 r k) = Cert.Spec.unit x1 r k := by
  have e : ∀ k' : Fin 256, idx_main_call1_v1 (idx_main_call1_v2 (idx_main_v8 (ix2 r k))) k' = ix2 r k' := fun k' =>
    funext fun a => Fin.ext (by match a with | ⟨0, _⟩ => rfl | ⟨1, _⟩ => rfl)
  rw [val_main_v9_apply, val_main_v8_apply, val_main_v7_apply, val_main_v5_apply, val_main_call1_v2_apply,
    val_main_call1_v1_apply, val_main_v6_apply, val_main_cst_0_apply, val_main_call1_cst_apply]
  simp only [val_main_call1_v0_apply, e, Ideal.hostDivf_def, Ideal.maximumf_def, Ideal.hostUnary_sqrt_def,
    Ideal.ofBits_def, Ideal.mulf_def, Ideal.ofBits_zero_f32, zero_add]
  rfl

end Cert.RefBridge

end
-- ==== Proof.RefStack.lean ====
import proofs.«173961_j1236950581990_1_alg».proof.Proof.RefUnit

/-!
# The stacked array of the reference is the specification's stack of unit rows

Rows below 4096 come from the first normalised array at the same row, rows from 4096 on from the second at the row
less 4096; either way the row read is r mod 4096.
-/

noncomputable section

open scoped BigOperators

namespace Cert.RefBridge

open Idealize.ShloMosaic Idealize.ShloMosaic.ValueIdx Cert.ReferenceIdeal Cert.ReferenceIdeal.Gen Cert.ReferenceIdeal.ReadP

/-- The stacked array at (r, k). -/
theorem stack_apply (x0 x1 : (⟨S4096x256, .f32⟩ : BufTy).Contents (Elt Ideal)) (r : Fin 8192) (k : Fin 256) :
    val_main_v10 (F := Ideal) x0 x1 (ix2 r k) = Cert.Spec.z x0 x1 r k := by
  unfold val_main_v10 Cert.Spec.z
  by_cases h : r.val < 4096
  · rw [if_pos h]
    refine (concatenate_pair_apply_left (0 : Fin S8192x256.rank) _ _ concatenates_S4096x256_S4096x256_S8192x256_d0
      (ix2 r k) rfl (ix2 (Cert.Spec.low r) k) ?_).trans (unit0_apply x0 _ k)
    intro b
    match b with
    | ⟨0, _⟩ => show r.val % 4096 = r.val; omega
    | ⟨1, _⟩ => rfl
  · rw [if_neg h]
    refine (concatenate_pair_apply_right (0 : Fin S8192x256.rank) _ _ concatenates_S4096x256_S4096x256_S8192x256_d0
      (ix2 r k) rfl rfl (ix2 (Cert.Spec.low r) k) ?_ ?_).trans (unit1_apply x1 _ k)
    · intro b hb
      match b with
      | ⟨0, _⟩ => exact absurd rfl hb
      | ⟨1, _⟩ => rfl
    · show r.val % 4096 + 4096 = r.val
      have := r.isLt; omega

end Cert.RefBridge

end
-- ==== Proof.RefSim.lean ====
import proofs.«173961_j1236950581990_1_alg».proof.Proof.RefStack

/-!
# The similarity matrix of the reference is the specification's

Entry (r, c) of the product of the stacked array with its transpose is the sum over k of the stack at (r, k) times
the stack at (c, k).
-/

noncomputable section

open scoped BigOperators

namespace Cert.RefBridge

open Idealize.ShloMosaic Idealize.ShloMosaic.ValueIdx Cert.ReferenceIdeal Cert.ReferenceIdeal.Gen Cert.ReferenceIdeal.ReadP

/-- The similarity matrix at (r, c). -/
theorem sim_apply (x0 x1 : (⟨S4096x256, .f32⟩ : BufTy).Contents (Elt Ideal)) (r c : Fin 8192) :
    val_main_v12 (F := Ideal) x0 x1 (ix2 r c) = Cert.Spec.sim x0 x1 r c := by
  rw [val_main_v12_apply]
  unfold Cert.Spec.sim
  refine Finset.sum_congr rfl fun k _ => ?_
  have el : lidx_main_v12 (ix2 r c) k = ix2 r k :=
    funext fun a => Fin.ext (by match a with | ⟨0, _⟩ => rfl | ⟨1, _⟩ => rfl)
  have er : idx_main_v11 (ridx_main_v12 (ix2 r c) k) = ix2 c k :=
    funext fun a => Fin.ext (by match a with | ⟨0, _⟩ => rfl | ⟨1, _⟩ => rfl)
  rw [val_main_v11_apply, el, er, stack_apply, stack_apply]

end Cert.RefBridge

end
-- ==== Proof.RefGather.lean ====
import proofs.«173961_j1236950581990_1_alg».proof.Proof.Gen.ReferenceIdeal
import Idealize.ShloMosaic.Lib.ValueIdx

/-!
# The gather of one entry per row of a square matrix, read at a row

The operand is a 8192 x 8192 matrix, the start indices a 4096 x 2 array of words: row i of the result is the operand's
entry at (the first word of row i, the second word of row i), each read signed and clamped into [0, 8191]. Both
operand axes are collapsed, so there is no offset and no batching coordinate.
-/

noncomputable section

namespace Cert.RefBridge

open Idealize.ShloMosaic Idealize.ShloMosaic.ValueIdx Cert.ReferenceIdeal Cert.ReferenceIdeal.Gen

/-- The gather's dimension numbers, under a short name. -/
abbrev pairDims : GatherDims S8192x8192 S4096x2 S4096 := gather_S8192x8192_S4096x2_S4096_n_01_n_n_01_1_11

/-- The gather at row i: the operand at the two start words of row i, read signed and clamped. -/
theorem gather_pair_apply {α : Type} (x : S8192x8192.Idx → α) (idx : IVec S4096x2 32) (i : Fin 4096) :
    Host.gather pairDims x idx (ix1 i)
      = x (ix2 (⟨min (idx (ix2 i (0 : Fin 2))).toInt.toNat 8191, by omega⟩ : Fin 8192)
              (⟨min (idx (ix2 i (1 : Fin 2))).toInt.toNat 8191, by omega⟩ : Fin 8192)) := by
  unfold Host.gather
  congr 1
  funext a
  refine Fin.ext ?_
  match a with
  | ⟨0, _⟩ =>
    show pairDims.start (ix1 i) idx 0 + pairDims.batchCoord (ix1 i) 0 + pairDims.offCoord (ix1 i) 0 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 2) ∈ pairDims.startIndexMap by decide)]
    have hsi : pairDims.siIdx (ix1 i) ⟨List.idxOf (0 : Fin 2) pairDims.startIndexMap,
        List.idxOf_lt_length_iff.2 (by decide)⟩ = ix2 i (0 : Fin 2) := by
      funext b; refine Fin.ext ?_
      match b with
      | ⟨0, _⟩ => rfl
      | ⟨1, _⟩ => rfl
    rw [hsi]
    rfl
  | ⟨1, _⟩ =>
    show pairDims.start (ix1 i) idx 1 + pairDims.batchCoord (ix1 i) 1 + pairDims.offCoord (ix1 i) 1 = _
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 2) ∈ pairDims.startIndexMap by decide)]
    have hsi : pairDims.siIdx (ix1 i) ⟨List.idxOf (1 : Fin 2) pairDims.startIndexMap,
        List.idxOf_lt_length_iff.2 (by decide)⟩ = ix2 i (1 : Fin 2) := by
      funext b; refine Fin.ext ?_
      match b with
      | ⟨0, _⟩ => rfl
      | ⟨1, _⟩ => rfl
    rw [hsi]
    rfl

/-- The gather at row i when the two start words of row i are the words of numbers a and b below 8192: the operand
    at (a, b). -/
theorem gather_pair_of_words {α : Type} (x : S8192x8192.Idx → α) (idx : IVec S4096x2 32) (i : Fin 4096)
    (a b : Fin 8192) (ha : idx (ix2 i (0 : Fin 2)) = BitVec.ofNat 32 a.val)
    (hb : idx (ix2 i (1 : Fin 2)) = BitVec.ofNat 32 b.val) :
    Host.gather pairDims x idx (ix1 i) = x (ix2 a b) := by
  rw [gather_pair_apply]
  have hn : ∀ n : Nat, n < 8192 → (BitVec.ofNat 32 n).toInt.toNat = n := fun n h => by
    have hn : (BitVec.ofNat 32 n).toNat = n := by rw [BitVec.toNat_ofNat]; omega
    rw [BitVec.toInt_eq_toNat_of_lt (by rw [hn]; omega), hn]; simp
  congr 1
  funext d
  refine Fin.ext ?_
  match d with
  | ⟨0, _⟩ =>
    show min (idx (ix2 i (0 : Fin 2))).toInt.toNat 8191 = a.val
    rw [ha, hn _ a.isLt]; have := a.isLt; omega
  | ⟨1, _⟩ =>
    show min (idx (ix2 i (1 : Fin 2))).toInt.toNat 8191 = b.val
    rw [hb, hn _ b.isLt]; have := b.isLt; omega

end Cert.RefBridge

end
-- ==== Proof.RefWords.lean ====
import Idealize.ShloMosaic.PureOps.Ideal
import Idealize.ShloMosaic.Lib.ValueIdx

/-!
# The index words of the two gathers

The start indices are the row number i below 4096 and i + 4096, as 32-bit words, each passed through a select that
adds 8192 to a negative word. Neither word is negative, so each select keeps its word, and read back as a signed
integer each word is the number it was built from.
-/

noncomputable section

namespace Cert.RefBridge

open Idealize.ShloMosaic Idealize.ShloMosaic.ValueIdx

/-- A number below 2³¹ read back off its 32-bit word as a signed integer is itself. -/
theorem toInt_toNat_ofNat (a : Nat) (h : a < 2147483648) : (BitVec.ofNat 32 a).toInt.toNat = a := by
  have hn : (BitVec.ofNat 32 a).toNat = a := by
    rw [BitVec.toNat_ofNat]; omega
  rw [BitVec.toInt_eq_toNat_of_lt (by rw [hn]; omega), hn]; simp

/-- The word of a number below 2³¹ is not negative. -/
theorem slt_zero_ofNat (a : Nat) (h : a < 2147483648) : IntOp.cmpi .slt (BitVec.ofNat 32 a) 0#32 = 0#1 := by
  unfold IntOp.cmpi
  have : (BitVec.ofNat 32 a).slt 0#32 = false := by
    have hn : (BitVec.ofNat 32 a).toNat = a := by
      rw [BitVec.toNat_ofNat]; omega
    rw [BitVec.slt_eq_decide, BitVec.toInt_eq_toNat_of_lt (by rw [hn]; omega), hn]
    simp
  show BitVec.ofBool ((BitVec.ofNat 32 a).slt 0#32) = 0#1
  rw [this]; rfl

/-- The word of i plus the word 4096 is the word of i + 4096. -/
theorem addi_4096 (i : Nat) : IntOp.addi (BitVec.ofNat 32 i) 4096#32 = BitVec.ofNat 32 (i + 4096) := by
  unfold IntOp.addi
  rw [show (4096#32 : BitVec 32) = BitVec.ofNat 32 4096 from rfl, ← BitVec.ofNat_add]

/-- The wrap-around select of the row number keeps it. -/
theorem wrap_lo (i : Fin 4096) :
    Scalar.select (IntOp.cmpi .slt (BitVec.ofNat 32 i.val) 0#32)
      (IntOp.addi (BitVec.ofNat 32 i.val) 8192#32) (BitVec.ofNat 32 i.val) = BitVec.ofNat 32 i.val := by
  rw [slt_zero_ofNat _ (by have := i.isLt; omega), select_zero]

/-- The wrap-around select of the row number plus 4096 keeps it. -/
theorem wrap_hi (i : Fin 4096) :
    Scalar.select (IntOp.cmpi .slt (IntOp.addi (BitVec.ofNat 32 i.val) 4096#32) 0#32)
      (IntOp.addi (IntOp.addi (BitVec.ofNat 32 i.val) 4096#32) 8192#32) (IntOp.addi (BitVec.ofNat 32 i.val) 4096#32)
      = BitVec.ofNat 32 (i.val + 4096) := by
  rw [addi_4096, slt_zero_ofNat _ (by have := i.isLt; omega), select_zero]

end Cert.RefBridge

end
-- ==== Proof.RefStart.lean ====
import proofs.«173961_j1236950581990_1_alg».proof.Proof.RefReadP
import proofs.«173961_j1236950581990_1_alg».proof.Proof.RefWords

/-!
# The two arrays of start indices

Row i of the first array is the pair of words (i, i + 4096), row i of the second the pair (i + 4096, i): the row
number and the row number plus 4096, each passed through a wrap-around select that keeps it, and the two columns
joined.
-/

noncomputable section

namespace Cert.RefBridge

open Idealize.ShloMosaic Idealize.ShloMosaic.ValueIdx Cert.ReferenceIdeal Cert.ReferenceIdeal.Gen Cert.ReferenceIdeal.ReadP

/-- The row number through its select, first gather. -/
theorem word_v20 (i : Fin 4096) : val_main_v20 (F := Ideal) (ix1 i) = BitVec.ofNat 32 i.val := by
  rw [val_main_v20_apply, val_main_v17_apply, val_main_v19_apply, val_main_v16_apply, val_main_v18_apply]
  exact wrap_lo i

/-- The row number plus 4096 through its select, first gather. -/
theorem word_v25 (i : Fin 4096) : val_main_v25 (F := Ideal) (ix1 i) = BitVec.ofNat 32 (i.val + 4096) := by
  rw [val_main_v25_apply, val_main_v22_apply, val_main_v24_apply, val_main_v15_apply, val_main_v14_apply,
    val_main_v21_apply, val_main_v23_apply]
  exact wrap_hi i

/-- The row number plus 4096 through its select, second gather. -/
theorem word_v36 (i : Fin 4096) : val_main_v36 (F := Ideal) (ix1 i) = BitVec.ofNat 32 (i.val + 4096) := by
  rw [val_main_v36_apply, val_main_v33_apply, val_main_v35_apply, val_main_v31_apply, val_main_v30_apply,
    val_main_v32_apply, val_main_v34_apply]
  exact wrap_hi i

/-- The row number through its select, second gather. -/
theorem word_v41 (i : Fin 4096) : val_main_v41 (F := Ideal) (ix1 i) = BitVec.ofNat 32 i.val := by
  rw [val_main_v41_apply, val_main_v38_apply, val_main_v40_apply, val_main_v37_apply, val_main_v39_apply]
  exact wrap_lo i

/-- The first array of start indices at (i, 0): the word of i. -/
theorem startA_0 (i : Fin 4096) : val_main_v28 (F := Ideal) (ix2 i (0 : Fin 2)) = BitVec.ofNat 32 i.val := by
  unfold val_main_v28
  refine (concatenate_pair_apply_left (1 : Fin S4096x2.rank) _ _ concatenates_S4096x1_S4096x1_S4096x2_d1
    (ix2 i (0 : Fin 2)) rfl (ix2 i (0 : Fin 1)) ?_).trans ?_
  · intro b
    match b with
    | ⟨0, _⟩ => rfl
    | ⟨1, _⟩ => rfl
  · rw [val_main_v26_apply, show idx_main_v26 (ix2 i (0 : Fin 1)) = ix1 i from
      funext fun a => Fin.ext (by match a with | ⟨0, _⟩ => rfl)]
    exact word_v20 i

/-- The first array of start indices at (i, 1): the word of i + 4096. -/
theorem startA_1 (i : Fin 4096) : val_main_v28 (F := Ideal) (ix2 i (1 : Fin 2)) = BitVec.ofNat 32 (i.val + 4096) := by
  unfold val_main_v28
  refine (concatenate_pair_apply_right (1 : Fin S4096x2.rank) _ _ concatenates_S4096x1_S4096x1_S4096x2_d1
    (ix2 i (1 : Fin 2)) rfl rfl (ix2 i (0 : Fin 1)) ?_ ?_).trans ?_
  · intro b hb
    match b with
    | ⟨0, _⟩ => rfl
    | ⟨1, _⟩ => exact absurd rfl hb
  · rfl
  · rw [val_main_v27_apply, show idx_main_v27 (ix2 i (0 : Fin 1)) = ix1 i from
      funext fun a => Fin.ext (by match a with | ⟨0, _⟩ => rfl)]
    exact word_v25 i

/-- The second array of start indices at (i, 0): the word of i + 4096. -/
theorem startB_0 (i : Fin 4096) : val_main_v44 (F := Ideal) (ix2 i (0 : Fin 2)) = BitVec.ofNat 32 (i.val + 4096) := by
  unfold val_main_v44
  refine (concatenate_pair_apply_left (1 : Fin S4096x2.rank) _ _ concatenates_S4096x1_S4096x1_S4096x2_d1
    (ix2 i (0 : Fin 2)) rfl (ix2 i (0 : Fin 1)) ?_).trans ?_
  · intro b
    match b with
    | ⟨0, _⟩ => rfl
    | ⟨1, _⟩ => rfl
  · rw [val_main_v42_apply, show idx_main_v42 (ix2 i (0 : Fin 1)) = ix1 i from
      funext fun a => Fin.ext (by match a with | ⟨0, _⟩ => rfl)]
    exact word_v36 i

/-- The second array of start indices at (i, 1): the word of i. -/
theorem startB_1 (i : Fin 4096) : val_main_v44 (F := Ideal) (ix2 i (1 : Fin 2)) = BitVec.ofNat 32 i.val := by
  unfold val_main_v44
  refine (concatenate_pair_apply_right (1 : Fin S4096x2.rank) _ _ concatenates_S4096x1_S4096x1_S4096x2_d1
    (ix2 i (1 : Fin 2)) rfl rfl (ix2 i (0 : Fin 1)) ?_ ?_).trans ?_
  · intro b hb
    match b with
    | ⟨0, _⟩ => rfl
    | ⟨1, _⟩ => exact absurd rfl hb
  · rfl
  · rw [val_main_v43_apply, show idx_main_v43 (ix2 i (0 : Fin 1)) = ix1 i from
      funext fun a => Fin.ext (by match a with | ⟨0, _⟩ => rfl)]
    exact word_v41 i

end Cert.RefBridge

end
-- ==== Proof.RefPos.lean ====
import proofs.«173961_j1236950581990_1_alg».proof.Proof.RefSim
import proofs.«173961_j1236950581990_1_alg».proof.Proof.RefGather
import proofs.«173961_j1236950581990_1_alg».proof.Proof.RefStart

/-!
# The positives of the reference are the specification's

Row i of the first gather is the similarity of rows i and i + 4096, row i of the second that of rows i + 4096 and i;
both are the inner product of the two unit rows i, the second with its factors in the other order. Joined, entry r
is the positive of row r mod 4096.
-/

noncomputable section

open scoped BigOperators

namespace Cert.RefBridge

open Idealize.ShloMosaic Idealize.ShloMosaic.ValueIdx Cert.ReferenceIdeal Cert.ReferenceIdeal.Gen Cert.ReferenceIdeal.ReadP

/-- The stack at a row below 4096 is the first array's unit row. -/
theorem z_lo (p1 p2 : Cert.Spec.Arr) (i : Fin 4096) (k : Fin 256) :
    Cert.Spec.z p1 p2 (⟨i.val, by have := i.isLt; omega⟩ : Fin 8192) k = Cert.Spec.unit p1 i k := by
  unfold Cert.Spec.z
  rw [if_pos (show i.val < 4096 from i.isLt)]
  congr 1
  apply Fin.ext
  show i.val % 4096 = i.val
  have := i.isLt; omega

/-- The stack at a row from 4096 on is the second array's unit row. -/
theorem z_hi (p1 p2 : Cert.Spec.Arr) (i : Fin 4096) (k : Fin 256) :
    Cert.Spec.z p1 p2 (⟨i.val + 4096, by have := i.isLt; omega⟩ : Fin 8192) k = Cert.Spec.unit p2 i k := by
  unfold Cert.Spec.z
  rw [if_neg (show ¬ (i.val + 4096 < 4096) by omega)]
  congr 1
  apply Fin.ext
  show (i.val + 4096) % 4096 = i.val
  have := i.isLt; omega

/-- The first gather at row i. -/
theorem gatherA_apply (x0 x1 : (⟨S4096x256, .f32⟩ : BufTy).Contents (Elt Ideal)) (i : Fin 4096) :
    val_main_v29 (F := Ideal) x0 x1 (ix1 i) = ∑ k : Fin 256, Cert.Spec.unit x0 i k * Cert.Spec.unit x1 i k := by
  unfold val_main_v29
  refine (gather_pair_of_words _ _ i (⟨i.val, by have := i.isLt; omega⟩ : Fin 8192)
    (⟨i.val + 4096, by have := i.isLt; omega⟩ : Fin 8192) (startA_0 i) (startA_1 i)).trans ?_
  rw [sim_apply]
  unfold Cert.Spec.sim
  refine Finset.sum_congr rfl fun k _ => ?_
  rw [z_lo, z_hi]

/-- The second gather at row i. -/
theorem gatherB_apply (x0 x1 : (⟨S4096x256, .f32⟩ : BufTy).Contents (Elt Ideal)) (i : Fin 4096) :
    val_main_v45 (F := Ideal) x0 x1 (ix1 i) = ∑ k : Fin 256, Cert.Spec.unit x1 i k * Cert.Spec.unit x0 i k := by
  unfold val_main_v45
  refine (gather_pair_of_words _ _ i (⟨i.val + 4096, by have := i.isLt; omega⟩ : Fin 8192)
    (⟨i.val, by have := i.isLt; omega⟩ : Fin 8192) (startB_0 i) (startB_1 i)).trans ?_
  rw [sim_apply]
  unfold Cert.Spec.sim
  refine Finset.sum_congr rfl fun k _ => ?_
  rw [z_lo, z_hi]

/-- The joined positives at row r. -/
theorem pos_apply (x0 x1 : (⟨S4096x256, .f32⟩ : BufTy).Contents (Elt Ideal)) (r : Fin 8192) :
    val_main_v46 (F := Ideal) x0 x1 (ix1 r) = Cert.Spec.pos x0 x1 r := by
  unfold val_main_v46
  by_cases h : r.val < 4096
  · refine (concatenate_pair_apply_left (0 : Fin S8192.rank) _ _ concatenates_S4096_S4096_S8192_d0
      (ix1 r) rfl (ix1 (Cert.Spec.low r)) ?_).trans ?_
    · intro b
      match b with
      | ⟨0, _⟩ => show r.val % 4096 = r.val; omega
    · rw [gatherA_apply]; rfl
  · refine (concatenate_pair_apply_right (0 : Fin S8192.rank) _ _ concatenates_S4096_S4096_S8192_d0
      (ix1 r) rfl rfl (ix1 (Cert.Spec.low r)) ?_ ?_).trans ?_
    · intro b hb
      match b with
      | ⟨0, _⟩ => exact absurd rfl hb
    · show r.val % 4096 + 4096 = r.val
      have := r.isLt; omega
    · rw [gatherB_apply]
      unfold Cert.Spec.pos
      exact Finset.sum_congr rfl fun k _ => mul_comm _ _

end Cert.RefBridge

end
-- ==== Proof.RefConsts.lean ====
import Idealize.ShloMosaic.PureOps.Ideal
import Idealize.ShloMosaic.PureOps.Ideal.Laws
import Idealize.ShloMosaic.Lib.ValueIdx

/-!
# The literal words of the reference and the few scalar identities its masks and scales use

The words 1.0, 1/2 and 2 as extended reals; dividing by the word 1/2 is multiplying by the word 2; the mask
1 - [r = c] of the diagonal, read on the extended reals, is 0 on the diagonal and 1 off it; a sum over a rank-1
index set is the sum over its coordinate.
-/

noncomputable section

open scoped BigOperators

namespace Cert.RefBridge

open Idealize.ShloMosaic Idealize.ShloMosaic.ValueIdx

/-- The word 1.0 denotes 1. -/
theorem ofBits_one : Ideal.ofBits .f32 0x3F800000#32 = 1 := by
  simp [Ideal.ofBits, Ideal.ieee, -EReal.coe_mul]; norm_num

/-- The word 0.5 denotes the real 1/2. -/
theorem ofBits_half : Ideal.ofBits .f32 0x3F000000#32 = ((1 / 2 : ℝ) : EReal) := by
  simp [Ideal.ofBits, Ideal.ieee, -EReal.coe_mul]; norm_num

/-- The word 2.0 denotes the real 2. -/
theorem ofBits_two : Ideal.ofBits .f32 0x40000000#32 = ((2 : ℝ) : EReal) := by
  simp [Ideal.ofBits, Ideal.ieee, -EReal.coe_mul]; norm_num

/-- Dividing by the word 1/2 is multiplying by the word 2, for every extended real. -/
theorem div_half (x : EReal) :
    Ideal.div x (Ideal.ofBits .f32 0x3F000000#32) = x * Ideal.ofBits .f32 0x40000000#32 := by
  rw [ofBits_half, ofBits_two, Ideal.div_coe (by norm_num)]
  norm_num

/-- The comparison of the row number (plus the zero word) with the column number: the bit of r = c. -/
theorem cmpi_eq_iota (r c : Fin 8192) :
    IntOp.cmpi .eq (IntOp.addi (BitVec.ofNat 32 r.val) 0#32) (BitVec.ofNat 32 c.val) = if r = c then 1#1 else 0#1 := by
  unfold IntOp.cmpi IntOp.addi
  by_cases h : r = c
  · subst h; simp
  · rw [if_neg h]
    have hne : ¬ (BitVec.ofNat 32 r.val = BitVec.ofNat 32 c.val) := by
      intro e
      have h2 := congrArg BitVec.toNat e
      simp only [BitVec.toNat_ofNat] at h2
      apply h; apply Fin.ext
      have hr := r.isLt; have hc := c.isLt
      omega
    simp only [BitVec.add_zero]
    rw [beq_eq_false_iff_ne.mpr hne]
    rfl

/-- One minus one is zero on the extended reals. -/
theorem one_sub_one : (1 : EReal) - 1 = 0 := by
  rw [← EReal.coe_one, ← EReal.coe_sub, sub_self, EReal.coe_zero]

/-- The mask of the reference at (r, c): 1 - [r = c] is 0 on the diagonal and 1 off it. -/
theorem mask_apply (r c : Fin 8192) :
    FloatOps.subf (F := Ideal) (φ := .f32) (Ideal.ofBits .f32 0x3F800000#32)
      (FloatOps.uitofp (F := Ideal) .f32 (IntOp.cmpi .eq (IntOp.addi (BitVec.ofNat 32 r.val) 0#32) (BitVec.ofNat 32 c.val)))
      = if r = c then 0 else 1 := by
  rw [cmpi_eq_iota, ofBits_one]
  by_cases h : r = c
  · rw [if_pos h, if_pos h]
    show (1 : EReal) - (((1#1 : BitVec 1).toNat : ℝ) : EReal) = 0
    rw [show ((1#1 : BitVec 1).toNat : ℝ) = 1 by norm_num, EReal.coe_one, one_sub_one]
  · rw [if_neg h, if_neg h]
    show (1 : EReal) - (((0#1 : BitVec 1).toNat : ℝ) : EReal) = 1
    rw [show ((0#1 : BitVec 1).toNat : ℝ) = 0 by norm_num, EReal.coe_zero, sub_zero]

/-- A rank-1 index set is its coordinate's range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.RefBridge

end
-- ==== Proof.RefDen.lean ====
import proofs.«173961_j1236950581990_1_alg».proof.Proof.RefSim
import proofs.«173961_j1236950581990_1_alg».proof.Proof.RefConsts

/-!
# The denominators of the reference are the specification's

Row r sums, from the zero word, the mask 1 - [r = c] times exp(sim / (1/2)) over the columns c: the mask is 0 on
the diagonal, where 0 times anything is 0 on the extended reals, and 1 off it, and dividing by the word 1/2 is
multiplying by the word 2.
-/

noncomputable section

open scoped BigOperators

namespace Cert.RefBridge

open Idealize.ShloMosaic Idealize.ShloMosaic.ValueIdx Cert.ReferenceIdeal Cert.ReferenceIdeal.Gen Cert.ReferenceIdeal.ReadP

/-- The masked exponential at (r, c). -/
theorem masked_apply (x0 x1 : (⟨S4096x256, .f32⟩ : BufTy).Contents (Elt Ideal)) (r c : Fin 8192) :
    val_main_v61 (F := Ideal) x0 x1 (ix2 r c)
      = if r = c then 0 else Ideal.exp (Cert.Spec.sim x0 x1 r c * Cert.Spec.two) := by
  rw [val_main_v61_apply, val_main_v57_apply, val_main_v56_apply, val_main_cst_12_apply, val_main_v55_apply,
    val_main_v54_apply, val_main_v53_apply, val_main_v52_apply, val_main_c_11_apply, val_main_v60_apply,
    val_main_v59_apply, val_main_v58_apply, val_main_cst_13_apply, sim_apply]
  have hm := mask_apply r c
  have hmask : FloatOps.subf (F := Ideal) (φ := .f32) (FloatOps.ofBits .f32 0x3F800000#32)
      (FloatOps.uitofp (F := Ideal) .f32 (IntOp.cmpi .eq (IntOp.addi (val_main_v50 (F := Ideal) (ix2 r c)) 0#32)
        (val_main_v51 (F := Ideal) (ix2 r c)))) = if r = c then 0 else 1 := hm
  rw [hmask]
  simp only [Ideal.mulf_def, Ideal.hostUnary_exp_def, Ideal.hostDivf_def, Ideal.ofBits_def]
  rw [div_half]
  by_cases h : r = c
  · rw [if_pos h, if_pos h, zero_mul]
  · rw [if_neg h, if_neg h, one_mul]; rfl

/-- The denominator of row r. -/
theorem den_apply (x0 x1 : (⟨S4096x256, .f32⟩ : BufTy).Contents (Elt Ideal)) (r : Fin 8192) :
    val_main_v62 (F := Ideal) x0 x1 (ix1 r) = Cert.Spec.den x0 x1 r := by
  have e : ∀ c : Fin 8192, idx_main_v62 (ix1 r) c = ix2 r c := fun c =>
    funext fun a => Fin.ext (by match a with | ⟨0, _⟩ => rfl | ⟨1, _⟩ => rfl)
  rw [val_main_v62_apply, val_main_cst_14_apply]
  simp only [e, masked_apply, Ideal.ofBits_def, Ideal.ofBits_zero_f32, zero_add]
  rfl

end Cert.RefBridge

end
-- ==== Proof.RefLoss.lean ====
import proofs.«173961_j1236950581990_1_alg».proof.Proof.RefPos
import proofs.«173961_j1236950581990_1_alg».proof.Proof.RefDen

/-!
# The tail of the reference: the terms, their sum from the zero word, and the mean

Row r's term is minus the logarithm of exp(positive / (1/2)) over the denominator; the result is the sum of the
8192 terms, started from the zero word, divided by the word 8192.
-/

noncomputable section

open scoped BigOperators

namespace Cert.RefBridge

open Idealize.ShloMosaic Idealize.ShloMosaic.ValueIdx Cert.ReferenceIdeal Cert.ReferenceIdeal.Gen Cert.ReferenceIdeal.ReadP

/-- The term of row r. -/
theorem term_apply (x0 x1 : (⟨S4096x256, .f32⟩ : BufTy).Contents (Elt Ideal)) (r : Fin 8192) :
    val_main_v65 (F := Ideal) x0 x1 (ix1 r) = Cert.Spec.term x0 x1 r := by
  rw [val_main_v65_apply, val_main_v64_apply, val_main_v63_apply, val_main_v49_apply, val_main_v48_apply,
    val_main_v47_apply, val_main_cst_10_apply, pos_apply, den_apply]
  rfl

/-- The reference's result is the loss. -/
theorem loss_eq (x0 x1 : (⟨S4096x256, .f32⟩ : BufTy).Contents (Elt Ideal)) :
    val_main_v67 (F := Ideal) x0 x1 = fun _ => Cert.Spec.loss x0 x1 := by
  funext i
  rw [val_main_v67_apply, val_main_v66_apply, val_main_cst_15_apply, val_main_cst_16_apply, sum_idx1]
  simp only [term_apply, Ideal.ofBits_def, Ideal.ofBits_zero_f32, zero_add, Ideal.hostDivf_def]
  rfl

end Cert.RefBridge

end
-- ==== Proof.RefBridge.lean ====
import proofs.«173961_j1236950581990_1_alg».proof.Proof.RefStages
import proofs.«173961_j1236950581990_1_alg».proof.Proof.RefLoss

/-!
# The reference's run ends at the loss of its two arguments

Every weakly fair execution of the reference terminates with its result buffer at the loss of the two argument
arrays as the run found them, and the two argument buffers unchanged.
-/

noncomputable section

namespace Cert.RefBridge

open Idealize.ShloMosaic Idealize.ShloMosaic.TcCoe Idealize.SL.Sem Idealize.ShloMosaic.StableHlo Cert.ReferenceIdeal Cert.ReferenceIdeal.Gen Cert.ReferenceIdeal.ValueP Cert.ReferenceIdeal.ReadP

/-- The reference's run: the result is the loss, the arguments are unchanged. -/
theorem run_loss (m : (ℓ : Loc nD τ sig) → Buf (Elt Ideal) ℓ) (ρ : Dev nD → PrngReg) :
    θ_run Cert.ReferenceIdeal.defs (onTc (τ := τ) (main (F := Ideal))) ⟨m, fun _ => 0, ρ⟩ (fun r => ∀ c : Dev nD,
      r.2.mem ((c.tc : Thread nD τ).loc main_v67)
          = (fun _ => Cert.Spec.loss (m ((c.tc : Thread nD τ).loc main_arg0)) (m ((c.tc : Thread nD τ).loc main_arg1)))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run Cert.ReferenceIdeal.defs _ _).mono
    (fun _ h c => ⟨(h c main_v67).trans ((after_res _).trans (loss_eq _ _)),
      (h c main_arg0).trans (after_arg0 _), (h c main_arg1).trans (after_arg1 _)⟩)
    (run_after (F := Ideal) m ρ)

end Cert.RefBridge

end
-- ==== Proof.lean ====
/-
  The certificate of the contrastive-loss kernel against its reference. The kernel's program and its idealization are one
  text (the ideal pass rewrote nothing), so their frames are one proof read at the two instances: the denominator kernel's
  region by its body's runs per column block, the two input windows sharing the stacked-rows array half and half, the host
  stretches folded into valuations. The reference has no kernel: its frame is its run with the result dropped. On the
  extended reals both programs end with the loss of their two arguments as one function, Cert.Spec.loss: the kernel's
  result array holds each row's masked sum of exp(2 sim) accumulated over eight column blocks, the reference's the same
  sum as a product with the complement of the identity; the positives are the same inner products.
-/
import proofs.«173961_j1236950581990_1_alg».proof.Defs
import proofs.«173961_j1236950581990_1_alg».proof.Proof.Gen.Kernel
import proofs.«173961_j1236950581990_1_alg».proof.Proof.Gen.KernelIdeal
import proofs.«173961_j1236950581990_1_alg».proof.Proof.Gen.ReferenceIdeal
import proofs.«173961_j1236950581990_1_alg».proof.Proof.Gen.Pre_finite_inputs
import proofs.«173961_j1236950581990_1_alg».proof.Proof.Kernel.Launch
import proofs.«173961_j1236950581990_1_alg».proof.Proof.KernelIdeal.Result
import proofs.«173961_j1236950581990_1_alg».proof.Proof.RefBridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference is host operations only: its frame is its run with the result dropped. -/
theorem frame_referenceIdeal : Cert.frame_ReferenceIdeal := fun m ρ _ =>
  (θ_run Cert.ReferenceIdeal.defs _ _).mono (fun _ h c => (h c).2) (Cert.RefBridge.run_loss m ρ)

/-- The ideal pass rewrote nothing. -/
theorem preserves : Cert.preserves_Kernel_KernelIdeal := trivial

/-- On the extended reals both programs end with the loss of their two arguments. -/
theorem algebraic : Cert.algebraic_KernelIdeal_ReferenceIdeal := by
  intro m ρ m' ρ' _ hagree
  refine ⟨fun c _ => Cert.Spec.loss (Cert.KernelIdeal.Hand.argA m c) (Cert.KernelIdeal.Hand.argB m c), ?_, ?_⟩
  · exact (θ_run Cert.KernelIdeal.defs _ _).mono
      (fun _ h c => ⟨(h c).1.trans (Cert.KernelIdeal.Hand.loss_result m c), (h c).2⟩)
      (Cert.KernelIdeal.Hand.run_result (F := Ideal) m ρ)
  · refine (θ_run Cert.ReferenceIdeal.defs _ _).mono (fun _ h c => ⟨(h c).1.trans ?_, (h c).2⟩)
      (Cert.RefBridge.run_loss m' ρ')
    rw [(hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
